-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S16x1 .f32) (main_arg9 : FVec F S1 .f32) (main_v33 : IVec S_ 1) : IVec S_ 1 :=
  let main_v34 : FVec F S16x1 .f32 := Host.absf main_arg8
  let main_cst_12 : FVec F S_ .f32 := constant S_ .f32 0x7F800000#32
  let main_v35 : FVec F S16x1 .f32 := broadcastInDim S16x1 ![] bcast_S_S16x1 main_cst_12
  let main_v36 : IVec S16x1 1 := cmpf .olt main_v34 main_v35
  let main_c_13 : IVec S_ 1 := constantI S_ 1 1#1
  let main_v37 : IVec S_ 1 := (fun x v => Host.reduce IntOp.andi x v reducesTo_S16x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S32 .f32) (main_arg6 : FVec F S32x16 .f32) (main_arg7 : FVec F S16 .f32) (main_arg8 : FVec F S16x1 .f32) (main_arg9 : FVec F S1 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x16 .f32 := Host.absf main_arg6
  let main_cst_8 : FVec F S_ .f32 := constant S_ .f32 0x7F800000#32
  let main_v25 : FVec F S32x16 .f32 := broadcastInDim S32x16 ![] bcast_S_S32x16 main_cst_8
  let main_v26 : IVec S32x16 1 := cmpf .olt main_v24 main_v25
  let main_c_9 : IVec S_ 1 := constantI S_ 1 1#1
  let main_v27 : IVec S_ 1 := (fun x v => Host.reduce IntOp.andi x v reducesTo_S32x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x3200000 32) (main_arg2 : FVec F S128x64 .f32) (main_arg3 : FVec F S64 .f32) (main_arg4 : FVec F S64x32 .f32) (main_arg5 : FVec F S32 .f32) (main_arg6 : FVec F S32x16 .f32) (main_arg7 : FVec F S16 .f32) (main_arg8 : FVec F S16x1 .f32) (main_arg9 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S100000x64 : Shape := ⟨2, ![100000, 64]⟩
abbrev S5000x128 : Shape := ⟨2, ![5000, 128]⟩
abbrev S5000x64 : Shape := ⟨2, ![5000, 64]⟩
abbrev S3300000x64 : Shape := ⟨2, ![3300000, 64]⟩
abbrev S1x64 : Shape := ⟨2, ![1, 64]⟩
abbrev S5000x1 : Shape := ⟨2, ![5000, 1]⟩
abbrev S100000x32 : Shape := ⟨2, ![100000, 32]⟩
abbrev S5000x32 : Shape := ⟨2, ![5000, 32]⟩
abbrev S3300000x32 : Shape := ⟨2, ![3300000, 32]⟩
abbrev S1x32 : Shape := ⟨2, ![1, 32]⟩
abbrev S100000x16 : Shape := ⟨2, ![100000, 16]⟩
abbrev S5000x16 : Shape := ⟨2, ![5000, 16]⟩
abbrev S3300000x16 : Shape := ⟨2, ![3300000, 16]⟩
abbrev S1x16 : Shape := ⟨2, ![1, 16]⟩
abbrev S1x1 : Shape := ⟨2, ![1, 1]⟩

abbrev nBuf : Space → Nat
  | .hbm => 88
  | .vmem => 42
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x16, .f32⟩
  | .hbm, ⟨7, _⟩ => ⟨S16, .f32⟩
  | .hbm, ⟨8, _⟩ => ⟨S16x1, .f32⟩
  | .hbm, ⟨9, _⟩ => ⟨S1, .f32⟩
  | .hbm, ⟨10, _⟩ => ⟨S100000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S1x3200000, .i32⟩
  | .hbm, ⟨15, _⟩ => ⟨S3200000, .i32⟩
  | .hbm, ⟨16, _⟩ => ⟨S3300000, .i32⟩
  | .hbm, ⟨17, _⟩ => ⟨S_, .f32⟩
  | .hbm, ⟨18, _⟩ => ⟨S3300000, .f32⟩
  | .hbm, ⟨19, _⟩ => ⟨S_, .f32⟩
  | .hbm, ⟨20, _⟩ => ⟨S100000, .f32⟩
  | .hbm, ⟨21, _⟩ => ⟨S3300000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x64, .f32⟩
  | .hbm, ⟨33, _⟩ => ⟨S100000x64, .f32⟩
  | .hbm, ⟨34, _⟩ => ⟨S100000x64, .f32⟩
  | .hbm, ⟨35, _⟩ => ⟨S_, .i32⟩
  | .hbm, ⟨36, _⟩ => ⟨S3300000, .i32⟩
  | .hbm, ⟨37, _⟩ => ⟨S3300000, .i1⟩
  | .hbm, ⟨38, _⟩ => ⟨S_, .i32⟩
  | .hbm, ⟨39, _⟩ => ⟨S3300000, .i32⟩
  | .hbm, ⟨40, _⟩ => ⟨S3300000, .i32⟩
  | .hbm, ⟨41, _⟩ => ⟨S3300000, .i32⟩
  | .hbm, ⟨42, _⟩ => ⟨S3300000x1, .i32⟩
  | .hbm, ⟨43, _⟩ => ⟨S3300000x64, .f32⟩
  | .hbm, ⟨44, _⟩ => ⟨S_, .f32⟩
  | .hbm, ⟨45, _⟩ => ⟨S100000x64, .f32⟩
  | .hbm, ⟨46, _⟩ => ⟨S3300000x1, .i32⟩
  | .hbm, ⟨47, _⟩ => ⟨S100000x64, .f32⟩
  | .hbm, ⟨48, _⟩ => ⟨S1x64, .f32⟩
  | .hbm, ⟨49, _⟩ => ⟨S100000x64, .f32⟩
  | .hbm, ⟨50, _⟩ => ⟨S100000x32, .f32⟩
  | .hbm, ⟨51, _⟩ => ⟨S100000x32, .f32⟩
  | .hbm, ⟨52, _⟩ => ⟨S100000x32, .f32⟩
  | .hbm, ⟨53, _⟩ => ⟨S_, .i32⟩
  | .hbm, ⟨54, _⟩ => ⟨S3300000, .i32⟩
  | .hbm, ⟨55, _⟩ => ⟨S3300000, .i1⟩
  | .hbm, ⟨56, _⟩ => ⟨S_, .i32⟩
  | .hbm, ⟨57, _⟩ => ⟨S3300000, .i32⟩
  | .hbm, ⟨58, _⟩ => ⟨S3300000, .i32⟩
  | .hbm, ⟨59, _⟩ => ⟨S3300000, .i32⟩
  | .hbm, ⟨60, _⟩ => ⟨S3300000x1, .i32⟩
  | .hbm, ⟨61, _⟩ => ⟨S3300000x32, .f32⟩
  | .hbm, ⟨62, _⟩ => ⟨S_, .f32⟩
  | .hbm, ⟨63, _⟩ => ⟨S100000x32, .f32⟩
  | .hbm, ⟨64, _⟩ => ⟨S3300000x1, .i32⟩
  | .hbm, ⟨65, _⟩ => ⟨S100000x32, .f32⟩
  | .hbm, ⟨66, _⟩ => ⟨S1x32, .f32⟩
  | .hbm, ⟨67, _⟩ => ⟨S100000x32, .f32⟩
  | .hbm, ⟨68, _⟩ => ⟨S100000x16, .f32⟩
  | .hbm, ⟨69, _⟩ => ⟨S100000x16, .f32⟩
  | .hbm, ⟨70, _⟩ => ⟨S100000x16, .f32⟩
  | .hbm, ⟨71, _⟩ => ⟨S_, .i32⟩
  | .hbm, ⟨72, _⟩ => ⟨S3300000, .i32⟩
  | .hbm, ⟨73, _⟩ => ⟨S3300000, .i1⟩
  | .hbm, ⟨74, _⟩ => ⟨S_, .i32⟩
  | .hbm, ⟨75, _⟩ => ⟨S3300000, .i32⟩
  | .hbm, ⟨76, _⟩ => ⟨S3300000, .i32⟩
  | .hbm, ⟨77, _⟩ => ⟨S3300000, .i32⟩
  | .hbm, ⟨78, _⟩ => ⟨S3300000x1, .i32⟩
  | .hbm, ⟨79, _⟩ => ⟨S3300000x16, .f32⟩
  | .hbm, ⟨80, _⟩ => ⟨S_, .f32⟩
  | .hbm, ⟨81, _⟩ => ⟨S100000x16, .f32⟩
  | .hbm, ⟨82, _⟩ => ⟨S3300000x1, .i32⟩
  | .hbm, ⟨83, _⟩ => ⟨S100000x16, .f32⟩
  | .hbm, ⟨84, _⟩ => ⟨S1x16, .f32⟩
  | .hbm, ⟨85, _⟩ => ⟨S100000x16, .f32⟩
  | .hbm, ⟨86, _⟩ => ⟨S1x1, .f32⟩
  | .hbm, ⟨87, _⟩ => ⟨S100000x1, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x1, .f32⟩
  | .local _ .vmem, ⟨8, _⟩ => ⟨S5000x1, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S64x32, .f32⟩
  | .local _ .vmem, ⟨15, _⟩ => ⟨S5000x32, .f32⟩
  | .local _ .vmem, ⟨16, _⟩ => ⟨S5000x32, .f32⟩
  | .local _ .vmem, ⟨17, _⟩ => ⟨S5000x32, .f32⟩
  | .local _ .vmem, ⟨18, _⟩ => ⟨S5000x32, .f32⟩
  | .local _ .vmem, ⟨19, _⟩ => ⟨S5000x1, .f32⟩
  | .local _ .vmem, ⟨20, _⟩ => ⟨S5000x1, .f32⟩
  | .local _ .vmem, ⟨21, _⟩ => ⟨S1x32, .f32⟩
  | .local _ .vmem, ⟨22, _⟩ => ⟨S5000x32, .f32⟩
  | .local _ .vmem, ⟨23, _⟩ => ⟨S5000x32, .f32⟩
  | .local _ .vmem, ⟨24, _⟩ => ⟨S5000x32, .f32⟩
  | .local _ .vmem, ⟨25, _⟩ => ⟨S5000x32, .f32⟩
  | .local _ .vmem, ⟨26, _⟩ => ⟨S32x16, .f32⟩
  | .local _ .vmem, ⟨27, _⟩ => ⟨S5000x16, .f32⟩
  | .local _ .vmem, ⟨28, _⟩ => ⟨S5000x16, .f32⟩
  | .local _ .vmem, ⟨29, _⟩ => ⟨S5000x16, .f32⟩
  | .local _ .vmem, ⟨30, _⟩ => ⟨S5000x16, .f32⟩
  | .local _ .vmem, ⟨31, _⟩ => ⟨S5000x1, .f32⟩
  | .local _ .vmem, ⟨32, _⟩ => ⟨S5000x1, .f32⟩
  | .local _ .vmem, ⟨33, _⟩ => ⟨S1x16, .f32⟩
  | .local _ .vmem, ⟨34, _⟩ => ⟨S5000x16, .f32⟩
  | .local _ .vmem, ⟨35, _⟩ => ⟨S5000x16, .f32⟩
  | .local _ .vmem, ⟨36, _⟩ => ⟨S5000x16, .f32⟩
  | .local _ .vmem, ⟨37, _⟩ => ⟨S5000x16, .f32⟩
  | .local _ .vmem, ⟨38, _⟩ => ⟨S16x1, .f32⟩
  | .local _ .vmem, ⟨39, _⟩ => ⟨S1x1, .f32⟩
  | .local _ .vmem, ⟨40, _⟩ => ⟨S5000x1, .f32⟩
  | .local _ .vmem, ⟨41, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_4 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_5 : Ref sig .tc := ⟨.hbm, 53, rfl⟩
abbrev main_v34 : Ref sig .tc := ⟨.hbm, 54, rfl⟩
abbrev main_v35 : Ref sig .tc := ⟨.hbm, 55, rfl⟩
abbrev main_c_6 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_7 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_8 : Ref sig .tc := ⟨.hbm, 71, rfl⟩
abbrev main_v49 : Ref sig .tc := ⟨.hbm, 72, rfl⟩
abbrev main_v50 : Ref sig .tc := ⟨.hbm, 73, rfl⟩
abbrev main_c_9 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_10 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg1_1 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg2_0 : Ref sig .tc := ⟨.vmem, 39, rfl⟩
abbrev cc6_stg3_0 : Ref sig .tc := ⟨.vmem, 40, rfl⟩
abbrev cc6_stg3_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem1_1 : DmaSem sig := 32
abbrev cc5_sem2_0 : DmaSem sig := 33
abbrev cc5_sem3_0 : DmaSem sig := 34
abbrev cc5_sem3_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem3_0 : DmaSem sig := 40
abbrev cc6_sem3_1 : DmaSem sig := 41

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x32 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32x16 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x16 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x16 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x16 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x16 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x16 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S16x1 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x1 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  inb_S5000x32_S5000x32_0_0 : ∀ a, (![0, 0] : Fin 2 → Nat) a + S5000x32.size a ≤ S5000x32.size a
  h_S5000x32 : 0 < S5000x32.numel
  bcast_S100000x1_S100000x32_0_1 : S100000x1.BroadcastsInDim S100000x32 (![0, 1] : Fin 2 → Fin S100000x32.rank)
  bcast_S_S100000x32 : S_.BroadcastsInDim S100000x32 (![] : Fin 0 → Fin S100000x32.rank)
  shapeCasts_S32_S1x32 : S32.ShapeCasts S1x32
  shapeCasts_S5000x32_S5000x32 : S5000x32.ShapeCasts S5000x32
  broadcasts_S5000x1_S5000x32 : S5000x1.Broadcasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x16_S32x16_0_0 : ∀ a, (![0, 0] : Fin 2 → Nat) a + S32x16.size a ≤ S32x16.size a
  h_S32x16 : 0 < S32x16.numel
  inb_S5000x16_S5000x16_0_0 : ∀ a, (![0, 0] : Fin 2 → Nat) a + S5000x16.size a ≤ S5000x16.size a
  h_S5000x16 : 0 < S5000x16.numel
  bcast_S100000x1_S100000x16_0_1 : S100000x1.BroadcastsInDim S100000x16 (![0, 1] : Fin 2 → Fin S100000x16.rank)
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  broadcasts_S5000x1_S5000x16 : S5000x1.Broadcasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  shapeCasts_S1_S1x1 : S1.ShapeCasts S1x1
  inb_S16x1_S16x1_0_0 : ∀ a, (![0, 0] : Fin 2 → Nat) a + S16x1.size a ≤ S16x1.size a
  h_S16x1 : 0 < S16x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  scatter_S100000_S3300000x1_S3300000_n_0_0_1_wf : ScatterDims.WF S100000 S3300000x1 S3300000 [] [0] [0] 1
  dot_S5000x128_S128x64_S5000x64_1_0_0_1_n_n_wf : DotDims.WF S5000x128 S128x64 S5000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S5000x64_S64x32_S5000x32_1_0_0_1_n_n_wf : DotDims.WF S5000x64 S64x32 S5000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S5000x32_S32x16_S5000x16_1_0_0_1_n_n_wf : DotDims.WF S5000x32 S32x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S5000x16_S16x1_S5000x1_1_0_0_1_n_n_wf : DotDims.WF S5000x16 S16x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x32.size a ≤ S64x32.size a
  hwx2_1 : ∀ i : grid2.Coords, EltTy.bits .f32 = 32 ∨ (Rect.block (s := S64x32) S64x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x32.size a ≤ S100000x32.size a
  hwx2_2 : ∀ i : grid2.Coords, EltTy.bits .f32 = 32 ∨ (Rect.block (s := S100000x32) S5000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x32.size a ≤ S100000x32.size a
  hwx3_0 : ∀ i : grid3.Coords, EltTy.bits .f32 = 32 ∨ (Rect.block (s := S100000x32) S5000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x32.size a ≤ S1x32.size a
  hwx3_2 : ∀ i : grid3.Coords, EltTy.bits .f32 = 32 ∨ (Rect.block (s := S1x32) S1x32.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x32.size a ≤ S100000x32.size a
  hwx3_3 : ∀ i : grid3.Coords, EltTy.bits .f32 = 32 ∨ (Rect.block (s := S100000x32) S5000x32.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x32.size a ≤ S100000x32.size a
  hwx4_0 : ∀ i : grid4.Coords, EltTy.bits .f32 = 32 ∨ (Rect.block (s := S100000x32) S5000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x16.size a ≤ S32x16.size a
  hwx4_1 : ∀ i : grid4.Coords, EltTy.bits .f32 = 32 ∨ (Rect.block (s := S32x16) S32x16.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x16.size a ≤ S100000x16.size a
  hwx4_2 : ∀ i : grid4.Coords, EltTy.bits .f32 = 32 ∨ (Rect.block (s := S100000x16) S5000x16.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x16.size a ≤ S100000x16.size a
  hwx5_0 : ∀ i : grid5.Coords, EltTy.bits .f32 = 32 ∨ (Rect.block (s := S100000x16) S5000x16.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S100000x1.size a
  hwx5_1 : ∀ i : grid5.Coords, EltTy.bits .f32 = 32 ∨ (Rect.block (s := S100000x1) S5000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x16.size a ≤ S1x16.size a
  hwx5_2 : ∀ i : grid5.Coords, EltTy.bits .f32 = 32 ∨ (Rect.block (s := S1x16) S1x16.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x16.size a ≤ S100000x16.size a
  hwx5_3 : ∀ i : grid5.Coords, EltTy.bits .f32 = 32 ∨ (Rect.block (s := S100000x16) S5000x16.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x16.size a ≤ S100000x16.size a
  hwx6_0 : ∀ i : grid6.Coords, EltTy.bits .f32 = 32 ∨ (Rect.block (s := S100000x16) S5000x16.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S16x1.size a ≤ S16x1.size a
  hwx6_1 : ∀ i : grid6.Coords, EltTy.bits .f32 = 32 ∨ (Rect.block (s := S16x1) S16x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x1.size a ≤ S1x1.size a
  hwx6_2 : ∀ i : grid6.Coords, EltTy.bits .f32 = 32 ∨ (Rect.block (s := S1x1) S1x1.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x1.size a ≤ S100000x1.size a
  hwx6_3 : ∀ i : grid6.Coords, EltTy.bits .f32 = 32 ∨ (Rect.block (s := S100000x1) S5000x1.size (cc6_transform_3 i) (hinb6_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S5000x32_S32x16_S5000x16_1_0_0_1_n_n : DotDims S5000x32 S32x16 S5000x16 where
  lhsContracting := [1]
  rhsContracting := [0]
  lhsNonContracting := [0]
  rhsNonContracting := [1]
  lhsBatch := []
  rhsBatch := []
  wf := dot_S5000x32_S32x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S5000x16_S16x1_S5000x1_1_0_0_1_n_n : DotDims S5000x16 S16x1 S5000x1 where
  lhsContracting := [1]
  rhsContracting := [0]
  lhsNonContracting := [0]
  rhsNonContracting := [1]
  lhsBatch := []
  rhsBatch := []
  wf := dot_S5000x16_S16x1_S5000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v28) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v30) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v31) S5000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v43) S5000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v44) S1x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v45) S5000x32.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v45) S5000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S32x16.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v46) S5000x16.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v58) S5000x16.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v15) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v59) S1x16.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v60) S5000x16.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v60) S5000x16.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S16x1.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v61) S1x1.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v62) S5000x1.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S100000x64 : Shape := ⟨2, ![100000, 64]⟩
abbrev S_ : Shape := ⟨0, ![]⟩
abbrev S3300000x1 : Shape := ⟨2, ![3300000, 1]⟩
abbrev S3300000x64 : Shape := ⟨2, ![3300000, 64]⟩
abbrev S1x64 : Shape := ⟨2, ![1, 64]⟩
abbrev S100000x32 : Shape := ⟨2, ![100000, 32]⟩
abbrev S3300000x32 : Shape := ⟨2, ![3300000, 32]⟩
abbrev S1x32 : Shape := ⟨2, ![1, 32]⟩
abbrev S100000x16 : Shape := ⟨2, ![100000, 16]⟩
abbrev S3300000x16 : Shape := ⟨2, ![3300000, 16]⟩
abbrev S1x16 : Shape := ⟨2, ![1, 16]⟩
abbrev S100000x1 : Shape := ⟨2, ![100000, 1]⟩
abbrev S1x1 : Shape := ⟨2, ![1, 1]⟩

abbrev nBuf : Space → Nat
  | .hbm => 189
  | .vmem => 0
  | .smem => 0
  | _ => 0

abbrev hbmTy0_0 (i : Nat) : BufTy := match i % 128 with
  | 0 => ⟨S100000x128, .f32⟩
  | 1 => ⟨S2x3200000, .i32⟩
  | 2 => ⟨S128x64, .f32⟩
  | 3 => ⟨S64, .f32⟩
  | 4 => ⟨S64x32, .f32⟩
  | 5 => ⟨S32, .f32⟩
  | 6 => ⟨S32x16, .f32⟩
  | 7 => ⟨S16, .f32⟩
  | 8 => ⟨S16x1, .f32⟩
  | 9 => ⟨S1, .f32⟩
  | 10 => ⟨S100000, .i32⟩
  | 11 => ⟨S1x3200000, .i32⟩
  | 12 => ⟨S3200000, .i32⟩
  | 13 => ⟨S3300000, .i32⟩
  | 14 => ⟨S1x3200000, .i32⟩
  | 15 => ⟨S3200000, .i32⟩
  | 16 => ⟨S3300000, .i32⟩
  | 17 => ⟨S100000x64, .f32⟩
  | 18 => ⟨S_, .f32⟩
  | 19 => ⟨S3300000, .f32⟩
  | 20 => ⟨S_, .f32⟩
  | 21 => ⟨S100000, .f32⟩
  | 22 => ⟨S3300000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S3300000, .i32⟩
  | 34 => ⟨S3300000, .i1⟩
  | 35 => ⟨S_, .i32⟩
  | 36 => ⟨S3300000, .i32⟩
  | 37 => ⟨S3300000, .i32⟩
  | 38 => ⟨S3300000, .i32⟩
  | 39 => ⟨S3300000x1, .i32⟩
  | 40 => ⟨S3300000, .f32⟩
  | 41 => ⟨S_, .i32⟩
  | 42 => ⟨S3300000, .i32⟩
  | 43 => ⟨S3300000, .i1⟩
  | 44 => ⟨S_, .i32⟩
  | 45 => ⟨S3300000, .i32⟩
  | 46 => ⟨S3300000, .i32⟩
  | 47 => ⟨S3300000, .i32⟩
  | 48 => ⟨S3300000x1, .i32⟩
  | 49 => ⟨S3300000, .f32⟩
  | 50 => ⟨S3300000, .f32⟩
  | 51 => ⟨S_, .i32⟩
  | 52 => ⟨S3300000, .i32⟩
  | 53 => ⟨S3300000, .i1⟩
  | 54 => ⟨S_, .i32⟩
  | 55 => ⟨S3300000, .i32⟩
  | 56 => ⟨S3300000, .i32⟩
  | 57 => ⟨S3300000, .i32⟩
  | 58 => ⟨S3300000x1, .i32⟩
  | 59 => ⟨S3300000x64, .f32⟩
  | 60 => ⟨S3300000x1, .f32⟩
  | 61 => ⟨S3300000x64, .f32⟩
  | 62 => ⟨S3300000x64, .f32⟩
  | 63 => ⟨S_, .f32⟩
  | 64 => ⟨S100000x64, .f32⟩
  | 65 => ⟨S3300000x1, .i32⟩
  | 66 => ⟨S100000x64, .f32⟩
  | 67 => ⟨S1x64, .f32⟩
  | 68 => ⟨S100000x64, .f32⟩
  | 69 => ⟨S100000x64, .f32⟩
  | 70 => ⟨S_, .f32⟩
  | 71 => ⟨S100000x64, .f32⟩
  | 72 => ⟨S100000x64, .f32⟩
  | 73 => ⟨S100000x32, .f32⟩
  | 74 => ⟨S_, .f32⟩
  | 75 => ⟨S3300000, .f32⟩
  | 76 => ⟨S_, .f32⟩
  | 77 => ⟨S100000, .f32⟩
  | 78 => ⟨S3300000x1, .i32⟩
  | 79 => ⟨S100000, .f32⟩
  | 80 => ⟨S_, .f32⟩
  | 81 => ⟨S100000, .f32⟩
  | 82 => ⟨S100000, .i1⟩
  | 83 => ⟨S100000, .f32⟩
  | 84 => ⟨S_, .f32⟩
  | 85 => ⟨S_, .f32⟩
  | 86 => ⟨S100000, .f32⟩
  | 87 => ⟨S100000, .f32⟩
  | 88 => ⟨S_, .i32⟩
  | 89 => ⟨S3300000, .i32⟩
  | 90 => ⟨S3300000, .i1⟩
  | 91 => ⟨S_, .i32⟩
  | 92 => ⟨S3300000, .i32⟩
  | 93 => ⟨S3300000, .i32⟩
  | 94 => ⟨S3300000, .i32⟩
  | 95 => ⟨S3300000x1, .i32⟩
  | 96 => ⟨S3300000, .f32⟩
  | 97 => ⟨S_, .i32⟩
  | 98 => ⟨S3300000, .i32⟩
  | 99 => ⟨S3300000, .i1⟩
  | 100 => ⟨S_, .i32⟩
  | 101 => ⟨S3300000, .i32⟩
  | 102 => ⟨S3300000, .i32⟩
  | 103 => ⟨S3300000, .i32⟩
  | 104 => ⟨S3300000x1, .i32⟩
  | 105 => ⟨S3300000, .f32⟩
  | 106 => ⟨S3300000, .f32⟩
  | 107 => ⟨S_, .i32⟩
  | 108 => ⟨S3300000, .i32⟩
  | 109 => ⟨S3300000, .i1⟩
  | 110 => ⟨S_, .i32⟩
  | 111 => ⟨S3300000, .i32⟩
  | 112 => ⟨S3300000, .i32⟩
  | 113 => ⟨S3300000, .i32⟩
  | 114 => ⟨S3300000x1, .i32⟩
  | 115 => ⟨S3300000x32, .f32⟩
  | 116 => ⟨S3300000x1, .f32⟩
  | 117 => ⟨S3300000x32, .f32⟩
  | 118 => ⟨S3300000x32, .f32⟩
  | 119 => ⟨S_, .f32⟩
  | 120 => ⟨S100000x32, .f32⟩
  | 121 => ⟨S3300000x1, .i32⟩
  | 122 => ⟨S100000x32, .f32⟩
  | 123 => ⟨S1x32, .f32⟩
  | 124 => ⟨S100000x32, .f32⟩
  | 125 => ⟨S100000x32, .f32⟩
  | 126 => ⟨S_, .f32⟩
  | 127 => ⟨S100000x32, .f32⟩
  | _ => ⟨S100000x128, .f32⟩

abbrev hbmTy0_1 (i : Nat) : BufTy := match i % 128 with
  | 0 => ⟨S100000x32, .f32⟩
  | 1 => ⟨S100000x16, .f32⟩
  | 2 => ⟨S_, .f32⟩
  | 3 => ⟨S3300000, .f32⟩
  | 4 => ⟨S_, .f32⟩
  | 5 => ⟨S100000, .f32⟩
  | 6 => ⟨S3300000x1, .i32⟩
  | 7 => ⟨S100000, .f32⟩
  | 8 => ⟨S_, .f32⟩
  | 9 => ⟨S100000, .f32⟩
  | 10 => ⟨S100000, .i1⟩
  | 11 => ⟨S100000, .f32⟩
  | 12 => ⟨S_, .f32⟩
  | 13 => ⟨S_, .f32⟩
  | 14 => ⟨S100000, .f32⟩
  | 15 => ⟨S100000, .f32⟩
  | 16 => ⟨S_, .i32⟩
  | 17 => ⟨S3300000, .i32⟩
  | 18 => ⟨S3300000, .i1⟩
  | 19 => ⟨S_, .i32⟩
  | 20 => ⟨S3300000, .i32⟩
  | 21 => ⟨S3300000, .i32⟩
  | 22 => ⟨S3300000, .i32⟩
  | 23 => ⟨S3300000x1, .i32⟩
  | 24 => ⟨S3300000, .f32⟩
  | 25 => ⟨S_, .i32⟩
  | 26 => ⟨S3300000, .i32⟩
  | 27 => ⟨S3300000, .i1⟩
  | 28 => ⟨S_, .i32⟩
  | 29 => ⟨S3300000, .i32⟩
  | 30 => ⟨S3300000, .i32⟩
  | 31 => ⟨S3300000, .i32⟩
  | 32 => ⟨S3300000x1, .i32⟩
  | 33 => ⟨S3300000, .f32⟩
  | 34 => ⟨S3300000, .f32⟩
  | 35 => ⟨S_, .i32⟩
  | 36 => ⟨S3300000, .i32⟩
  | 37 => ⟨S3300000, .i1⟩
  | 38 => ⟨S_, .i32⟩
  | 39 => ⟨S3300000, .i32⟩
  | 40 => ⟨S3300000, .i32⟩
  | 41 => ⟨S3300000, .i32⟩
  | 42 => ⟨S3300000x1, .i32⟩
  | 43 => ⟨S3300000x16, .f32⟩
  | 44 => ⟨S3300000x1, .f32⟩
  | 45 => ⟨S3300000x16, .f32⟩
  | 46 => ⟨S3300000x16, .f32⟩
  | 47 => ⟨S_, .f32⟩
  | 48 => ⟨S100000x16, .f32⟩
  | 49 => ⟨S3300000x1, .i32⟩
  | 50 => ⟨S100000x16, .f32⟩
  | 51 => ⟨S1x16, .f32⟩
  | 52 => ⟨S100000x16, .f32⟩
  | 53 => ⟨S100000x16, .f32⟩
  | 54 => ⟨S_, .f32⟩
  | 55 => ⟨S100000x16, .f32⟩
  | 56 => ⟨S100000x16, .f32⟩
  | 57 => ⟨S100000x1, .f32⟩
  | 58 => ⟨S1x1, .f32⟩
  | 59 => ⟨S100000x1, .f32⟩
  | 60 => ⟨S100000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_cst_9 : Ref sig .tc := ⟨.hbm, 74, rfl⟩
abbrev main_v49 : Ref sig .tc := ⟨.hbm, 75, rfl⟩
abbrev main_cst_10 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_11 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_12 : Ref sig .tc := ⟨.hbm, 84, rfl⟩
abbrev main_call2_v0 : Ref sig .tc := ⟨.hbm, 85, rfl⟩
abbrev main_call2_v1 : Ref sig .tc := ⟨.hbm, 86, rfl⟩
abbrev main_v56 : Ref sig .tc := ⟨.hbm, 87, rfl⟩
abbrev main_c_13 : Ref sig .tc := ⟨.hbm, 88, rfl⟩
abbrev main_v57 : Ref sig .tc := ⟨.hbm, 89, rfl⟩
abbrev main_v58 : Ref sig .tc := ⟨.hbm, 90, rfl⟩
abbrev main_c_14 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_c_15 : Ref sig .tc := ⟨.hbm, 97, rfl⟩
abbrev main_v64 : Ref sig .tc := ⟨.hbm, 98, rfl⟩
abbrev main_v65 : Ref sig .tc := ⟨.hbm, 99, rfl⟩
abbrev main_c_16 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_c_17 : Ref sig .tc := ⟨.hbm, 107, rfl⟩
abbrev main_v72 : Ref sig .tc := ⟨.hbm, 108, rfl⟩
abbrev main_v73 : Ref sig .tc := ⟨.hbm, 109, rfl⟩
abbrev main_c_18 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst_19 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_call3_cst : Ref sig .tc := ⟨.hbm, 126, rfl⟩
abbrev main_call3_v0 : Ref sig .tc := ⟨.hbm, 127, rfl⟩
abbrev main_v88 : Ref sig .tc := ⟨.hbm, 128, rfl⟩
abbrev main_v89 : Ref sig .tc := ⟨.hbm, 129, rfl⟩
abbrev main_cst_20 : Ref sig .tc := ⟨.hbm, 130, rfl⟩
abbrev main_v90 : Ref sig .tc := ⟨.hbm, 131, rfl⟩
abbrev main_cst_21 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_cst_22 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_cst_23 : Ref sig .tc := ⟨.hbm, 140, rfl⟩
abbrev main_call4_v0 : Ref sig .tc := ⟨.hbm, 141, rfl⟩
abbrev main_call4_v1 : Ref sig .tc := ⟨.hbm, 142, rfl⟩
abbrev main_v97 : Ref sig .tc := ⟨.hbm, 143, rfl⟩
abbrev main_c_24 : Ref sig .tc := ⟨.hbm, 144, rfl⟩
abbrev main_v98 : Ref sig .tc := ⟨.hbm, 145, rfl⟩
abbrev main_v99 : Ref sig .tc := ⟨.hbm, 146, rfl⟩
abbrev main_c_25 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_c_26 : Ref sig .tc := ⟨.hbm, 153, rfl⟩
abbrev main_v105 : Ref sig .tc := ⟨.hbm, 154, rfl⟩
abbrev main_v106 : Ref sig .tc := ⟨.hbm, 155, rfl⟩
abbrev main_c_27 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_c_28 : Ref sig .tc := ⟨.hbm, 163, rfl⟩
abbrev main_v113 : Ref sig .tc := ⟨.hbm, 164, rfl⟩
abbrev main_v114 : Ref sig .tc := ⟨.hbm, 165, rfl⟩
abbrev main_c_29 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_cst_30 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_call5_cst : Ref sig .tc := ⟨.hbm, 182, rfl⟩
abbrev main_call5_v0 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S100000x128_S128x64_S100000x64_1_0_0_1_n_n_wf : DotDims.WF S100000x128 S128x64 S100000x64 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x32_S100000x32_1_0_0_1_n_n_wf : DotDims.WF S100000x64 S64x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x16_S100000x16_1_0_0_1_n_n_wf : DotDims.WF S100000x32 S32x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x1_S100000x1_1_0_0_1_n_n_wf : DotDims.WF S100000x16 S16x1 S100000x1 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x1_S100000x1_1_0_0_1_n_n : DotDims S100000x16 S16x1 S100000x1 where
  lhsContracting := [1]
  rhsContracting := [0]
  lhsNonContracting := [0]
  rhsNonContracting := [1]
  lhsBatch := []
  rhsBatch := []
  wf := dot_S100000x16_S16x1_S100000x1_1_0_0_1_n_n_wf

class Facts : Prop extends Facts₀ where

variable [Facts]
-- ==== Proof.Spec.lean ====
/-
  The three whole-array functions a row-tiled region of this program computes, written index by index on the
  extended reals, for arrays of any extents: the product of two matrices, the row scaling followed by a bias and a
  rectification, and the product followed by a bias. A region works on tiles of rows; since every entry of the
  result depends only on its own row of the left operand, the tiles' results are the restrictions of these
  functions to the tiles' rows.
-/
import Idealize.ShloMosaic.PureOps.Ideal
import Idealize.ShloMosaic.Lib.ValueIdx

noncomputable section

open scoped BigOperators

namespace Cert.Spec

open Idealize.ShloMosaic Idealize.ShloMosaic.ValueIdx

/-- The product of an `[M, k]` array with a `[k, n]` array: entry `(a, b)` is `∑ c, X (a, c) · B (c, b)`. -/
def mat {M k n : Nat} (X : (⟨2, ![M, k]⟩ : Shape).Idx → EReal) (B : (⟨2, ![k, n]⟩ : Shape).Idx → EReal) :
    (⟨2, ![M, n]⟩ : Shape).Idx → EReal :=
  fun i => ∑ c : Fin k, X (ix2 (i 0) c) * B (ix2 c (i 1))

/-- Row scaling, bias, rectification: entry `(a, b)` is `max (A (a, b) · s (a, 0) + β (0, b)) 0`. -/
def sbr {M D : Nat} (A : (⟨2, ![M, D]⟩ : Shape).Idx → EReal) (s : (⟨2, ![M, 1]⟩ : Shape).Idx → EReal)
    (β : (⟨2, ![1, D]⟩ : Shape).Idx → EReal) : (⟨2, ![M, D]⟩ : Shape).Idx → EReal :=
  fun i => max (A (ix2 (i 0) (i 1)) * s (ix2 (i 0) 0) + β (ix2 0 (i 1))) 0

/-- The product followed by a bias along the columns: entry `(a, b)` is `∑ c, X (a, c) · B (c, b) + β (0, b)`. -/
def matb {M k n : Nat} (X : (⟨2, ![M, k]⟩ : Shape).Idx → EReal) (B : (⟨2, ![k, n]⟩ : Shape).Idx → EReal)
    (β : (⟨2, ![1, n]⟩ : Shape).Idx → EReal) : (⟨2, ![M, n]⟩ : Shape).Idx → EReal :=
  fun i => (∑ c : Fin k, X (ix2 (i 0) c) * B (ix2 c (i 1))) + β (ix2 0 (i 1))

end Cert.Spec

end
-- ==== Proof.KerTerm.lean ====
/-
  The value this program computes, as one composed term of its argument arrays at the extended reals: the host's
  operations as the program spells them, and each row-tiled region as the whole-array function it computes
  (the specification's `mat`, `sbr`, `matb`).
-/
import proofs.«105999_j16286515986672_1_alg».proof.KernelIdeal
import proofs.«105999_j16286515986672_1_alg».proof.Proof.Gen.KernelIdeal
import proofs.«105999_j16286515986672_1_alg».proof.Proof.Spec
import Idealize.ShloMosaic.PureOps.Ideal

noncomputable section

namespace Cert.KerTerm

open Cert.KernelIdeal Cert.KernelIdeal.Facts₀ Idealize.ShloMosaic

/-- The source end of every edge: row 0 of the edge list, followed by one self loop per node. -/
def src (a1 : IVec S2x3200000 32) : IVec S3300000 32 :=
  concatenate S3300000 0 [⟨S3200000, shapeCast S3200000 (extractStridedSlice S1x3200000 ![0, 0] a1 slices_S2x3200000_S1x3200000_0_0) shapeCasts_S1x3200000_S3200000⟩, ⟨S100000, iotaInDim S100000 32 0⟩] concatenates_S3200000_S100000_S3300000_d0

/-- The target end of every edge: row 1 of the edge list, followed by one self loop per node. -/
def dst (a1 : IVec S2x3200000 32) : IVec S3300000 32 :=
  concatenate S3300000 0 [⟨S3200000, shapeCast S3200000 (extractStridedSlice S1x3200000 ![1, 0] a1 slices_S2x3200000_S1x3200000_1_0) shapeCasts_S1x3200000_S3200000⟩, ⟨S100000, iotaInDim S100000 32 0⟩] concatenates_S3200000_S100000_S3300000_d0

/-- A list of node numbers as a column of gather indices: a negative number `s` is replaced by `s + 100000`. -/
def wrap (s : IVec S3300000 32) : IVec S3300000x1 32 :=
  broadcastInDim S3300000x1 ![0] bcast_S3300000_S3300000x1_0
    (select (cmpi .slt s (broadcastInDim S3300000 ![] bcast_S_S3300000 (constantI S_ 32 0#32)))
      (addi s (broadcastInDim S3300000 ![] bcast_S_S3300000 (constantI S_ 32 100000#32))) s)

/-- A list of node numbers as a column of scatter indices, unchanged. -/
def col (s : IVec S3300000 32) : IVec S3300000x1 32 :=
  broadcastInDim S3300000x1 ![0] bcast_S3300000_S3300000x1_0 s

/-- The number of edges that end at each node (one added per edge whose target is that node). -/
def deg (d : IVec S3300000 32) : FVec Ideal S100000 .f32 :=
  Host.scatterAdd (F := Ideal) scatter_S100000_S3300000x1_S3300000_n_0_0_1
    (broadcastInDim S100000 ![] bcast_S_S100000 (constant (F := Ideal) S_ .f32 0x00000000#32)) (col d)
    (broadcastInDim S3300000 ![] bcast_S_S3300000 (constant (F := Ideal) S_ .f32 0x3F800000#32))

/-- The inverse square root of that number where it is positive, zero elsewhere. -/
def dinv (d : IVec S3300000 32) : FVec Ideal S100000 .f32 :=
  select (cmpf (F := Ideal) .ogt (deg d) (broadcastInDim S100000 ![] bcast_S_S100000 (constant (F := Ideal) S_ .f32 0x00000000#32)))
    (Host.rsqrt (F := Ideal) (deg d))
    (broadcastInDim S100000 ![] bcast_S_S100000 (constant (F := Ideal) S_ .f32 0x00000000#32))

/-- The same factors as a column `[100000, 1]`. -/
def dinv2 (d : IVec S3300000 32) : FVec Ideal S100000x1 .f32 :=
  shapeCast S100000x1 (dinv d) shapeCasts_S100000_S100000x1

/-- Layer 1 as this program computes it: the product with the weights, each row scaled by its node's factor, the
    rows of the edges' sources summed at the edges' targets, then each row scaled by its own node's factor, the
    bias added and the negative entries replaced by zero. -/
def layer1 (h : FVec Ideal S100000x128 .f32) (w : FVec Ideal S128x64 .f32) (b : FVec Ideal S64 .f32)
    (s d : IVec S3300000 32) : FVec Ideal S100000x64 .f32 :=
  Spec.sbr (M := 100000) (D := 64)
    (Host.scatterAdd (F := Ideal) scatter_S100000x64_S3300000x1_S3300000x64_1_0_0_1
      (broadcastInDim S100000x64 ![] bcast_S_S100000x64 (constant (F := Ideal) S_ .f32 0x00000000#32)) (col d)
      (Host.gather gather_S100000x64_S3300000x1_S3300000x64_1_0_n_n_0_1_164
        (mulf (F := Ideal) (Spec.mat (M := 100000) (k := 128) (n := 64) h w : FVec Ideal S100000x64 .f32)
          (broadcastInDim S100000x64 ![0, 1] bcast_S100000x1_S100000x64_0_1 (dinv2 d))) (wrap s)))
    (dinv2 d) (shapeCast S1x64 b shapeCasts_S64_S1x64)

/-- Layer 2 as this program computes it: the product with the weights, each row scaled by its node's factor, the
    rows of the edges' sources summed at the edges' targets, then each row scaled by its own node's factor, the
    bias added and the negative entries replaced by zero. -/
def layer2 (h : FVec Ideal S100000x64 .f32) (w : FVec Ideal S64x32 .f32) (b : FVec Ideal S32 .f32)
    (s d : IVec S3300000 32) : FVec Ideal S100000x32 .f32 :=
  Spec.sbr (M := 100000) (D := 32)
    (Host.scatterAdd (F := Ideal) scatter_S100000x32_S3300000x1_S3300000x32_1_0_0_1
      (broadcastInDim S100000x32 ![] bcast_S_S100000x32 (constant (F := Ideal) S_ .f32 0x00000000#32)) (col d)
      (Host.gather gather_S100000x32_S3300000x1_S3300000x32_1_0_n_n_0_1_132
        (mulf (F := Ideal) (Spec.mat (M := 100000) (k := 64) (n := 32) h w : FVec Ideal S100000x32 .f32)
          (broadcastInDim S100000x32 ![0, 1] bcast_S100000x1_S100000x32_0_1 (dinv2 d))) (wrap s)))
    (dinv2 d) (shapeCast S1x32 b shapeCasts_S32_S1x32)

/-- Layer 3 as this program computes it: the product with the weights, each row scaled by its node's factor, the
    rows of the edges' sources summed at the edges' targets, then each row scaled by its own node's factor, the
    bias added and the negative entries replaced by zero. -/
def layer3 (h : FVec Ideal S100000x32 .f32) (w : FVec Ideal S32x16 .f32) (b : FVec Ideal S16 .f32)
    (s d : IVec S3300000 32) : FVec Ideal S100000x16 .f32 :=
  Spec.sbr (M := 100000) (D := 16)
    (Host.scatterAdd (F := Ideal) scatter_S100000x16_S3300000x1_S3300000x16_1_0_0_1
      (broadcastInDim S100000x16 ![] bcast_S_S100000x16 (constant (F := Ideal) S_ .f32 0x00000000#32)) (col d)
      (Host.gather gather_S100000x16_S3300000x1_S3300000x16_1_0_n_n_0_1_116
        (mulf (F := Ideal) (Spec.mat (M := 100000) (k := 32) (n := 16) h w : FVec Ideal S100000x16 .f32)
          (broadcastInDim S100000x16 ![0, 1] bcast_S100000x1_S100000x16_0_1 (dinv2 d))) (wrap s)))
    (dinv2 d) (shapeCast S1x16 b shapeCasts_S16_S1x16)

/-- The program's result: three layers, then the product with the output weights plus the output bias. -/
def out (x : FVec Ideal S100000x128 .f32) (a1 : IVec S2x3200000 32) (w1 : FVec Ideal S128x64 .f32) (b1 : FVec Ideal S64 .f32)
    (w2 : FVec Ideal S64x32 .f32) (b2 : FVec Ideal S32 .f32) (w3 : FVec Ideal S32x16 .f32) (b3 : FVec Ideal S16 .f32)
    (wo : FVec Ideal S16x1 .f32) (bo : FVec Ideal S1 .f32) : FVec Ideal S100000x1 .f32 :=
  Spec.matb (M := 100000) (k := 16) (n := 1)
    (layer3 (layer2 (layer1 x w1 b1 (src a1) (dst a1)) w2 b2 (src a1) (dst a1)) w3 b3 (src a1) (dst a1)) wo
    (shapeCast S1x1 bo shapeCasts_S1_S1x1)

end Cert.KerTerm

end
-- ==== Proof.KerHost.lean ====
/-
  The host's stretches of this program, each read at a buffer over ANY contents on entry: what the stretch leaves in
  the buffers that later steps read, as the composed term's pieces (the edges' ends, the nodes' factors, the rows
  gathered by the edges' sources and summed at the edges' targets, the biases as rows), and that it leaves the
  other buffers that later steps read as they were.
-/
import proofs.«105999_j16286515986672_1_alg».proof.Proof.Gen.KernelIdeal.Frame
import proofs.«105999_j16286515986672_1_alg».proof.Proof.KerTerm

noncomputable section

namespace Cert.KernelIdeal.KerHost

open Idealize.ShloMosaic Idealize.ShloMosaic.TcCoe
open Cert.KernelIdeal.Facts₀

variable (U : Valuation τ sig (Elt Ideal))

/-- Rewrites each remaining operation's result at a literal buffer, one at a time, to its function's value or to what
    was there before it. -/
macro "host_results_rest" : tactic =>
  `(tactic| (repeat (first
               | rw [StableHlo.nullary_result] | rw [StableHlo.unary_result] | rw [StableHlo.binary_result] | rw [StableHlo.ternary_result]
               | rw [StableHlo.reshape_result]
               | (rw [StableHlo.nullary_result_ne]; rotate_left; decide)
               | (rw [StableHlo.unary_result_ne]; rotate_left; decide)
               | (rw [StableHlo.binary_result_ne]; rotate_left; decide)
               | (rw [StableHlo.ternary_result_ne]; rotate_left; decide)
               | (rw [StableHlo.reshape_result_ne]; rotate_left; decide))))

/-! ## The rows of the edges' sources, scaled, summed at the edges' targets -/

/-- The rows of `hw`, each scaled by its node's factor in `dv`, gathered by the edges' sources `s` and summed at the
    edges' targets `d` (width 64). -/
def agg1 (hw : FVec Ideal S100000x64 .f32) (dv : FVec Ideal S100000x1 .f32) (s d : IVec S3300000 32) : FVec Ideal S100000x64 .f32 :=
  Host.scatterAdd (F := Ideal) scatter_S100000x64_S3300000x1_S3300000x64_1_0_0_1
    (broadcastInDim S100000x64 ![] bcast_S_S100000x64 (constant (F := Ideal) S_ .f32 0x00000000#32)) (KerTerm.col d)
    (Host.gather gather_S100000x64_S3300000x1_S3300000x64_1_0_n_n_0_1_164
      (mulf (F := Ideal) hw (broadcastInDim S100000x64 ![0, 1] bcast_S100000x1_S100000x64_0_1 dv)) (KerTerm.wrap s))

/-- The rows of `hw`, each scaled by its node's factor in `dv`, gathered by the edges' sources `s` and summed at the
    edges' targets `d` (width 32). -/
def agg2 (hw : FVec Ideal S100000x32 .f32) (dv : FVec Ideal S100000x1 .f32) (s d : IVec S3300000 32) : FVec Ideal S100000x32 .f32 :=
  Host.scatterAdd (F := Ideal) scatter_S100000x32_S3300000x1_S3300000x32_1_0_0_1
    (broadcastInDim S100000x32 ![] bcast_S_S100000x32 (constant (F := Ideal) S_ .f32 0x00000000#32)) (KerTerm.col d)
    (Host.gather gather_S100000x32_S3300000x1_S3300000x32_1_0_n_n_0_1_132
      (mulf (F := Ideal) hw (broadcastInDim S100000x32 ![0, 1] bcast_S100000x1_S100000x32_0_1 dv)) (KerTerm.wrap s))

/-- The rows of `hw`, each scaled by its node's factor in `dv`, gathered by the edges' sources `s` and summed at the
    edges' targets `d` (width 16). -/
def agg3 (hw : FVec Ideal S100000x16 .f32) (dv : FVec Ideal S100000x1 .f32) (s d : IVec S3300000 32) : FVec Ideal S100000x16 .f32 :=
  Host.scatterAdd (F := Ideal) scatter_S100000x16_S3300000x1_S3300000x16_1_0_0_1
    (broadcastInDim S100000x16 ![] bcast_S_S100000x16 (constant (F := Ideal) S_ .f32 0x00000000#32)) (KerTerm.col d)
    (Host.gather gather_S100000x16_S3300000x1_S3300000x16_1_0_n_n_0_1_116
      (mulf (F := Ideal) hw (broadcastInDim S100000x16 ![0, 1] bcast_S100000x1_S100000x16_0_1 dv)) (KerTerm.wrap s))

/-- Layer 1 of the composed term is the region's function of that sum, the factors and the bias row. -/
theorem layer1_eq (h : FVec Ideal S100000x128 .f32) (w : FVec Ideal S128x64 .f32) (b : FVec Ideal S64 .f32) (s d : IVec S3300000 32) :
    Spec.sbr (M := 100000) (D := 64) (agg1 (Spec.mat (M := 100000) (k := 128) (n := 64) h w) (KerTerm.dinv2 d) s d) (KerTerm.dinv2 d)
      (shapeCast S1x64 b shapeCasts_S64_S1x64) = KerTerm.layer1 h w b s d := rfl

/-- Layer 2 of the composed term is the region's function of that sum, the factors and the bias row. -/
theorem layer2_eq (h : FVec Ideal S100000x64 .f32) (w : FVec Ideal S64x32 .f32) (b : FVec Ideal S32 .f32) (s d : IVec S3300000 32) :
    Spec.sbr (M := 100000) (D := 32) (agg2 (Spec.mat (M := 100000) (k := 64) (n := 32) h w) (KerTerm.dinv2 d) s d) (KerTerm.dinv2 d)
      (shapeCast S1x32 b shapeCasts_S32_S1x32) = KerTerm.layer2 h w b s d := rfl

/-- Layer 3 of the composed term is the region's function of that sum, the factors and the bias row. -/
theorem layer3_eq (h : FVec Ideal S100000x32 .f32) (w : FVec Ideal S32x16 .f32) (b : FVec Ideal S16 .f32) (s d : IVec S3300000 32) :
    Spec.sbr (M := 100000) (D := 16) (agg3 (Spec.mat (M := 100000) (k := 32) (n := 16) h w) (KerTerm.dinv2 d) s d) (KerTerm.dinv2 d)
      (shapeCast S1x16 b shapeCasts_S16_S1x16) = KerTerm.layer3 h w b s d := rfl

/-! ## The stretch before the first region: the edges' ends and the nodes' factors -/

theorem host0a_v3 : StableHlo.after (Gen.hostOps0 (F := Ideal)) U (Proc.devRef .tc main_v3) = KerTerm.src (U (Proc.devRef .tc main_arg1)) := by
  after_results
  rfl

theorem host0a_v6 : StableHlo.after (Gen.hostOps0 (F := Ideal)) U (Proc.devRef .tc main_v6) = KerTerm.dst (U (Proc.devRef .tc main_arg1)) := by
  after_results
  rfl

theorem host0a_v12 : StableHlo.after (Gen.hostOps0 (F := Ideal)) U (Proc.devRef .tc main_v12)
    = cmpf (F := Ideal) .ogt (KerTerm.deg (KerTerm.dst (U (Proc.devRef .tc main_arg1)))) (broadcastInDim S100000 ![] bcast_S_S100000 (constant (F := Ideal) S_ .f32 0x00000000#32)) := by
  after_results_simp
  host_results_rest
  rfl

theorem host0a_v13 : StableHlo.after (Gen.hostOps0 (F := Ideal)) U (Proc.devRef .tc main_v13)
    = Host.rsqrt (F := Ideal) (KerTerm.deg (KerTerm.dst (U (Proc.devRef .tc main_arg1)))) := by
  after_results_simp
  host_results_rest
  rfl

theorem host0a_cst2 : StableHlo.after (Gen.hostOps0 (F := Ideal)) U (Proc.devRef .tc main_cst_2)
    = constant (F := Ideal) S_ .f32 0x00000000#32 := by
  after_results_simp

theorem host0b_v14 : StableHlo.after (Gen.hostOps0_1 (F := Ideal)) U (Proc.devRef .tc main_v14)
    = select ((U (Proc.devRef .tc main_v12)) : IVec S100000 1) ((U (Proc.devRef .tc main_v13)) : FVec Ideal S100000 .f32)
        (broadcastInDim S100000 ![] bcast_S_S100000 ((U (Proc.devRef .tc main_cst_2)) : FVec Ideal S_ .f32)) := by
  after_results_simp
  rfl

theorem host0c_v15 : StableHlo.after (Gen.hostOps0_2 (F := Ideal)) U (Proc.devRef .tc main_v15)
    = shapeCast S100000x1 ((U (Proc.devRef .tc main_v14)) : FVec Ideal S100000 .f32) shapeCasts_S100000_S100000x1 := by
  after_results_simp
  rfl

theorem host0b_keep_v3 : StableHlo.after (Gen.hostOps0_1 (F := Ideal)) U (Proc.devRef .tc main_v3) = U (Proc.devRef .tc main_v3) := by
  after_results_simp

theorem host0b_keep_v6 : StableHlo.after (Gen.hostOps0_1 (F := Ideal)) U (Proc.devRef .tc main_v6) = U (Proc.devRef .tc main_v6) := by
  after_results_simp

theorem host0b_keep_v12 : StableHlo.after (Gen.hostOps0_1 (F := Ideal)) U (Proc.devRef .tc main_v12) = U (Proc.devRef .tc main_v12) := by
  after_results_simp

theorem host0b_keep_v13 : StableHlo.after (Gen.hostOps0_1 (F := Ideal)) U (Proc.devRef .tc main_v13) = U (Proc.devRef .tc main_v13) := by
  after_results_simp

theorem host0c_keep_v3 : StableHlo.after (Gen.hostOps0_2 (F := Ideal)) U (Proc.devRef .tc main_v3) = U (Proc.devRef .tc main_v3) := by
  after_results_simp

theorem host0c_keep_v6 : StableHlo.after (Gen.hostOps0_2 (F := Ideal)) U (Proc.devRef .tc main_v6) = U (Proc.devRef .tc main_v6) := by
  after_results_simp

/-- The edges' sources, after the three stretches before the first region. -/
theorem host0_v3 : StableHlo.after (Gen.hostOps0_2 (F := Ideal)) (StableHlo.after (Gen.hostOps0_1 (F := Ideal)) (StableHlo.after (Gen.hostOps0 (F := Ideal)) U)) (Proc.devRef .tc main_v3) = KerTerm.src (U (Proc.devRef .tc main_arg1)) := by
  rw [host0c_keep_v3, host0b_keep_v3, host0a_v3]

/-- The edges' targets, after the three stretches before the first region. -/
theorem host0_v6 : StableHlo.after (Gen.hostOps0_2 (F := Ideal)) (StableHlo.after (Gen.hostOps0_1 (F := Ideal)) (StableHlo.after (Gen.hostOps0 (F := Ideal)) U)) (Proc.devRef .tc main_v6) = KerTerm.dst (U (Proc.devRef .tc main_arg1)) := by
  rw [host0c_keep_v6, host0b_keep_v6, host0a_v6]

/-- The nodes' factors as a column, after the three stretches before the first region. -/
theorem host0_v15 : StableHlo.after (Gen.hostOps0_2 (F := Ideal)) (StableHlo.after (Gen.hostOps0_1 (F := Ideal)) (StableHlo.after (Gen.hostOps0 (F := Ideal)) U)) (Proc.devRef .tc main_v15) = KerTerm.dinv2 (KerTerm.dst (U (Proc.devRef .tc main_arg1))) := by
  rw [host0c_v15, host0b_v14, host0a_v12, host0a_v13, host0a_cst2]
  rfl

theorem host0_keep_arg0 : StableHlo.after (Gen.hostOps0_2 (F := Ideal)) (StableHlo.after (Gen.hostOps0_1 (F := Ideal)) (StableHlo.after (Gen.hostOps0 (F := Ideal)) U)) (Proc.devRef .tc main_arg0) = U (Proc.devRef .tc main_arg0) := by
  after_results_simp

theorem host0_keep_arg2 : StableHlo.after (Gen.hostOps0_2 (F := Ideal)) (StableHlo.after (Gen.hostOps0_1 (F := Ideal)) (StableHlo.after (Gen.hostOps0 (F := Ideal)) U)) (Proc.devRef .tc main_arg2) = U (Proc.devRef .tc main_arg2) := by
  after_results_simp

theorem host0_keep_arg3 : StableHlo.after (Gen.hostOps0_2 (F := Ideal)) (StableHlo.after (Gen.hostOps0_1 (F := Ideal)) (StableHlo.after (Gen.hostOps0 (F := Ideal)) U)) (Proc.devRef .tc main_arg3) = U (Proc.devRef .tc main_arg3) := by
  after_results_simp

theorem host0_keep_arg4 : StableHlo.after (Gen.hostOps0_2 (F := Ideal)) (StableHlo.after (Gen.hostOps0_1 (F := Ideal)) (StableHlo.after (Gen.hostOps0 (F := Ideal)) U)) (Proc.devRef .tc main_arg4) = U (Proc.devRef .tc main_arg4) := by
  after_results_simp

theorem host0_keep_arg5 : StableHlo.after (Gen.hostOps0_2 (F := Ideal)) (StableHlo.after (Gen.hostOps0_1 (F := Ideal)) (StableHlo.after (Gen.hostOps0 (F := Ideal)) U)) (Proc.devRef .tc main_arg5) = U (Proc.devRef .tc main_arg5) := by
  after_results_simp

theorem host0_keep_arg6 : StableHlo.after (Gen.hostOps0_2 (F := Ideal)) (StableHlo.after (Gen.hostOps0_1 (F := Ideal)) (StableHlo.after (Gen.hostOps0 (F := Ideal)) U)) (Proc.devRef .tc main_arg6) = U (Proc.devRef .tc main_arg6) := by
  after_results_simp

theorem host0_keep_arg7 : StableHlo.after (Gen.hostOps0_2 (F := Ideal)) (StableHlo.after (Gen.hostOps0_1 (F := Ideal)) (StableHlo.after (Gen.hostOps0 (F := Ideal)) U)) (Proc.devRef .tc main_arg7) = U (Proc.devRef .tc main_arg7) := by
  after_results_simp

theorem host0_keep_arg8 : StableHlo.after (Gen.hostOps0_2 (F := Ideal)) (StableHlo.after (Gen.hostOps0_1 (F := Ideal)) (StableHlo.after (Gen.hostOps0 (F := Ideal)) U)) (Proc.devRef .tc main_arg8) = U (Proc.devRef .tc main_arg8) := by
  after_results_simp

theorem host0_keep_arg9 : StableHlo.after (Gen.hostOps0_2 (F := Ideal)) (StableHlo.after (Gen.hostOps0_1 (F := Ideal)) (StableHlo.after (Gen.hostOps0 (F := Ideal)) U)) (Proc.devRef .tc main_arg9) = U (Proc.devRef .tc main_arg9) := by
  after_results_simp

/-! ## The stretches between the regions -/

theorem host1_out : StableHlo.after (Gen.hostOps1 (F := Ideal)) U (Proc.devRef .tc main_v28)
    = agg1 (U (Proc.devRef .tc main_v16)) (U (Proc.devRef .tc main_v15)) (U (Proc.devRef .tc main_v3)) (U (Proc.devRef .tc main_v6)) := by
  after_results_simp
  rfl

theorem host1_bias : StableHlo.after (Gen.hostOps1 (F := Ideal)) U (Proc.devRef .tc main_v29)
    = shapeCast S1x64 (U (Proc.devRef .tc main_arg3)) shapeCasts_S64_S1x64 := by
  after_results_simp
  rfl

theorem host1_keep_v15 : StableHlo.after (Gen.hostOps1 (F := Ideal)) U (Proc.devRef .tc main_v15) = U (Proc.devRef .tc main_v15) := by
  after_results_simp

theorem host1_keep_v3 : StableHlo.after (Gen.hostOps1 (F := Ideal)) U (Proc.devRef .tc main_v3) = U (Proc.devRef .tc main_v3) := by
  after_results_simp

theorem host1_keep_v6 : StableHlo.after (Gen.hostOps1 (F := Ideal)) U (Proc.devRef .tc main_v6) = U (Proc.devRef .tc main_v6) := by
  after_results_simp

theorem host1_keep_arg4 : StableHlo.after (Gen.hostOps1 (F := Ideal)) U (Proc.devRef .tc main_arg4) = U (Proc.devRef .tc main_arg4) := by
  after_results_simp

theorem host1_keep_arg5 : StableHlo.after (Gen.hostOps1 (F := Ideal)) U (Proc.devRef .tc main_arg5) = U (Proc.devRef .tc main_arg5) := by
  after_results_simp

theorem host1_keep_arg6 : StableHlo.after (Gen.hostOps1 (F := Ideal)) U (Proc.devRef .tc main_arg6) = U (Proc.devRef .tc main_arg6) := by
  after_results_simp

theorem host1_keep_arg7 : StableHlo.after (Gen.hostOps1 (F := Ideal)) U (Proc.devRef .tc main_arg7) = U (Proc.devRef .tc main_arg7) := by
  after_results_simp

theorem host1_keep_arg8 : StableHlo.after (Gen.hostOps1 (F := Ideal)) U (Proc.devRef .tc main_arg8) = U (Proc.devRef .tc main_arg8) := by
  after_results_simp

theorem host1_keep_arg9 : StableHlo.after (Gen.hostOps1 (F := Ideal)) U (Proc.devRef .tc main_arg9) = U (Proc.devRef .tc main_arg9) := by
  after_results_simp

theorem host2_out : StableHlo.after (Gen.hostOps3 (F := Ideal)) U (Proc.devRef .tc main_v43)
    = agg2 (U (Proc.devRef .tc main_v31)) (U (Proc.devRef .tc main_v15)) (U (Proc.devRef .tc main_v3)) (U (Proc.devRef .tc main_v6)) := by
  after_results_simp
  rfl

theorem host2_bias : StableHlo.after (Gen.hostOps3 (F := Ideal)) U (Proc.devRef .tc main_v44)
    = shapeCast S1x32 (U (Proc.devRef .tc main_arg5)) shapeCasts_S32_S1x32 := by
  after_results_simp
  rfl

theorem host2_keep_v15 : StableHlo.after (Gen.hostOps3 (F := Ideal)) U (Proc.devRef .tc main_v15) = U (Proc.devRef .tc main_v15) := by
  after_results_simp

theorem host2_keep_v3 : StableHlo.after (Gen.hostOps3 (F := Ideal)) U (Proc.devRef .tc main_v3) = U (Proc.devRef .tc main_v3) := by
  after_results_simp

theorem host2_keep_v6 : StableHlo.after (Gen.hostOps3 (F := Ideal)) U (Proc.devRef .tc main_v6) = U (Proc.devRef .tc main_v6) := by
  after_results_simp

theorem host2_keep_arg6 : StableHlo.after (Gen.hostOps3 (F := Ideal)) U (Proc.devRef .tc main_arg6) = U (Proc.devRef .tc main_arg6) := by
  after_results_simp

theorem host2_keep_arg7 : StableHlo.after (Gen.hostOps3 (F := Ideal)) U (Proc.devRef .tc main_arg7) = U (Proc.devRef .tc main_arg7) := by
  after_results_simp

theorem host2_keep_arg8 : StableHlo.after (Gen.hostOps3 (F := Ideal)) U (Proc.devRef .tc main_arg8) = U (Proc.devRef .tc main_arg8) := by
  after_results_simp

theorem host2_keep_arg9 : StableHlo.after (Gen.hostOps3 (F := Ideal)) U (Proc.devRef .tc main_arg9) = U (Proc.devRef .tc main_arg9) := by
  after_results_simp

theorem host3_out : StableHlo.after (Gen.hostOps5 (F := Ideal)) U (Proc.devRef .tc main_v58)
    = agg3 (U (Proc.devRef .tc main_v46)) (U (Proc.devRef .tc main_v15)) (U (Proc.devRef .tc main_v3)) (U (Proc.devRef .tc main_v6)) := by
  after_results_simp
  rfl

theorem host3_bias : StableHlo.after (Gen.hostOps5 (F := Ideal)) U (Proc.devRef .tc main_v59)
    = shapeCast S1x16 (U (Proc.devRef .tc main_arg7)) shapeCasts_S16_S1x16 := by
  after_results_simp
  rfl

theorem host3_keep_v15 : StableHlo.after (Gen.hostOps5 (F := Ideal)) U (Proc.devRef .tc main_v15) = U (Proc.devRef .tc main_v15) := by
  after_results_simp

theorem host3_keep_arg8 : StableHlo.after (Gen.hostOps5 (F := Ideal)) U (Proc.devRef .tc main_arg8) = U (Proc.devRef .tc main_arg8) := by
  after_results_simp

theorem host3_keep_arg9 : StableHlo.after (Gen.hostOps5 (F := Ideal)) U (Proc.devRef .tc main_arg9) = U (Proc.devRef .tc main_arg9) := by
  after_results_simp

theorem host6_bias : StableHlo.after (Gen.hostOps6 (F := Ideal)) U (Proc.devRef .tc main_v61)
    = shapeCast S1x1 (U (Proc.devRef .tc main_arg9)) shapeCasts_S1_S1x1 := by
  after_results_simp
  rfl

theorem host6_keep_v60 : StableHlo.after (Gen.hostOps6 (F := Ideal)) U (Proc.devRef .tc main_v60) = U (Proc.devRef .tc main_v60) := by
  after_results_simp

theorem host6_keep_arg8 : StableHlo.after (Gen.hostOps6 (F := Ideal)) U (Proc.devRef .tc main_arg8) = U (Proc.devRef .tc main_arg8) := by
  after_results_simp

end Cert.KernelIdeal.KerHost

end
-- ==== Proof.LibTileMatmul.lean ====
/-
  A plain matrix product read at an index, at the extended reals, and the bridge between a ROW TILE's product and
  the whole array's.

  Both a `tpu.matmul` into the zero accumulator and a host `dot_general`, with the dimension numbers of the plain
  product (the left operand's axis 1 contracted against the right operand's axis 0, no batch axis), are at output
  index (a, b) the finite sum `∑ c, A (a, c) * B (c, b)` over the contracted coordinate. No rounding is left at the
  extended reals, so the two sums have literally the same terms, and a product of a row tile `T` of `X` (row `p` of
  the tile is row `r + p` of `X`) with `B` is, row by row, the product of `X` with `B`.

  Stated over the library only: the dimension-number record is spelt with its six lists and ANY proof `w` of its
  side conditions, which is how a printed program's record unfolds.
-/
import Idealize.ShloMosaic.PureOps.Ideal.Laws
import Idealize.ShloMosaic.Lib.ValueIdx

noncomputable section

open scoped BigOperators

namespace Idealize.ShloMosaic.TileMatmul

open Idealize.ShloMosaic Idealize.ShloMosaic.ValueIdx

variable {m k n : Nat} {φ₁ φ₂ : FTy}

/-- The plain product's dimension numbers over [m, k] × [k, n] → [m, n], from any proof of their side conditions. -/
abbrev plainDims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's index at output index (a, b) and contracted coordinate c is (a, c). -/
theorem lhsIdx_plain (w : DotDims.WF ⟨2, ![m, k]⟩ ⟨2, ![k, n]⟩ ⟨2, ![m, n]⟩ [1] [0] [0] [1] [] [])
    (a : Fin m) (b : Fin n) (c : Fin k) :
    (plainDims w).lhsIdx (ix2 a b) ((contrEquiv1 (plainDims w) k rfl rfl).symm c) = ix2 a c := by
  have c2 := contrEquiv1_symm_val (plainDims w) k rfl rfl c
  funext ax; apply Fin.ext
  match ax with
  | ⟨0, _⟩ => simp [DotDims.lhsIdx]; rfl
  | ⟨1, _⟩ => simp [DotDims.lhsIdx]; exact c2

/-- The right operand's index there is (c, b). -/
theorem rhsIdx_plain (w : DotDims.WF ⟨2, ![m, k]⟩ ⟨2, ![k, n]⟩ ⟨2, ![m, n]⟩ [1] [0] [0] [1] [] [])
    (a : Fin m) (b : Fin n) (c : Fin k) :
    (plainDims w).rhsIdx (ix2 a b) ((contrEquiv1 (plainDims w) k rfl rfl).symm c) = ix2 c b := by
  have c2 := contrEquiv1_symm_val (plainDims w) k rfl rfl c
  funext ax; apply Fin.ext
  match ax with
  | ⟨0, _⟩ => simp [DotDims.rhsIdx]; exact c2
  | ⟨1, _⟩ => simp [DotDims.rhsIdx]; rfl

/-- A `tpu.matmul` with the plain product's dimension numbers into the zero accumulator, at (a, b): the sum over the
    contracted coordinate of the products of the entries. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (F := Ideal) (plainDims w) prec A B (constant (F := Ideal) ⟨2, ![m, n]⟩ .f32 0x00000000#32) (ix2 a b)
      = ∑ c : Fin k, A (ix2 a c) * B (ix2 c b) := by
  show FloatOps.matmul (plainDims w) prec A B (constant ⟨2, ![m, n]⟩ .f32 0x00000000#32) (ix2 a b) = _
  rw [Ideal.matmul_constant_zero_apply, ← Equiv.sum_comp (contrEquiv1 (plainDims w) k rfl rfl).symm]
  refine Finset.sum_congr rfl fun c _ => ?_
  rw [lhsIdx_plain, rhsIdx_plain]

/-- A host `dot_general` with the same dimension numbers, at (a, b): the same sum. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (F := Ideal) (plainDims w) prec A B (ix2 a b) = ∑ c : Fin k, A (ix2 a c) * B (ix2 c b) := by
  show FloatOps.dotGeneral (plainDims w) prec _ A B (ix2 a b) = _
  rw [Ideal.dotGeneral_apply, ← Equiv.sum_comp (contrEquiv1 (plainDims w) k rfl rfl).symm]
  refine Finset.sum_congr rfl fun c _ => ?_
  rw [lhsIdx_plain, rhsIdx_plain]

/-- THE BRIDGE. `T` is a tile of `M'` rows of `X` starting at row `r` (`hT`: entry (p, c) of the tile is entry
    (r + p, c) of `X`; the two may carry different float formats, which are one type at the extended reals). Then the
    tile's product with `B` into the zero accumulator, at (p, q), is the whole product `X · B` at (r + p, q). -/
theorem matmul_tile_eq_dotGeneral {M : Nat} {ψ₁ ψ₂ : FTy}
    (wT : DotDims.WF ⟨2, ![m, k]⟩ ⟨2, ![k, n]⟩ ⟨2, ![m, n]⟩ [1] [0] [0] [1] [] [])
    (wX : DotDims.WF ⟨2, ![M, k]⟩ ⟨2, ![k, n]⟩ ⟨2, ![M, n]⟩ [1] [0] [0] [1] [] [])
    (prec prec' : Option ContractPrecision)
    (T : FVec Ideal ⟨2, ![m, k]⟩ φ₁) (B : FVec Ideal ⟨2, ![k, n]⟩ φ₂)
    (X : FVec Ideal ⟨2, ![M, k]⟩ ψ₁) (B' : FVec Ideal ⟨2, ![k, n]⟩ ψ₂)
    (p : Fin m) (q : Fin n) (i : Fin M)
    (hT : ∀ c : Fin k, (T (ix2 p c) : EReal) = X (ix2 i c)) (hB : ∀ c : Fin k, (B (ix2 c q) : EReal) = B' (ix2 c q)) :
    (matmul (F := Ideal) (plainDims wT) prec T B (constant (F := Ideal) ⟨2, ![m, n]⟩ .f32 0x00000000#32) (ix2 p q) : EReal)
      = Host.dotGeneral (F := Ideal) (plainDims wX) prec' X B' (ix2 i q) := by
  rw [matmul_zero_apply, dotGeneral_apply]
  exact Finset.sum_congr rfl fun c _ => by rw [hT c, hB c]

end Idealize.ShloMosaic.TileMatmul

end
-- ==== Proof.RegionMat.lean ====
/-
  The four matrix-product regions of the program, each read as ONE function of the arrays it finds when it is
  entered.

  Such a region walks the 100000 rows of its left operand in 20 tiles of 5000 rows. At grid point t it holds rows
  5000·t … 5000·t + 4999 of the left operand and the whole right operand (and, in the last region, the whole bias
  row), multiplies the tile by the right operand into a zero accumulator, and writes the 5000 resulting rows back to
  rows 5000·t … 5000·t + 4999 of the output array. At the extended reals the format changes around the product are
  the identity, so entry (p, q) of the tile's product is ∑ c, tile (p, c) · right (c, q) = ∑ c, left (5000·t + p, c)
  · right (c, q): the entry (5000·t + p, q) of the whole product. Every row r of the output lies in the block of
  exactly the point r / 5000, so after the twenty write-backs the output array is the whole product (plus the bias
  row broadcast down the rows, in the last region).

  Per region: the block index of each window at a grid point (decided over the grid), each input window's block
  read at an index as an entry of the array it is cut from, the tile's payload at an index as the finite sum, the
  block a point writes back as the block of the whole-array function, the cover of the output array by the blocks,
  and the array after the region.
-/
import proofs.«105999_j16286515986672_1_alg».proof.Proof.Gen.KernelIdeal.Frame
import proofs.«105999_j16286515986672_1_alg».proof.Proof.Spec
import proofs.«105999_j16286515986672_1_alg».proof.Proof.LibTileMatmul
import Idealize.ShloMosaic.Lib.Pipeline.Value
import Idealize.ShloMosaic.Lib.ValueIdx
import Idealize.ShloMosaic.Lib.ValueLayout

noncomputable section

open scoped BigOperators

namespace Cert.KernelIdeal.RegionValue

open Cert.KernelIdeal Idealize.ShloMosaic Idealize.ShloMosaic.TcCoe Idealize.ShloMosaic.Pipeline Idealize.ShloMosaic.ValueIdx
open Idealize.ShloMosaic.TileMatmul

/-- The zero offsets of a whole-tile access, as the constant function. -/
private theorem zero_offsets : (![0, 0] : Fin 2 → Nat) = fun _ => 0 := funext fun a => by fin_cases a <;> rfl

/-! ## Region 0: [100000, 128] · [128, 64] -/

/-- The block indices at grid point t: the left operand's and the output's tile is the t-th along the rows and the
    only one along the columns; the right operand's block is the whole array. -/
theorem block_index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry x of the left operand's tile at point t is entry (5000·t + x 0, x 1) of the array. -/
theorem left_block0 (c : Dev nD) (A : Buf (Elt Ideal) ((c : Thread nD τ).loc (Pipeline.arrRef spec0 0))) (t : Fin cfg0.N)
    (x : S5000x128.Idx) (k : S100000x128.Idx) (hk0 : (k 0).val = 5000 * t.val + (x 0).val) (hk1 : (k 1).val = (x 1).val) :
    (((cfg0.win 0).blk t).view.read (Elt Ideal) A : Vec Ideal S5000x128 .f32) x = (A : S100000x128.Idx → EReal) k := by
  obtain ⟨e0, e1, -⟩ := block_index0 t
  rw [View.read_apply]
  show A _ = A k
  congr 1
  funext a
  apply Fin.ext
  match a with
  | ⟨0, _⟩ => show win0_0.index t (0 : Fin 2) * 5000 + 1 * (x 0).val = (k 0).val; omega
  | ⟨1, _⟩ => show win0_0.index t (1 : Fin 2) * 128 + 1 * (x 1).val = (k 1).val; omega

/-- The right operand's block at any point is the whole array. -/
theorem right_block0 (c : Dev nD) (A : Buf (Elt Ideal) ((c : Thread nD τ).loc (Pipeline.arrRef spec0 1))) (t : Fin cfg0.N)
    (x : S128x64.Idx) :
    (((cfg0.win 1).blk t).view.read (Elt Ideal) A : Vec Ideal S128x64 .f32) x = (A : S128x64.Idx → EReal) x := by
  obtain ⟨-, -, e0, e1, -⟩ := block_index0 t
  rw [View.read_apply]
  show A _ = A x
  congr 1
  funext a
  apply Fin.ext
  match a with
  | ⟨0, _⟩ => show win0_1.index t (0 : Fin 2) * 128 + 1 * (x 0).val = (x 0).val; omega
  | ⟨1, _⟩ => show win0_1.index t (1 : Fin 2) * 64 + 1 * (x 1).val = (x 1).val; omega

/-- Entry x of the output's block at point t is entry (5000·t + x 0, x 1) of the array. -/
theorem out_block0 (c : Dev nD) (A : Buf (Elt Ideal) ((c : Thread nD τ).loc (Pipeline.arrRef spec0 2))) (t : Fin cfg0.N)
    (x : S5000x64.Idx) (k : S100000x64.Idx) (hk0 : (k 0).val = 5000 * t.val + (x 0).val) (hk1 : (k 1).val = (x 1).val) :
    (((cfg0.win 2).blk t).view.read (Elt Ideal) A : Vec Ideal S5000x64 .f32) x = (A : S100000x64.Idx → EReal) k := by
  obtain ⟨-, -, -, -, e0, e1⟩ := block_index0 t
  rw [View.read_apply]
  show A _ = A k
  congr 1
  funext a
  apply Fin.ext
  match a with
  | ⟨0, _⟩ => show win0_2.index t (0 : Fin 2) * 5000 + 1 * (x 0).val = (k 0).val; omega
  | ⟨1, _⟩ => show win0_2.index t (1 : Fin 2) * 64 + 1 * (x 1).val = (k 1).val; omega

/-- The tile's payload at (p, q): the format changes are the identity at the extended reals, and the product into the
    zero accumulator is the sum over the contracted coordinate. -/
theorem tile_product0 (x0 : Vec Ideal S5000x128 .f32) (x1 : Vec Ideal S128x64 .f32) (p : Fin 5000) (q : Fin 64) :
    Gen.k0_pay1 (F := Ideal) x0 x1 (ix2 p q) = ∑ cc : Fin 128, x0 (ix2 p cc) * x1 (ix2 cc q) := by
  unfold Gen.k0_pay1
  exact matmul_zero_apply dot_S5000x128_S128x64_S5000x64_1_0_0_1_n_n.wf none _ _ p q

/-- A tile whose row p is row (i 0) of X, multiplied by a copy of B, has at (p, i 1) the entry i of the whole product. -/
theorem tile_product_eq0 (X : S100000x128.Idx → EReal) (B : S128x64.Idx → EReal)
    (x0 : Vec Ideal S5000x128 .f32) (x1 : Vec Ideal S128x64 .f32) (p : Fin 5000) (q : Fin 64) (i : S100000x64.Idx)
    (h0 : ∀ cc : Fin 128, x0 (ix2 p cc) = X (ix2 (i 0) cc))
    (h1 : ∀ cc : Fin 128, x1 (ix2 cc q) = B (ix2 cc (i 1))) :
    Gen.k0_pay1 (F := Ideal) x0 x1 (ix2 p q) = Cert.Spec.mat (M := 100000) (k := 128) (n := 64) X B i := by
  rw [tile_product0]
  exact Finset.sum_congr rfl fun cc _ => by rw [h0 cc, h1 cc]

/-- WHAT POINT t WRITES BACK is block t of the whole product of the arrays the region finds. -/
theorem flushed0 (V : (c : Dev nD) → (b : Ref sig .tc) → Buf (Elt Ideal) ((c : Thread nD τ).loc b)) (c : Dev nD) (t : Fin cfg0.N) :
    (Gen.dat0 (F := Ideal) V c).flushed 2 t = ((cfg0.win 2).blk t).view.read (Elt Ideal)
      (Cert.Spec.mat (M := 100000) (k := 128) (n := 64) (V c (Pipeline.arrRef spec0 0)) (V c (Pipeline.arrRef spec0 1))) := by
  show (cfg0.win 2).cut (grid0.coords t) ((Gen.dat0 V c).after 2 t) = _
  rw [Gen.after0_2]
  unfold Gen.out0_2
  rw [View.canon_unit_zero zero_offsets]
  simp only [View.ld_unit_zero (S := S5000x128) zero_offsets, View.ld_unit_zero (S := S128x64) zero_offsets]
  funext j
  obtain ⟨p, q, rfl⟩ : ∃ (p : Fin 5000) (q : Fin 64), j = ix2 p q := ⟨j 0, j 1, eq_ix2 j⟩
  have hp : p.val < 5000 := p.isLt
  have ht : t.val < 20 := lt_of_lt_of_eq t.isLt Gen.N_0
  refine Eq.trans ?_ (out_block0 c _ t (ix2 p q) (ix2 ⟨5000 * t.val + p.val, by omega⟩ q) rfl rfl).symm
  refine tile_product_eq0 _ _ _ _ p q _ (fun cc => ?_) (fun cc => ?_)
  · exact left_block0 c _ t (ix2 p cc) _ rfl rfl
  · exact right_block0 c _ t (ix2 cc q)

/-- An index of the output array is in point t's block iff each coordinate is in the block's range on its axis. -/
theorem mem_block0 (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v16).slice (win0_2.rect t)).set ↔ _
  rw [View.set_slice_whole, Rect.mem_set_unit]
  exact Iff.rfl

/-- Row r of the output array is in the block of point r / 5000, which writes it back. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := Gen.N_0
  obtain ⟨t, ht⟩ : ∃ t : Fin cfg0.N, t.val = (i 0).val / 5000 := ⟨⟨(i 0).val / 5000, by rw [hN]; omega⟩, rfl⟩
  obtain ⟨-, -, -, -, e0, e1⟩ := block_index0 t
  refine ⟨t, Gen.flush0_2 t, ?_⟩
  rw [mem_block0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- THE OUTPUT ARRAY after region 0: the product of the two arrays the region finds in its operands. -/
theorem final0 (V : (c : Dev nD) → (b : Ref sig .tc) → Buf (Elt Ideal) ((c : Thread nD τ).loc b)) (c : Dev nD) :
    (Gen.dat0 (F := Ideal) V c).arrAt 2 cfg0.N = Cert.Spec.mat (M := 100000) (k := 128) (n := 64) (V c (Pipeline.arrRef spec0 0)) (V c (Pipeline.arrRef spec0 1)) :=
  (Gen.dat0 (F := Ideal) V c).arrAt_eq_of_cover 2 _ (fun t _ => flushed0 V c t) cover0

/-! ## Region 2: [100000, 64] · [64, 32] -/

/-- The block indices at grid point t: the left operand's and the output's tile is the t-th along the rows and the
    only one along the columns; the right operand's block is the whole array. -/
theorem block_index2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Entry x of the left operand's tile at point t is entry (5000·t + x 0, x 1) of the array. -/
theorem left_block2 (c : Dev nD) (A : Buf (Elt Ideal) ((c : Thread nD τ).loc (Pipeline.arrRef spec2 0))) (t : Fin cfg2.N)
    (x : S5000x64.Idx) (k : S100000x64.Idx) (hk0 : (k 0).val = 5000 * t.val + (x 0).val) (hk1 : (k 1).val = (x 1).val) :
    (((cfg2.win 0).blk t).view.read (Elt Ideal) A : Vec Ideal S5000x64 .f32) x = (A : S100000x64.Idx → EReal) k := by
  obtain ⟨e0, e1, -⟩ := block_index2 t
  rw [View.read_apply]
  show A _ = A k
  congr 1
  funext a
  apply Fin.ext
  match a with
  | ⟨0, _⟩ => show win2_0.index t (0 : Fin 2) * 5000 + 1 * (x 0).val = (k 0).val; omega
  | ⟨1, _⟩ => show win2_0.index t (1 : Fin 2) * 64 + 1 * (x 1).val = (k 1).val; omega

/-- The right operand's block at any point is the whole array. -/
theorem right_block2 (c : Dev nD) (A : Buf (Elt Ideal) ((c : Thread nD τ).loc (Pipeline.arrRef spec2 1))) (t : Fin cfg2.N)
    (x : S64x32.Idx) :
    (((cfg2.win 1).blk t).view.read (Elt Ideal) A : Vec Ideal S64x32 .f32) x = (A : S64x32.Idx → EReal) x := by
  obtain ⟨-, -, e0, e1, -⟩ := block_index2 t
  rw [View.read_apply]
  show A _ = A x
  congr 1
  funext a
  apply Fin.ext
  match a with
  | ⟨0, _⟩ => show win2_1.index t (0 : Fin 2) * 64 + 1 * (x 0).val = (x 0).val; omega
  | ⟨1, _⟩ => show win2_1.index t (1 : Fin 2) * 32 + 1 * (x 1).val = (x 1).val; omega

/-- Entry x of the output's block at point t is entry (5000·t + x 0, x 1) of the array. -/
theorem out_block2 (c : Dev nD) (A : Buf (Elt Ideal) ((c : Thread nD τ).loc (Pipeline.arrRef spec2 2))) (t : Fin cfg2.N)
    (x : S5000x32.Idx) (k : S100000x32.Idx) (hk0 : (k 0).val = 5000 * t.val + (x 0).val) (hk1 : (k 1).val = (x 1).val) :
    (((cfg2.win 2).blk t).view.read (Elt Ideal) A : Vec Ideal S5000x32 .f32) x = (A : S100000x32.Idx → EReal) k := by
  obtain ⟨-, -, -, -, e0, e1⟩ := block_index2 t
  rw [View.read_apply]
  show A _ = A k
  congr 1
  funext a
  apply Fin.ext
  match a with
  | ⟨0, _⟩ => show win2_2.index t (0 : Fin 2) * 5000 + 1 * (x 0).val = (k 0).val; omega
  | ⟨1, _⟩ => show win2_2.index t (1 : Fin 2) * 32 + 1 * (x 1).val = (k 1).val; omega

/-- The tile's payload at (p, q): the format changes are the identity at the extended reals, and the product into the
    zero accumulator is the sum over the contracted coordinate. -/
theorem tile_product2 (x0 : Vec Ideal S5000x64 .f32) (x1 : Vec Ideal S64x32 .f32) (p : Fin 5000) (q : Fin 32) :
    Gen.k2_pay1 (F := Ideal) x0 x1 (ix2 p q) = ∑ cc : Fin 64, x0 (ix2 p cc) * x1 (ix2 cc q) := by
  unfold Gen.k2_pay1
  refine (matmul_zero_apply dot_S5000x64_S64x32_S5000x32_1_0_0_1_n_n.wf none _ _ p q).trans ?_
  rw [shapeCast_self]
  rfl

/-- A tile whose row p is row (i 0) of X, multiplied by a copy of B, has at (p, i 1) the entry i of the whole product. -/
theorem tile_product_eq2 (X : S100000x64.Idx → EReal) (B : S64x32.Idx → EReal)
    (x0 : Vec Ideal S5000x64 .f32) (x1 : Vec Ideal S64x32 .f32) (p : Fin 5000) (q : Fin 32) (i : S100000x32.Idx)
    (h0 : ∀ cc : Fin 64, x0 (ix2 p cc) = X (ix2 (i 0) cc))
    (h1 : ∀ cc : Fin 64, x1 (ix2 cc q) = B (ix2 cc (i 1))) :
    Gen.k2_pay1 (F := Ideal) x0 x1 (ix2 p q) = Cert.Spec.mat (M := 100000) (k := 64) (n := 32) X B i := by
  rw [tile_product2]
  exact Finset.sum_congr rfl fun cc _ => by rw [h0 cc, h1 cc]

/-- WHAT POINT t WRITES BACK is block t of the whole product of the arrays the region finds. -/
theorem flushed2 (V : (c : Dev nD) → (b : Ref sig .tc) → Buf (Elt Ideal) ((c : Thread nD τ).loc b)) (c : Dev nD) (t : Fin cfg2.N) :
    (Gen.dat2 (F := Ideal) V c).flushed 2 t = ((cfg2.win 2).blk t).view.read (Elt Ideal)
      (Cert.Spec.mat (M := 100000) (k := 64) (n := 32) (V c (Pipeline.arrRef spec2 0)) (V c (Pipeline.arrRef spec2 1))) := by
  show (cfg2.win 2).cut (grid2.coords t) ((Gen.dat2 V c).after 2 t) = _
  rw [Gen.after2_2]
  unfold Gen.out2_2
  rw [View.canon_unit_zero zero_offsets]
  simp only [View.ld_unit_zero (S := S5000x64) zero_offsets, View.ld_unit_zero (S := S64x32) zero_offsets]
  funext j
  obtain ⟨p, q, rfl⟩ : ∃ (p : Fin 5000) (q : Fin 32), j = ix2 p q := ⟨j 0, j 1, eq_ix2 j⟩
  have hp : p.val < 5000 := p.isLt
  have ht : t.val < 20 := lt_of_lt_of_eq t.isLt Gen.N_2
  refine Eq.trans ?_ (out_block2 c _ t (ix2 p q) (ix2 ⟨5000 * t.val + p.val, by omega⟩ q) rfl rfl).symm
  refine tile_product_eq2 _ _ _ _ p q _ (fun cc => ?_) (fun cc => ?_)
  · exact left_block2 c _ t (ix2 p cc) _ rfl rfl
  · exact right_block2 c _ t (ix2 cc q)

/-- An index of the output array is in point t's block iff each coordinate is in the block's range on its axis. -/
theorem mem_block2 (t : Fin cfg2.N) (i : S100000x32.Idx) :
    i ∈ ((cfg2.win 2).blk t).view.set ↔ ∀ a : Fin 2, win2_2.index t a * S5000x32.size a ≤ (i a).val ∧ (i a).val < win2_2.index t a * S5000x32.size a + S5000x32.size a := by
  show i ∈ ((View.whole main_v31).slice (win2_2.rect t)).set ↔ _
  rw [View.set_slice_whole, Rect.mem_set_unit]
  exact Iff.rfl

/-- Row r of the output array is in the block of point r / 5000, which writes it back. -/
theorem cover2 (i : S100000x32.Idx) :
    ∃ t : Fin cfg2.N, (cfg2.win 2).flush t = true ∧ i ∈ ((cfg2.win 2).blk t).view.set := by
  have hi0 : (i 0).val < 100000 := (i 0).isLt
  have hi1 : (i 1).val < 32 := (i 1).isLt
  have hN : cfg2.N = 20 := Gen.N_2
  obtain ⟨t, ht⟩ : ∃ t : Fin cfg2.N, t.val = (i 0).val / 5000 := ⟨⟨(i 0).val / 5000, by rw [hN]; omega⟩, rfl⟩
  obtain ⟨-, -, -, -, e0, e1⟩ := block_index2 t
  refine ⟨t, Gen.flush2_2 t, ?_⟩
  rw [mem_block2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 32 ≤ (i 1).val ∧ (i 1).val < win2_2.index t (1 : Fin 2) * 32 + 32; omega

/-- THE OUTPUT ARRAY after region 2: the product of the two arrays the region finds in its operands. -/
theorem final2 (V : (c : Dev nD) → (b : Ref sig .tc) → Buf (Elt Ideal) ((c : Thread nD τ).loc b)) (c : Dev nD) :
    (Gen.dat2 (F := Ideal) V c).arrAt 2 cfg2.N = Cert.Spec.mat (M := 100000) (k := 64) (n := 32) (V c (Pipeline.arrRef spec2 0)) (V c (Pipeline.arrRef spec2 1)) :=
  (Gen.dat2 (F := Ideal) V c).arrAt_eq_of_cover 2 _ (fun t _ => flushed2 V c t) cover2

/-! ## Region 4: [100000, 32] · [32, 16] -/

/-- The block indices at grid point t: the left operand's and the output's tile is the t-th along the rows and the
    only one along the columns; the right operand's block is the whole array. -/
theorem block_index4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Entry x of the left operand's tile at point t is entry (5000·t + x 0, x 1) of the array. -/
theorem left_block4 (c : Dev nD) (A : Buf (Elt Ideal) ((c : Thread nD τ).loc (Pipeline.arrRef spec4 0))) (t : Fin cfg4.N)
    (x : S5000x32.Idx) (k : S100000x32.Idx) (hk0 : (k 0).val = 5000 * t.val + (x 0).val) (hk1 : (k 1).val = (x 1).val) :
    (((cfg4.win 0).blk t).view.read (Elt Ideal) A : Vec Ideal S5000x32 .f32) x = (A : S100000x32.Idx → EReal) k := by
  obtain ⟨e0, e1, -⟩ := block_index4 t
  rw [View.read_apply]
  show A _ = A k
  congr 1
  funext a
  apply Fin.ext
  match a with
  | ⟨0, _⟩ => show win4_0.index t (0 : Fin 2) * 5000 + 1 * (x 0).val = (k 0).val; omega
  | ⟨1, _⟩ => show win4_0.index t (1 : Fin 2) * 32 + 1 * (x 1).val = (k 1).val; omega

/-- The right operand's block at any point is the whole array. -/
theorem right_block4 (c : Dev nD) (A : Buf (Elt Ideal) ((c : Thread nD τ).loc (Pipeline.arrRef spec4 1))) (t : Fin cfg4.N)
    (x : S32x16.Idx) :
    (((cfg4.win 1).blk t).view.read (Elt Ideal) A : Vec Ideal S32x16 .f32) x = (A : S32x16.Idx → EReal) x := by
  obtain ⟨-, -, e0, e1, -⟩ := block_index4 t
  rw [View.read_apply]
  show A _ = A x
  congr 1
  funext a
  apply Fin.ext
  match a with
  | ⟨0, _⟩ => show win4_1.index t (0 : Fin 2) * 32 + 1 * (x 0).val = (x 0).val; omega
  | ⟨1, _⟩ => show win4_1.index t (1 : Fin 2) * 16 + 1 * (x 1).val = (x 1).val; omega

/-- Entry x of the output's block at point t is entry (5000·t + x 0, x 1) of the array. -/
theorem out_block4 (c : Dev nD) (A : Buf (Elt Ideal) ((c : Thread nD τ).loc (Pipeline.arrRef spec4 2))) (t : Fin cfg4.N)
    (x : S5000x16.Idx) (k : S100000x16.Idx) (hk0 : (k 0).val = 5000 * t.val + (x 0).val) (hk1 : (k 1).val = (x 1).val) :
    (((cfg4.win 2).blk t).view.read (Elt Ideal) A : Vec Ideal S5000x16 .f32) x = (A : S100000x16.Idx → EReal) k := by
  obtain ⟨-, -, -, -, e0, e1⟩ := block_index4 t
  rw [View.read_apply]
  show A _ = A k
  congr 1
  funext a
  apply Fin.ext
  match a with
  | ⟨0, _⟩ => show win4_2.index t (0 : Fin 2) * 5000 + 1 * (x 0).val = (k 0).val; omega
  | ⟨1, _⟩ => show win4_2.index t (1 : Fin 2) * 16 + 1 * (x 1).val = (k 1).val; omega

/-- The tile's payload at (p, q): the format changes are the identity at the extended reals, and the product into the
    zero accumulator is the sum over the contracted coordinate. -/
theorem tile_product4 (x0 : Vec Ideal S5000x32 .f32) (x1 : Vec Ideal S32x16 .f32) (p : Fin 5000) (q : Fin 16) :
    Gen.k4_pay1 (F := Ideal) x0 x1 (ix2 p q) = ∑ cc : Fin 32, x0 (ix2 p cc) * x1 (ix2 cc q) := by
  unfold Gen.k4_pay1
  refine (matmul_zero_apply dot_S5000x32_S32x16_S5000x16_1_0_0_1_n_n.wf none _ _ p q).trans ?_
  rw [shapeCast_self]
  rfl

/-- A tile whose row p is row (i 0) of X, multiplied by a copy of B, has at (p, i 1) the entry i of the whole product. -/
theorem tile_product_eq4 (X : S100000x32.Idx → EReal) (B : S32x16.Idx → EReal)
    (x0 : Vec Ideal S5000x32 .f32) (x1 : Vec Ideal S32x16 .f32) (p : Fin 5000) (q : Fin 16) (i : S100000x16.Idx)
    (h0 : ∀ cc : Fin 32, x0 (ix2 p cc) = X (ix2 (i 0) cc))
    (h1 : ∀ cc : Fin 32, x1 (ix2 cc q) = B (ix2 cc (i 1))) :
    Gen.k4_pay1 (F := Ideal) x0 x1 (ix2 p q) = Cert.Spec.mat (M := 100000) (k := 32) (n := 16) X B i := by
  rw [tile_product4]
  exact Finset.sum_congr rfl fun cc _ => by rw [h0 cc, h1 cc]

/-- WHAT POINT t WRITES BACK is block t of the whole product of the arrays the region finds. -/
theorem flushed4 (V : (c : Dev nD) → (b : Ref sig .tc) → Buf (Elt Ideal) ((c : Thread nD τ).loc b)) (c : Dev nD) (t : Fin cfg4.N) :
    (Gen.dat4 (F := Ideal) V c).flushed 2 t = ((cfg4.win 2).blk t).view.read (Elt Ideal)
      (Cert.Spec.mat (M := 100000) (k := 32) (n := 16) (V c (Pipeline.arrRef spec4 0)) (V c (Pipeline.arrRef spec4 1))) := by
  show (cfg4.win 2).cut (grid4.coords t) ((Gen.dat4 V c).after 2 t) = _
  rw [Gen.after4_2]
  unfold Gen.out4_2
  rw [View.canon_unit_zero zero_offsets]
  simp only [View.ld_unit_zero (S := S5000x32) zero_offsets, View.ld_unit_zero (S := S32x16) zero_offsets]
  funext j
  obtain ⟨p, q, rfl⟩ : ∃ (p : Fin 5000) (q : Fin 16), j = ix2 p q := ⟨j 0, j 1, eq_ix2 j⟩
  have hp : p.val < 5000 := p.isLt
  have ht : t.val < 20 := lt_of_lt_of_eq t.isLt Gen.N_4
  refine Eq.trans ?_ (out_block4 c _ t (ix2 p q) (ix2 ⟨5000 * t.val + p.val, by omega⟩ q) rfl rfl).symm
  refine tile_product_eq4 _ _ _ _ p q _ (fun cc => ?_) (fun cc => ?_)
  · exact left_block4 c _ t (ix2 p cc) _ rfl rfl
  · exact right_block4 c _ t (ix2 cc q)

/-- An index of the output array is in point t's block iff each coordinate is in the block's range on its axis. -/
theorem mem_block4 (t : Fin cfg4.N) (i : S100000x16.Idx) :
    i ∈ ((cfg4.win 2).blk t).view.set ↔ ∀ a : Fin 2, win4_2.index t a * S5000x16.size a ≤ (i a).val ∧ (i a).val < win4_2.index t a * S5000x16.size a + S5000x16.size a := by
  show i ∈ ((View.whole main_v46).slice (win4_2.rect t)).set ↔ _
  rw [View.set_slice_whole, Rect.mem_set_unit]
  exact Iff.rfl

/-- Row r of the output array is in the block of point r / 5000, which writes it back. -/
theorem cover4 (i : S100000x16.Idx) :
    ∃ t : Fin cfg4.N, (cfg4.win 2).flush t = true ∧ i ∈ ((cfg4.win 2).blk t).view.set := by
  have hi0 : (i 0).val < 100000 := (i 0).isLt
  have hi1 : (i 1).val < 16 := (i 1).isLt
  have hN : cfg4.N = 20 := Gen.N_4
  obtain ⟨t, ht⟩ : ∃ t : Fin cfg4.N, t.val = (i 0).val / 5000 := ⟨⟨(i 0).val / 5000, by rw [hN]; omega⟩, rfl⟩
  obtain ⟨-, -, -, -, e0, e1⟩ := block_index4 t
  refine ⟨t, Gen.flush4_2 t, ?_⟩
  rw [mem_block4]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 16 ≤ (i 1).val ∧ (i 1).val < win4_2.index t (1 : Fin 2) * 16 + 16; omega

/-- THE OUTPUT ARRAY after region 4: the product of the two arrays the region finds in its operands. -/
theorem final4 (V : (c : Dev nD) → (b : Ref sig .tc) → Buf (Elt Ideal) ((c : Thread nD τ).loc b)) (c : Dev nD) :
    (Gen.dat4 (F := Ideal) V c).arrAt 2 cfg4.N = Cert.Spec.mat (M := 100000) (k := 32) (n := 16) (V c (Pipeline.arrRef spec4 0)) (V c (Pipeline.arrRef spec4 1)) :=
  (Gen.dat4 (F := Ideal) V c).arrAt_eq_of_cover 2 _ (fun t _ => flushed4 V c t) cover4

/-! ## Region 6: [100000, 16] · [16, 1], plus the bias row -/

/-- The block indices at grid point t: the left operand's and the output's tile is the t-th along the rows and the
    only one along the columns; the right operand's and the bias row's block is the whole array. -/
theorem block_index6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- Entry x of the left operand's tile at point t is entry (5000·t + x 0, x 1) of the array. -/
theorem left_block6 (c : Dev nD) (A : Buf (Elt Ideal) ((c : Thread nD τ).loc (Pipeline.arrRef spec6 0))) (t : Fin cfg6.N)
    (x : S5000x16.Idx) (k : S100000x16.Idx) (hk0 : (k 0).val = 5000 * t.val + (x 0).val) (hk1 : (k 1).val = (x 1).val) :
    (((cfg6.win 0).blk t).view.read (Elt Ideal) A : Vec Ideal S5000x16 .f32) x = (A : S100000x16.Idx → EReal) k := by
  obtain ⟨e0, e1, -⟩ := block_index6 t
  rw [View.read_apply]
  show A _ = A k
  congr 1
  funext a
  apply Fin.ext
  match a with
  | ⟨0, _⟩ => show win6_0.index t (0 : Fin 2) * 5000 + 1 * (x 0).val = (k 0).val; omega
  | ⟨1, _⟩ => show win6_0.index t (1 : Fin 2) * 16 + 1 * (x 1).val = (k 1).val; omega

/-- The right operand's block at any point is the whole array. -/
theorem right_block6 (c : Dev nD) (A : Buf (Elt Ideal) ((c : Thread nD τ).loc (Pipeline.arrRef spec6 1))) (t : Fin cfg6.N)
    (x : S16x1.Idx) :
    (((cfg6.win 1).blk t).view.read (Elt Ideal) A : Vec Ideal S16x1 .f32) x = (A : S16x1.Idx → EReal) x := by
  obtain ⟨-, -, e0, e1, -⟩ := block_index6 t
  rw [View.read_apply]
  show A _ = A x
  congr 1
  funext a
  apply Fin.ext
  match a with
  | ⟨0, _⟩ => show win6_1.index t (0 : Fin 2) * 16 + 1 * (x 0).val = (x 0).val; omega
  | ⟨1, _⟩ => show win6_1.index t (1 : Fin 2) * 1 + 1 * (x 1).val = (x 1).val; omega

/-- The bias row's block at any point is the whole array. -/
theorem bias_block6 (c : Dev nD) (A : Buf (Elt Ideal) ((c : Thread nD τ).loc (Pipeline.arrRef spec6 2))) (t : Fin cfg6.N)
    (x : S1x1.Idx) :
    (((cfg6.win 2).blk t).view.read (Elt Ideal) A : Vec Ideal S1x1 .f32) x = (A : S1x1.Idx → EReal) x := by
  obtain ⟨-, -, -, -, e0, e1, -⟩ := block_index6 t
  rw [View.read_apply]
  show A _ = A x
  congr 1
  funext a
  apply Fin.ext
  match a with
  | ⟨0, _⟩ => show win6_2.index t (0 : Fin 2) * 1 + 1 * (x 0).val = (x 0).val; omega
  | ⟨1, _⟩ => show win6_2.index t (1 : Fin 2) * 1 + 1 * (x 1).val = (x 1).val; omega

/-- Entry x of the output's block at point t is entry (5000·t + x 0, x 1) of the array. -/
theorem out_block6 (c : Dev nD) (A : Buf (Elt Ideal) ((c : Thread nD τ).loc (Pipeline.arrRef spec6 3))) (t : Fin cfg6.N)
    (x : S5000x1.Idx) (k : S100000x1.Idx) (hk0 : (k 0).val = 5000 * t.val + (x 0).val) (hk1 : (k 1).val = (x 1).val) :
    (((cfg6.win 3).blk t).view.read (Elt Ideal) A : Vec Ideal S5000x1 .f32) x = (A : S100000x1.Idx → EReal) k := by
  obtain ⟨-, -, -, -, -, -, e0, e1⟩ := block_index6 t
  rw [View.read_apply]
  show A _ = A k
  congr 1
  funext a
  apply Fin.ext
  match a with
  | ⟨0, _⟩ => show win6_3.index t (0 : Fin 2) * 5000 + 1 * (x 0).val = (k 0).val; omega
  | ⟨1, _⟩ => show win6_3.index t (1 : Fin 2) * 1 + 1 * (x 1).val = (k 1).val; omega

/-- The tile's payload at (p, q): the product into the zero accumulator is the sum over the contracted coordinate, and
    the bias row broadcast down the tile's rows adds its entry of column q. -/
theorem tile_product6 (x0 : Vec Ideal S5000x16 .f32) (x1 : Vec Ideal S16x1 .f32) (x2 : Vec Ideal S1x1 .f32) (p : Fin 5000) (q : Fin 1) :
    Gen.k6_pay1 (F := Ideal) x0 x1 x2 (ix2 p q) = (∑ cc : Fin 16, x0 (ix2 p cc) * x1 (ix2 cc q)) + x2 (ix2 (0 : Fin 1) q) := by
  unfold Gen.k6_pay1
  refine (addf_apply _ _ _).trans ?_
  refine congrArg₂ (· + ·) ?_ ?_
  · refine (matmul_zero_apply dot_S5000x16_S16x1_S5000x1_1_0_0_1_n_n.wf none _ _ p q).trans ?_
    rw [shapeCast_self]
    rfl
  · refine (broadcastTo_1b_ab_apply _ _ p q).trans ?_
    rw [shapeCast_self]

/-- A tile whose row p is row (i 0) of X, multiplied by a copy of B and offset by a copy of β, has at (p, i 1) the
    entry i of the whole product plus bias. -/
theorem tile_product_eq6 (X : S100000x16.Idx → EReal) (B : S16x1.Idx → EReal) (β : S1x1.Idx → EReal)
    (x0 : Vec Ideal S5000x16 .f32) (x1 : Vec Ideal S16x1 .f32) (x2 : Vec Ideal S1x1 .f32) (p : Fin 5000) (q : Fin 1) (i : S100000x1.Idx)
    (h0 : ∀ cc : Fin 16, x0 (ix2 p cc) = X (ix2 (i 0) cc))
    (h1 : ∀ cc : Fin 16, x1 (ix2 cc q) = B (ix2 cc (i 1)))
    (h2 : x2 (ix2 (0 : Fin 1) q) = β (ix2 (0 : Fin 1) (i 1))) :
    Gen.k6_pay1 (F := Ideal) x0 x1 x2 (ix2 p q) = Cert.Spec.matb (M := 100000) (k := 16) (n := 1) X B β i := by
  rw [tile_product6, h2]
  exact congrArg (· + β (ix2 (0 : Fin 1) (i 1))) (Finset.sum_congr rfl fun cc _ => by rw [h0 cc, h1 cc])

/-- WHAT POINT t WRITES BACK is block t of the whole product plus bias of the arrays the region finds. -/
theorem flushed6 (V : (c : Dev nD) → (b : Ref sig .tc) → Buf (Elt Ideal) ((c : Thread nD τ).loc b)) (c : Dev nD) (t : Fin cfg6.N) :
    (Gen.dat6 (F := Ideal) V c).flushed 3 t = ((cfg6.win 3).blk t).view.read (Elt Ideal)
      (Cert.Spec.matb (M := 100000) (k := 16) (n := 1) (V c (Pipeline.arrRef spec6 0)) (V c (Pipeline.arrRef spec6 1)) (V c (Pipeline.arrRef spec6 2))) := by
  show (cfg6.win 3).cut (grid6.coords t) ((Gen.dat6 V c).after 3 t) = _
  rw [Gen.after6_3]
  unfold Gen.out6_3
  rw [View.canon_unit_zero zero_offsets]
  simp only [View.ld_unit_zero (S := S5000x16) zero_offsets, View.ld_unit_zero (S := S16x1) zero_offsets, View.ld_unit_zero (S := S1x1) zero_offsets]
  funext j
  obtain ⟨p, q, rfl⟩ : ∃ (p : Fin 5000) (q : Fin 1), j = ix2 p q := ⟨j 0, j 1, eq_ix2 j⟩
  have hp : p.val < 5000 := p.isLt
  have ht : t.val < 20 := lt_of_lt_of_eq t.isLt Gen.N_6
  refine Eq.trans ?_ (out_block6 c _ t (ix2 p q) (ix2 ⟨5000 * t.val + p.val, by omega⟩ q) rfl rfl).symm
  refine tile_product_eq6 _ _ _ _ _ _ p q _ (fun cc => ?_) (fun cc => ?_) ?_
  · exact left_block6 c _ t (ix2 p cc) _ rfl rfl
  · exact right_block6 c _ t (ix2 cc q)
  · exact bias_block6 c _ t (ix2 (0 : Fin 1) q)

/-- An index of the output array is in point t's block iff each coordinate is in the block's range on its axis. -/
theorem mem_block6 (t : Fin cfg6.N) (i : S100000x1.Idx) :
    i ∈ ((cfg6.win 3).blk t).view.set ↔ ∀ a : Fin 2, win6_3.index t a * S5000x1.size a ≤ (i a).val ∧ (i a).val < win6_3.index t a * S5000x1.size a + S5000x1.size a := by
  show i ∈ ((View.whole main_v62).slice (win6_3.rect t)).set ↔ _
  rw [View.set_slice_whole, Rect.mem_set_unit]
  exact Iff.rfl

/-- Row r of the output array is in the block of point r / 5000, which writes it back. -/
theorem cover6 (i : S100000x1.Idx) :
    ∃ t : Fin cfg6.N, (cfg6.win 3).flush t = true ∧ i ∈ ((cfg6.win 3).blk t).view.set := by
  have hi0 : (i 0).val < 100000 := (i 0).isLt
  have hi1 : (i 1).val < 1 := (i 1).isLt
  have hN : cfg6.N = 20 := Gen.N_6
  obtain ⟨t, ht⟩ : ∃ t : Fin cfg6.N, t.val = (i 0).val / 5000 := ⟨⟨(i 0).val / 5000, by rw [hN]; omega⟩, rfl⟩
  obtain ⟨-, -, -, -, -, -, e0, e1⟩ := block_index6 t
  refine ⟨t, Gen.flush6_3 t, ?_⟩
  rw [mem_block6]
  intro a
  match a with
  | ⟨0, _⟩ => show win6_3.index t (0 : Fin 2) * 5000 ≤ (i 0).val ∧ (i 0).val < win6_3.index t (0 : Fin 2) * 5000 + 5000; omega
  | ⟨1, _⟩ => show win6_3.index t (1 : Fin 2) * 1 ≤ (i 1).val ∧ (i 1).val < win6_3.index t (1 : Fin 2) * 1 + 1; omega

/-- THE OUTPUT ARRAY after region 6: the product of the two arrays the region finds in its first operands, plus the
    bias row it finds in the third, broadcast down the rows. -/
theorem final6 (V : (c : Dev nD) → (b : Ref sig .tc) → Buf (Elt Ideal) ((c : Thread nD τ).loc b)) (c : Dev nD) :
    (Gen.dat6 (F := Ideal) V c).arrAt 3 cfg6.N = Cert.Spec.matb (M := 100000) (k := 16) (n := 1) (V c (Pipeline.arrRef spec6 0)) (V c (Pipeline.arrRef spec6 1)) (V c (Pipeline.arrRef spec6 2)) :=
  (Gen.dat6 (F := Ideal) V c).arrAt_eq_of_cover 3 _ (fun t _ => flushed6 V c t) cover6

end Cert.KernelIdeal.RegionValue

end
-- ==== Proof.RegionSbr.lean ====
/-
  The three regions that scale each row of an array by its node's factor, add a bias along the columns and clamp at
  zero, each read as ONE function of the arrays the region finds when it is entered.

  Such a region walks the 100000 rows in 20 tiles of 5000. At tile `t` it is handed rows `5000 t … 5000 t + 4999` of
  the aggregate `A` and of the scale column `s`, and the whole bias row `β`, and writes back rows `5000 t … 5000 t + 4999`
  of the result. Entry `(p, q)` of what it writes is `max (A (5000 t + p, q) · s (5000 t + p, 0) + β (0, q)) 0`: it depends on
  row `5000 t + p` of the operands only, so the tile written at `t` is the restriction to those rows of the whole-array
  function `Cert.Spec.sbr A s β`. Every row `r` lies in the tile of `t = r / 5000`, so after the last tile the array
  holds `Cert.Spec.sbr A s β` everywhere. The three regions differ in the width of a row only: 64, 32, 16.

  Per region: the body at an entry of its tile (`sbr_payK_apply`), where the printed index maps put each window's block
  (`sbrIdxFactsK`), each block read at an entry as the array at the corresponding row (`sbr_blkK_W_apply`), the tile
  as the restriction of the whole-array function (`sbr_tileK`, `sbr_flushedK_eq`), the cover of the rows by the tiles
  (`sbr_mem_blkK`, `sbr_coverK`), and the array after the region (`finalK`).
-/
import proofs.«105999_j16286515986672_1_alg».proof.Proof.Gen.KernelIdeal.Frame
import proofs.«105999_j16286515986672_1_alg».proof.Proof.Spec
import Idealize.ShloMosaic.Lib.Pipeline.Value
import Idealize.ShloMosaic.Lib.ValueLayout
import Idealize.ShloMosaic.PureOps.Ideal.Laws

noncomputable section

namespace Cert.KernelIdeal.RegionValue

open Cert.KernelIdeal Idealize.ShloMosaic Idealize.ShloMosaic.TcCoe Idealize.ShloMosaic.Pipeline Idealize.ShloMosaic.ValueIdx

/-- The zero offsets, however spelt. -/
theorem sbr_hz : (![0, 0] : Fin 2 → Nat) = fun _ => 0 := funext fun a => by fin_cases a <;> rfl

/-- A column `[a, 1]` broadcast along the rows to `[a, b]` reads, at `(p, q)`, the column's entry of row `p`. -/
theorem sbr_broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! ## Region 1: rows scaled, biased and clamped, width 64 -/

/-- The body of region 1 at an entry of its tile: the tile's entry times its row's factor, plus the column's
    bias, clamped at zero. -/
theorem sbr_pay1_apply (x0 : FVec Ideal S5000x64 .f32) (x1 : FVec Ideal S5000x1 .f32) (x2 : FVec Ideal S1x64 .f32)
    (p : Fin 5000) (q : Fin 64) :
    Gen.k1_pay1 (F := Ideal) x0 x1 x2 (ix2 p q) = max (x0 (ix2 p q) * x1 (ix2 p 0) + x2 (ix2 0 q)) 0 := by
  unfold Gen.k1_pay1
  simp only [shapeCast_self]
  show max (x0 (ix2 p q) * broadcastTo S5000x64 x1 Facts₀.broadcasts_S5000x1_S5000x64 (ix2 p q)
      + broadcastTo S5000x64 x2 Facts₀.broadcasts_S1x64_S5000x64 (ix2 p q)) (Ideal.ofBits .f32 0x00000000#32) = _
  rw [sbr_broadcastTo_a1_ab_apply, broadcastTo_1b_ab_apply, Ideal.ofBits_zero_f32]

/-- The printed index maps over the grid: at point `t` the three row-tiled windows sit at block row `t`, block
    column 0; the bias row's window is the whole row at every point. -/
theorem sbrIdxFacts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The aggregate's block at point `t`, at row `p` of the block: row `5000 t + p` of the array. -/
theorem sbr_blk1_0_apply (X : S100000x64.Idx → EReal) (t : Fin cfg1.N) (p : Fin 5000) (q : Fin 64)
    (i : Fin 100000) (hi : i.val = t.val * 5000 + p.val) :
    ((cfg1.win 0).blk t).view.read (Elt Ideal) X (ix2 p q) = X (ix2 i q) := by
  rw [View.read_apply]
  show X _ = X _
  refine congrArg X (funext fun a => Fin.ext ?_)
  obtain ⟨e0, e1, -⟩ := sbrIdxFacts1 t
  match a with
  | ⟨0, _⟩ => show win1_0.index t (0 : Fin 2) * 5000 + 1 * p.val = i.val; omega
  | ⟨1, _⟩ => show win1_0.index t (1 : Fin 2) * 64 + 1 * q.val = q.val; omega

/-- The scale column's block at point `t`, at row `p` of the block: row `5000 t + p` of the column. -/
theorem sbr_blk1_1_apply (X : S100000x1.Idx → EReal) (t : Fin cfg1.N) (p : Fin 5000)
    (i : Fin 100000) (hi : i.val = t.val * 5000 + p.val) :
    ((cfg1.win 1).blk t).view.read (Elt Ideal) X (ix2 p (0 : Fin 1)) = X (ix2 i (0 : Fin 1)) := by
  rw [View.read_apply]
  show X _ = X _
  refine congrArg X (funext fun a => Fin.ext ?_)
  obtain ⟨-, -, e0, e1, -⟩ := sbrIdxFacts1 t
  match a with
  | ⟨0, _⟩ => show win1_1.index t (0 : Fin 2) * 5000 + 1 * p.val = i.val; omega
  | ⟨1, _⟩ => show win1_1.index t (1 : Fin 2) * 1 + 1 * (0 : Fin 1).val = (0 : Fin 1).val; omega

/-- The bias row's block at every point is the bias row. -/
theorem sbr_blk1_2_apply (X : S1x64.Idx → EReal) (t : Fin cfg1.N) (q : Fin 64) :
    ((cfg1.win 2).blk t).view.read (Elt Ideal) X (ix2 (0 : Fin 1) q) = X (ix2 (0 : Fin 1) q) := by
  rw [View.read_apply]
  show X _ = X _
  refine congrArg X (funext fun a => Fin.ext ?_)
  obtain ⟨-, -, -, -, e0, e1, -⟩ := sbrIdxFacts1 t
  match a with
  | ⟨0, _⟩ => show win1_2.index t (0 : Fin 2) * 1 + 1 * (0 : Fin 1).val = (0 : Fin 1).val; omega
  | ⟨1, _⟩ => show win1_2.index t (1 : Fin 2) * 64 + 1 * q.val = q.val; omega

/-- The output's block at point `t`, read off any array: row `p` of the block is row `5000 t + p` of the array. -/
theorem sbr_blk1_3_apply (X : S100000x64.Idx → EReal) (t : Fin cfg1.N) (p : Fin 5000) (q : Fin 64)
    (i : Fin 100000) (hi : i.val = t.val * 5000 + p.val) :
    ((cfg1.win 3).blk t).view.read (Elt Ideal) X (ix2 p q) = X (ix2 i q) := by
  rw [View.read_apply]
  show X _ = X _
  refine congrArg X (funext fun a => Fin.ext ?_)
  obtain ⟨-, -, -, -, -, -, e0, e1⟩ := sbrIdxFacts1 t
  match a with
  | ⟨0, _⟩ => show win1_3.index t (0 : Fin 2) * 5000 + 1 * p.val = i.val; omega
  | ⟨1, _⟩ => show win1_3.index t (1 : Fin 2) * 64 + 1 * q.val = q.val; omega

/-- The body applied to the three windows' blocks at point `t`, at row `p` of the tile, is the whole-array
    function at row `5000 t + p`: an entry of the result depends only on its own row of the aggregate and of the
    scale column. -/
theorem sbr_tile1 (A : S100000x64.Idx → EReal) (s : S100000x1.Idx → EReal) (β : S1x64.Idx → EReal)
    (t : Fin cfg1.N) (p : Fin 5000) (q : Fin 64) (i : Fin 100000) (hi : i.val = t.val * 5000 + p.val) :
    Gen.k1_pay1 (F := Ideal) (((cfg1.win 0).blk t).view.read (Elt Ideal) A) (((cfg1.win 1).blk t).view.read (Elt Ideal) s)
      (((cfg1.win 2).blk t).view.read (Elt Ideal) β) (ix2 p q) = Cert.Spec.sbr (M := 100000) (D := 64) A s β (ix2 i q) := by
  refine (sbr_pay1_apply _ _ _ p q).trans ?_
  rw [sbr_blk1_0_apply A t p q i hi, sbr_blk1_1_apply s t p i hi, sbr_blk1_2_apply β t q]
  rfl

/-- What point `t` writes back is block `t` of the whole-array function of the arrays the region finds at its entry. -/
theorem sbr_flushed1_eq (V : (c : Dev nD) → (b : Ref sig .tc) → Buf (Elt Ideal) ((c : Thread nD τ).loc b)) (c : Dev nD)
    (t : Fin cfg1.N) :
    (Gen.dat1 (F := Ideal) V c).flushed 3 t = ((cfg1.win 3).blk t).view.read (Elt Ideal)
      (Cert.Spec.sbr (M := 100000) (D := 64) (V c (Pipeline.arrRef spec1 0)) (V c (Pipeline.arrRef spec1 1)) (V c (Pipeline.arrRef spec1 2))) := by
  show (cfg1.win 3).cut (grid1.coords t) ((Gen.dat1 (F := Ideal) V c).after 3 t) = _
  rw [Gen.after1_3]
  unfold Gen.out1_3
  rw [View.canon_unit_zero sbr_hz]
  simp only [View.ld_unit_zero (S := S5000x64) sbr_hz, View.ld_unit_zero (S := S5000x1) sbr_hz, View.ld_unit_zero (S := S1x64) sbr_hz]
  funext j
  obtain ⟨p, q, rfl⟩ : ∃ (p : Fin 5000) (q : Fin 64), j = ix2 p q := ⟨j 0, j 1, eq_ix2 j⟩
  have hN : cfg1.N = 20 := Gen.N_1
  have ht : t.val < 20 := hN ▸ t.isLt
  have hp : p.val < 5000 := p.isLt
  have hi : (⟨t.val * 5000 + p.val, by omega⟩ : Fin 100000).val = t.val * 5000 + p.val := rfl
  rw [sbr_blk1_3_apply _ t p q _ hi]
  unfold Gen.iblk1
  exact sbr_tile1 _ _ _ t p q _ hi

/-- An index of the array is in point `t`'s block iff each coordinate is in the block's range on its axis. -/
theorem sbr_mem_blk1 (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v30).slice (win1_3.rect t)).set ↔ _
  rw [View.set_slice_whole, Rect.mem_set_unit]
  exact Iff.rfl

/-- Every row of the array is in some point's block: row `r` in the block of point `r / 5000`. -/
theorem sbr_cover1 (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 20 := Gen.N_1
  have hlt : (i 0).val / 5000 < cfg1.N := by rw [hN]; omega
  obtain ⟨-, -, -, -, -, -, e0, e1⟩ := sbrIdxFacts1 ⟨(i 0).val / 5000, hlt⟩
  have e0' : win1_3.index ⟨(i 0).val / 5000, hlt⟩ (0 : Fin 2) = (i 0).val / 5000 := e0
  refine ⟨⟨(i 0).val / 5000, hlt⟩, Gen.flush1_3 _, ?_⟩
  rw [sbr_mem_blk1]
  intro a
  match a with
  | ⟨0, _⟩ =>
    show win1_3.index ⟨(i 0).val / 5000, hlt⟩ (0 : Fin 2) * 5000 ≤ (i 0).val
      ∧ (i 0).val < win1_3.index ⟨(i 0).val / 5000, hlt⟩ (0 : Fin 2) * 5000 + 5000
    omega
  | ⟨1, _⟩ =>
    show win1_3.index ⟨(i 0).val / 5000, hlt⟩ (1 : Fin 2) * 64 ≤ (i 1).val
      ∧ (i 1).val < win1_3.index ⟨(i 0).val / 5000, hlt⟩ (1 : Fin 2) * 64 + 64
    omega

/-- The array after region 1 is the whole-array function of the arrays the region finds at its entry. -/
theorem final1 (V : (c : Dev nD) → (b : Ref sig .tc) → Buf (Elt Ideal) ((c : Thread nD τ).loc b)) (c : Dev nD) :
    (Gen.dat1 (F := Ideal) V c).arrAt 3 cfg1.N = Cert.Spec.sbr (M := 100000) (D := 64) (V c (Pipeline.arrRef spec1 0)) (V c (Pipeline.arrRef spec1 1)) (V c (Pipeline.arrRef spec1 2)) :=
  (Gen.dat1 (F := Ideal) V c).arrAt_eq_of_cover 3 _ (fun t _ => sbr_flushed1_eq V c t) sbr_cover1

/-! ## Region 3: rows scaled, biased and clamped, width 32 -/

/-- The body of region 3 at an entry of its tile: the tile's entry times its row's factor, plus the column's
    bias, clamped at zero. -/
theorem sbr_pay3_apply (x0 : FVec Ideal S5000x32 .f32) (x1 : FVec Ideal S5000x1 .f32) (x2 : FVec Ideal S1x32 .f32)
    (p : Fin 5000) (q : Fin 32) :
    Gen.k3_pay1 (F := Ideal) x0 x1 x2 (ix2 p q) = max (x0 (ix2 p q) * x1 (ix2 p 0) + x2 (ix2 0 q)) 0 := by
  unfold Gen.k3_pay1
  simp only [shapeCast_self]
  show max (x0 (ix2 p q) * broadcastTo S5000x32 x1 Facts₀.broadcasts_S5000x1_S5000x32 (ix2 p q)
      + broadcastTo S5000x32 x2 Facts₀.broadcasts_S1x32_S5000x32 (ix2 p q)) (Ideal.ofBits .f32 0x00000000#32) = _
  rw [sbr_broadcastTo_a1_ab_apply, broadcastTo_1b_ab_apply, Ideal.ofBits_zero_f32]

/-- The printed index maps over the grid: at point `t` the three row-tiled windows sit at block row `t`, block
    column 0; the bias row's window is the whole row at every point. -/
theorem sbrIdxFacts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The aggregate's block at point `t`, at row `p` of the block: row `5000 t + p` of the array. -/
theorem sbr_blk3_0_apply (X : S100000x32.Idx → EReal) (t : Fin cfg3.N) (p : Fin 5000) (q : Fin 32)
    (i : Fin 100000) (hi : i.val = t.val * 5000 + p.val) :
    ((cfg3.win 0).blk t).view.read (Elt Ideal) X (ix2 p q) = X (ix2 i q) := by
  rw [View.read_apply]
  show X _ = X _
  refine congrArg X (funext fun a => Fin.ext ?_)
  obtain ⟨e0, e1, -⟩ := sbrIdxFacts3 t
  match a with
  | ⟨0, _⟩ => show win3_0.index t (0 : Fin 2) * 5000 + 1 * p.val = i.val; omega
  | ⟨1, _⟩ => show win3_0.index t (1 : Fin 2) * 32 + 1 * q.val = q.val; omega

/-- The scale column's block at point `t`, at row `p` of the block: row `5000 t + p` of the column. -/
theorem sbr_blk3_1_apply (X : S100000x1.Idx → EReal) (t : Fin cfg3.N) (p : Fin 5000)
    (i : Fin 100000) (hi : i.val = t.val * 5000 + p.val) :
    ((cfg3.win 1).blk t).view.read (Elt Ideal) X (ix2 p (0 : Fin 1)) = X (ix2 i (0 : Fin 1)) := by
  rw [View.read_apply]
  show X _ = X _
  refine congrArg X (funext fun a => Fin.ext ?_)
  obtain ⟨-, -, e0, e1, -⟩ := sbrIdxFacts3 t
  match a with
  | ⟨0, _⟩ => show win3_1.index t (0 : Fin 2) * 5000 + 1 * p.val = i.val; omega
  | ⟨1, _⟩ => show win3_1.index t (1 : Fin 2) * 1 + 1 * (0 : Fin 1).val = (0 : Fin 1).val; omega

/-- The bias row's block at every point is the bias row. -/
theorem sbr_blk3_2_apply (X : S1x32.Idx → EReal) (t : Fin cfg3.N) (q : Fin 32) :
    ((cfg3.win 2).blk t).view.read (Elt Ideal) X (ix2 (0 : Fin 1) q) = X (ix2 (0 : Fin 1) q) := by
  rw [View.read_apply]
  show X _ = X _
  refine congrArg X (funext fun a => Fin.ext ?_)
  obtain ⟨-, -, -, -, e0, e1, -⟩ := sbrIdxFacts3 t
  match a with
  | ⟨0, _⟩ => show win3_2.index t (0 : Fin 2) * 1 + 1 * (0 : Fin 1).val = (0 : Fin 1).val; omega
  | ⟨1, _⟩ => show win3_2.index t (1 : Fin 2) * 32 + 1 * q.val = q.val; omega

/-- The output's block at point `t`, read off any array: row `p` of the block is row `5000 t + p` of the array. -/
theorem sbr_blk3_3_apply (X : S100000x32.Idx → EReal) (t : Fin cfg3.N) (p : Fin 5000) (q : Fin 32)
    (i : Fin 100000) (hi : i.val = t.val * 5000 + p.val) :
    ((cfg3.win 3).blk t).view.read (Elt Ideal) X (ix2 p q) = X (ix2 i q) := by
  rw [View.read_apply]
  show X _ = X _
  refine congrArg X (funext fun a => Fin.ext ?_)
  obtain ⟨-, -, -, -, -, -, e0, e1⟩ := sbrIdxFacts3 t
  match a with
  | ⟨0, _⟩ => show win3_3.index t (0 : Fin 2) * 5000 + 1 * p.val = i.val; omega
  | ⟨1, _⟩ => show win3_3.index t (1 : Fin 2) * 32 + 1 * q.val = q.val; omega

/-- The body applied to the three windows' blocks at point `t`, at row `p` of the tile, is the whole-array
    function at row `5000 t + p`: an entry of the result depends only on its own row of the aggregate and of the
    scale column. -/
theorem sbr_tile3 (A : S100000x32.Idx → EReal) (s : S100000x1.Idx → EReal) (β : S1x32.Idx → EReal)
    (t : Fin cfg3.N) (p : Fin 5000) (q : Fin 32) (i : Fin 100000) (hi : i.val = t.val * 5000 + p.val) :
    Gen.k3_pay1 (F := Ideal) (((cfg3.win 0).blk t).view.read (Elt Ideal) A) (((cfg3.win 1).blk t).view.read (Elt Ideal) s)
      (((cfg3.win 2).blk t).view.read (Elt Ideal) β) (ix2 p q) = Cert.Spec.sbr (M := 100000) (D := 32) A s β (ix2 i q) := by
  refine (sbr_pay3_apply _ _ _ p q).trans ?_
  rw [sbr_blk3_0_apply A t p q i hi, sbr_blk3_1_apply s t p i hi, sbr_blk3_2_apply β t q]
  rfl

/-- What point `t` writes back is block `t` of the whole-array function of the arrays the region finds at its entry. -/
theorem sbr_flushed3_eq (V : (c : Dev nD) → (b : Ref sig .tc) → Buf (Elt Ideal) ((c : Thread nD τ).loc b)) (c : Dev nD)
    (t : Fin cfg3.N) :
    (Gen.dat3 (F := Ideal) V c).flushed 3 t = ((cfg3.win 3).blk t).view.read (Elt Ideal)
      (Cert.Spec.sbr (M := 100000) (D := 32) (V c (Pipeline.arrRef spec3 0)) (V c (Pipeline.arrRef spec3 1)) (V c (Pipeline.arrRef spec3 2))) := by
  show (cfg3.win 3).cut (grid3.coords t) ((Gen.dat3 (F := Ideal) V c).after 3 t) = _
  rw [Gen.after3_3]
  unfold Gen.out3_3
  rw [View.canon_unit_zero sbr_hz]
  simp only [View.ld_unit_zero (S := S5000x32) sbr_hz, View.ld_unit_zero (S := S5000x1) sbr_hz, View.ld_unit_zero (S := S1x32) sbr_hz]
  funext j
  obtain ⟨p, q, rfl⟩ : ∃ (p : Fin 5000) (q : Fin 32), j = ix2 p q := ⟨j 0, j 1, eq_ix2 j⟩
  have hN : cfg3.N = 20 := Gen.N_3
  have ht : t.val < 20 := hN ▸ t.isLt
  have hp : p.val < 5000 := p.isLt
  have hi : (⟨t.val * 5000 + p.val, by omega⟩ : Fin 100000).val = t.val * 5000 + p.val := rfl
  rw [sbr_blk3_3_apply _ t p q _ hi]
  unfold Gen.iblk3
  exact sbr_tile3 _ _ _ t p q _ hi

/-- An index of the array is in point `t`'s block iff each coordinate is in the block's range on its axis. -/
theorem sbr_mem_blk3 (t : Fin cfg3.N) (i : S100000x32.Idx) :
    i ∈ ((cfg3.win 3).blk t).view.set ↔ ∀ a : Fin 2, win3_3.index t a * S5000x32.size a ≤ (i a).val ∧ (i a).val < win3_3.index t a * S5000x32.size a + S5000x32.size a := by
  show i ∈ ((View.whole main_v45).slice (win3_3.rect t)).set ↔ _
  rw [View.set_slice_whole, Rect.mem_set_unit]
  exact Iff.rfl

/-- Every row of the array is in some point's block: row `r` in the block of point `r / 5000`. -/
theorem sbr_cover3 (i : S100000x32.Idx) :
    ∃ t : Fin cfg3.N, (cfg3.win 3).flush t = true ∧ i ∈ ((cfg3.win 3).blk t).view.set := by
  have hi0 : (i 0).val < 100000 := (i 0).isLt
  have hi1 : (i 1).val < 32 := (i 1).isLt
  have hN : cfg3.N = 20 := Gen.N_3
  have hlt : (i 0).val / 5000 < cfg3.N := by rw [hN]; omega
  obtain ⟨-, -, -, -, -, -, e0, e1⟩ := sbrIdxFacts3 ⟨(i 0).val / 5000, hlt⟩
  have e0' : win3_3.index ⟨(i 0).val / 5000, hlt⟩ (0 : Fin 2) = (i 0).val / 5000 := e0
  refine ⟨⟨(i 0).val / 5000, hlt⟩, Gen.flush3_3 _, ?_⟩
  rw [sbr_mem_blk3]
  intro a
  match a with
  | ⟨0, _⟩ =>
    show win3_3.index ⟨(i 0).val / 5000, hlt⟩ (0 : Fin 2) * 5000 ≤ (i 0).val
      ∧ (i 0).val < win3_3.index ⟨(i 0).val / 5000, hlt⟩ (0 : Fin 2) * 5000 + 5000
    omega
  | ⟨1, _⟩ =>
    show win3_3.index ⟨(i 0).val / 5000, hlt⟩ (1 : Fin 2) * 32 ≤ (i 1).val
      ∧ (i 1).val < win3_3.index ⟨(i 0).val / 5000, hlt⟩ (1 : Fin 2) * 32 + 32
    omega

/-- The array after region 3 is the whole-array function of the arrays the region finds at its entry. -/
theorem final3 (V : (c : Dev nD) → (b : Ref sig .tc) → Buf (Elt Ideal) ((c : Thread nD τ).loc b)) (c : Dev nD) :
    (Gen.dat3 (F := Ideal) V c).arrAt 3 cfg3.N = Cert.Spec.sbr (M := 100000) (D := 32) (V c (Pipeline.arrRef spec3 0)) (V c (Pipeline.arrRef spec3 1)) (V c (Pipeline.arrRef spec3 2)) :=
  (Gen.dat3 (F := Ideal) V c).arrAt_eq_of_cover 3 _ (fun t _ => sbr_flushed3_eq V c t) sbr_cover3

/-! ## Region 5: rows scaled, biased and clamped, width 16 -/

/-- The body of region 5 at an entry of its tile: the tile's entry times its row's factor, plus the column's
    bias, clamped at zero. -/
theorem sbr_pay5_apply (x0 : FVec Ideal S5000x16 .f32) (x1 : FVec Ideal S5000x1 .f32) (x2 : FVec Ideal S1x16 .f32)
    (p : Fin 5000) (q : Fin 16) :
    Gen.k5_pay1 (F := Ideal) x0 x1 x2 (ix2 p q) = max (x0 (ix2 p q) * x1 (ix2 p 0) + x2 (ix2 0 q)) 0 := by
  unfold Gen.k5_pay1
  simp only [shapeCast_self]
  show max (x0 (ix2 p q) * broadcastTo S5000x16 x1 Facts₀.broadcasts_S5000x1_S5000x16 (ix2 p q)
      + broadcastTo S5000x16 x2 Facts₀.broadcasts_S1x16_S5000x16 (ix2 p q)) (Ideal.ofBits .f32 0x00000000#32) = _
  rw [sbr_broadcastTo_a1_ab_apply, broadcastTo_1b_ab_apply, Ideal.ofBits_zero_f32]

/-- The printed index maps over the grid: at point `t` the three row-tiled windows sit at block row `t`, block
    column 0; the bias row's window is the whole row at every point. -/
theorem sbrIdxFacts5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- The aggregate's block at point `t`, at row `p` of the block: row `5000 t + p` of the array. -/
theorem sbr_blk5_0_apply (X : S100000x16.Idx → EReal) (t : Fin cfg5.N) (p : Fin 5000) (q : Fin 16)
    (i : Fin 100000) (hi : i.val = t.val * 5000 + p.val) :
    ((cfg5.win 0).blk t).view.read (Elt Ideal) X (ix2 p q) = X (ix2 i q) := by
  rw [View.read_apply]
  show X _ = X _
  refine congrArg X (funext fun a => Fin.ext ?_)
  obtain ⟨e0, e1, -⟩ := sbrIdxFacts5 t
  match a with
  | ⟨0, _⟩ => show win5_0.index t (0 : Fin 2) * 5000 + 1 * p.val = i.val; omega
  | ⟨1, _⟩ => show win5_0.index t (1 : Fin 2) * 16 + 1 * q.val = q.val; omega

/-- The scale column's block at point `t`, at row `p` of the block: row `5000 t + p` of the column. -/
theorem sbr_blk5_1_apply (X : S100000x1.Idx → EReal) (t : Fin cfg5.N) (p : Fin 5000)
    (i : Fin 100000) (hi : i.val = t.val * 5000 + p.val) :
    ((cfg5.win 1).blk t).view.read (Elt Ideal) X (ix2 p (0 : Fin 1)) = X (ix2 i (0 : Fin 1)) := by
  rw [View.read_apply]
  show X _ = X _
  refine congrArg X (funext fun a => Fin.ext ?_)
  obtain ⟨-, -, e0, e1, -⟩ := sbrIdxFacts5 t
  match a with
  | ⟨0, _⟩ => show win5_1.index t (0 : Fin 2) * 5000 + 1 * p.val = i.val; omega
  | ⟨1, _⟩ => show win5_1.index t (1 : Fin 2) * 1 + 1 * (0 : Fin 1).val = (0 : Fin 1).val; omega

/-- The bias row's block at every point is the bias row. -/
theorem sbr_blk5_2_apply (X : S1x16.Idx → EReal) (t : Fin cfg5.N) (q : Fin 16) :
    ((cfg5.win 2).blk t).view.read (Elt Ideal) X (ix2 (0 : Fin 1) q) = X (ix2 (0 : Fin 1) q) := by
  rw [View.read_apply]
  show X _ = X _
  refine congrArg X (funext fun a => Fin.ext ?_)
  obtain ⟨-, -, -, -, e0, e1, -⟩ := sbrIdxFacts5 t
  match a with
  | ⟨0, _⟩ => show win5_2.index t (0 : Fin 2) * 1 + 1 * (0 : Fin 1).val = (0 : Fin 1).val; omega
  | ⟨1, _⟩ => show win5_2.index t (1 : Fin 2) * 16 + 1 * q.val = q.val; omega

/-- The output's block at point `t`, read off any array: row `p` of the block is row `5000 t + p` of the array. -/
theorem sbr_blk5_3_apply (X : S100000x16.Idx → EReal) (t : Fin cfg5.N) (p : Fin 5000) (q : Fin 16)
    (i : Fin 100000) (hi : i.val = t.val * 5000 + p.val) :
    ((cfg5.win 3).blk t).view.read (Elt Ideal) X (ix2 p q) = X (ix2 i q) := by
  rw [View.read_apply]
  show X _ = X _
  refine congrArg X (funext fun a => Fin.ext ?_)
  obtain ⟨-, -, -, -, -, -, e0, e1⟩ := sbrIdxFacts5 t
  match a with
  | ⟨0, _⟩ => show win5_3.index t (0 : Fin 2) * 5000 + 1 * p.val = i.val; omega
  | ⟨1, _⟩ => show win5_3.index t (1 : Fin 2) * 16 + 1 * q.val = q.val; omega

/-- The body applied to the three windows' blocks at point `t`, at row `p` of the tile, is the whole-array
    function at row `5000 t + p`: an entry of the result depends only on its own row of the aggregate and of the
    scale column. -/
theorem sbr_tile5 (A : S100000x16.Idx → EReal) (s : S100000x1.Idx → EReal) (β : S1x16.Idx → EReal)
    (t : Fin cfg5.N) (p : Fin 5000) (q : Fin 16) (i : Fin 100000) (hi : i.val = t.val * 5000 + p.val) :
    Gen.k5_pay1 (F := Ideal) (((cfg5.win 0).blk t).view.read (Elt Ideal) A) (((cfg5.win 1).blk t).view.read (Elt Ideal) s)
      (((cfg5.win 2).blk t).view.read (Elt Ideal) β) (ix2 p q) = Cert.Spec.sbr (M := 100000) (D := 16) A s β (ix2 i q) := by
  refine (sbr_pay5_apply _ _ _ p q).trans ?_
  rw [sbr_blk5_0_apply A t p q i hi, sbr_blk5_1_apply s t p i hi, sbr_blk5_2_apply β t q]
  rfl

/-- What point `t` writes back is block `t` of the whole-array function of the arrays the region finds at its entry. -/
theorem sbr_flushed5_eq (V : (c : Dev nD) → (b : Ref sig .tc) → Buf (Elt Ideal) ((c : Thread nD τ).loc b)) (c : Dev nD)
    (t : Fin cfg5.N) :
    (Gen.dat5 (F := Ideal) V c).flushed 3 t = ((cfg5.win 3).blk t).view.read (Elt Ideal)
      (Cert.Spec.sbr (M := 100000) (D := 16) (V c (Pipeline.arrRef spec5 0)) (V c (Pipeline.arrRef spec5 1)) (V c (Pipeline.arrRef spec5 2))) := by
  show (cfg5.win 3).cut (grid5.coords t) ((Gen.dat5 (F := Ideal) V c).after 3 t) = _
  rw [Gen.after5_3]
  unfold Gen.out5_3
  rw [View.canon_unit_zero sbr_hz]
  simp only [View.ld_unit_zero (S := S5000x16) sbr_hz, View.ld_unit_zero (S := S5000x1) sbr_hz, View.ld_unit_zero (S := S1x16) sbr_hz]
  funext j
  obtain ⟨p, q, rfl⟩ : ∃ (p : Fin 5000) (q : Fin 16), j = ix2 p q := ⟨j 0, j 1, eq_ix2 j⟩
  have hN : cfg5.N = 20 := Gen.N_5
  have ht : t.val < 20 := hN ▸ t.isLt
  have hp : p.val < 5000 := p.isLt
  have hi : (⟨t.val * 5000 + p.val, by omega⟩ : Fin 100000).val = t.val * 5000 + p.val := rfl
  rw [sbr_blk5_3_apply _ t p q _ hi]
  unfold Gen.iblk5
  exact sbr_tile5 _ _ _ t p q _ hi

/-- An index of the array is in point `t`'s block iff each coordinate is in the block's range on its axis. -/
theorem sbr_mem_blk5 (t : Fin cfg5.N) (i : S100000x16.Idx) :
    i ∈ ((cfg5.win 3).blk t).view.set ↔ ∀ a : Fin 2, win5_3.index t a * S5000x16.size a ≤ (i a).val ∧ (i a).val < win5_3.index t a * S5000x16.size a + S5000x16.size a := by
  show i ∈ ((View.whole main_v60).slice (win5_3.rect t)).set ↔ _
  rw [View.set_slice_whole, Rect.mem_set_unit]
  exact Iff.rfl

/-- Every row of the array is in some point's block: row `r` in the block of point `r / 5000`. -/
theorem sbr_cover5 (i : S100000x16.Idx) :
    ∃ t : Fin cfg5.N, (cfg5.win 3).flush t = true ∧ i ∈ ((cfg5.win 3).blk t).view.set := by
  have hi0 : (i 0).val < 100000 := (i 0).isLt
  have hi1 : (i 1).val < 16 := (i 1).isLt
  have hN : cfg5.N = 20 := Gen.N_5
  have hlt : (i 0).val / 5000 < cfg5.N := by rw [hN]; omega
  obtain ⟨-, -, -, -, -, -, e0, e1⟩ := sbrIdxFacts5 ⟨(i 0).val / 5000, hlt⟩
  have e0' : win5_3.index ⟨(i 0).val / 5000, hlt⟩ (0 : Fin 2) = (i 0).val / 5000 := e0
  refine ⟨⟨(i 0).val / 5000, hlt⟩, Gen.flush5_3 _, ?_⟩
  rw [sbr_mem_blk5]
  intro a
  match a with
  | ⟨0, _⟩ =>
    show win5_3.index ⟨(i 0).val / 5000, hlt⟩ (0 : Fin 2) * 5000 ≤ (i 0).val
      ∧ (i 0).val < win5_3.index ⟨(i 0).val / 5000, hlt⟩ (0 : Fin 2) * 5000 + 5000
    omega
  | ⟨1, _⟩ =>
    show win5_3.index ⟨(i 0).val / 5000, hlt⟩ (1 : Fin 2) * 16 ≤ (i 1).val
      ∧ (i 1).val < win5_3.index ⟨(i 0).val / 5000, hlt⟩ (1 : Fin 2) * 16 + 16
    omega

/-- The array after region 5 is the whole-array function of the arrays the region finds at its entry. -/
theorem final5 (V : (c : Dev nD) → (b : Ref sig .tc) → Buf (Elt Ideal) ((c : Thread nD τ).loc b)) (c : Dev nD) :
    (Gen.dat5 (F := Ideal) V c).arrAt 3 cfg5.N = Cert.Spec.sbr (M := 100000) (D := 16) (V c (Pipeline.arrRef spec5 0)) (V c (Pipeline.arrRef spec5 1)) (V c (Pipeline.arrRef spec5 2)) :=
  (Gen.dat5 (F := Ideal) V c).arrAt_eq_of_cover 3 _ (fun t _ => sbr_flushed5_eq V c t) sbr_cover5

end Cert.KernelIdeal.RegionValue

end
-- ==== Proof.KerRun.lean ====
/-
  The run of this program with its result named. The generated frame folds the buffers' contents through the
  program, boundary by boundary: a host stretch rewrites the buffers its operations write, a region leaves in its
  output array what its tiles' write-backs leave, which is the whole-array function of the region's inputs. Walking
  that fold forward from the launch, each buffer a later step reads is the composed term's piece at that boundary
  (the edges' ends, the nodes' factors, each layer's product, gathered sum and rectified rows), so the result buffer
  ends at the composed term of the arguments, and every argument ends as launched.
-/
import proofs.«105999_j16286515986672_1_alg».proof.Proof.Gen.KernelIdeal.Frame
import proofs.«105999_j16286515986672_1_alg».proof.Proof.KerTerm
import proofs.«105999_j16286515986672_1_alg».proof.Proof.KerHost
import proofs.«105999_j16286515986672_1_alg».proof.Proof.RegionMat
import proofs.«105999_j16286515986672_1_alg».proof.Proof.RegionSbr

set_option maxRecDepth 16384

noncomputable section

namespace Cert.KernelIdeal.KerRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Facts₀

local notation "𝕄" => MT nD τ sig Unit (Elt Ideal) ℕ (UR sig nD τ) ℕ

/-! ## Equal arguments, equal values -/

theorem congr2 {α β γ : Sort _} (f : α → β → γ) {a a' : α} {b b' : β} (ha : a = a') (hb : b = b') : f a b = f a' b' := by
  subst ha hb; rfl
theorem congr3 {α β γ δ : Sort _} (f : α → β → γ → δ) {a a' : α} {b b' : β} {c c' : γ} (ha : a = a') (hb : b = b') (hc : c = c') :
    f a b c = f a' b' c' := by
  subst ha hb hc; rfl
theorem congr4 {α β γ δ ε : Sort _} (f : α → β → γ → δ → ε) {a a' : α} {b b' : β} {c c' : γ} {d d' : δ}
    (ha : a = a') (hb : b = b') (hc : c = c') (hd : d = d') : f a b c d = f a' b' c' d' := by
  subst ha hb hc hd; rfl

/-- The composed term is the last region's function of the third layer, the output weights and the output bias as a row. -/
theorem out_eq (x : FVec Ideal S100000x128 .f32) (a1 : IVec S2x3200000 32) (w1 : FVec Ideal S128x64 .f32) (b1 : FVec Ideal S64 .f32)
    (w2 : FVec Ideal S64x32 .f32) (b2 : FVec Ideal S32 .f32) (w3 : FVec Ideal S32x16 .f32) (b3 : FVec Ideal S16 .f32)
    (wo : FVec Ideal S16x1 .f32) (bo : FVec Ideal S1 .f32) :
    Spec.matb (M := 100000) (k := 16) (n := 1)
      (KerTerm.layer3 (KerTerm.layer2 (KerTerm.layer1 x w1 b1 (KerTerm.src a1) (KerTerm.dst a1)) w2 b2 (KerTerm.src a1) (KerTerm.dst a1)) w3 b3 (KerTerm.src a1) (KerTerm.dst a1))
      wo (shapeCast S1x1 bo shapeCasts_S1_S1x1) = KerTerm.out x a1 w1 b1 w2 b2 w3 b3 wo bo := rfl

/-! ## Each region's output array, with its input arrays named -/

section Regions

variable (V : (c : Dev nD) → (b : Ref sig .tc) → Buf (Elt Ideal) ((c : Thread nD τ).loc b)) (c : Dev nD)

theorem reg0_out : (Gen.dat0 (F := Ideal) V c).arrAt 2 cfg0.N = Spec.mat (M := 100000) (k := 128) (n := 64) (V c main_arg0) (V c main_arg2) :=
  RegionValue.final0 V c

theorem reg1_out : (Gen.dat1 (F := Ideal) V c).arrAt 3 cfg1.N = Spec.sbr (M := 100000) (D := 64) (V c main_v28) (V c main_v15) (V c main_v29) :=
  RegionValue.final1 V c

theorem reg2_out : (Gen.dat2 (F := Ideal) V c).arrAt 2 cfg2.N = Spec.mat (M := 100000) (k := 64) (n := 32) (V c main_v30) (V c main_arg4) :=
  RegionValue.final2 V c

theorem reg3_out : (Gen.dat3 (F := Ideal) V c).arrAt 3 cfg3.N = Spec.sbr (M := 100000) (D := 32) (V c main_v43) (V c main_v15) (V c main_v44) :=
  RegionValue.final3 V c

theorem reg4_out : (Gen.dat4 (F := Ideal) V c).arrAt 2 cfg4.N = Spec.mat (M := 100000) (k := 32) (n := 16) (V c main_v45) (V c main_arg6) :=
  RegionValue.final4 V c

theorem reg5_out : (Gen.dat5 (F := Ideal) V c).arrAt 3 cfg5.N = Spec.sbr (M := 100000) (D := 16) (V c main_v58) (V c main_v15) (V c main_v59) :=
  RegionValue.final5 V c

theorem reg6_out : (Gen.dat6 (F := Ideal) V c).arrAt 3 cfg6.N = Spec.matb (M := 100000) (k := 16) (n := 1) (V c main_v60) (V c main_arg8) (V c main_v61) :=
  RegionValue.final6 V c

end Regions

variable (m : (ℓ : Loc nD τ sig) → Buf (Elt Ideal) ℓ) (ρ : Dev nD → PrngReg)

section Walk

variable (c : Dev nD)

/-! ## Before the first region: the edges' ends, the nodes' factors; the arguments as launched -/

theorem W3_v3 : Gen.W3 m ρ c (Proc.devRef .tc main_v3) = (KerTerm.src (m ((c.tc : Thread nD τ).loc main_arg1))) :=
  KerHost.host0_v3 (Gen.W0 m ρ c)
theorem W3_v6 : Gen.W3 m ρ c (Proc.devRef .tc main_v6) = (KerTerm.dst (m ((c.tc : Thread nD τ).loc main_arg1))) :=
  KerHost.host0_v6 (Gen.W0 m ρ c)
theorem W3_v15 : Gen.W3 m ρ c (Proc.devRef .tc main_v15) = (KerTerm.dinv2 (KerTerm.dst (m ((c.tc : Thread nD τ).loc main_arg1)))) :=
  KerHost.host0_v15 (Gen.W0 m ρ c)
theorem W3_arg0 : Gen.W3 m ρ c (Proc.devRef .tc main_arg0) = (m ((c.tc : Thread nD τ).loc main_arg0)) :=
  KerHost.host0_keep_arg0 (Gen.W0 m ρ c)
theorem W3_arg2 : Gen.W3 m ρ c (Proc.devRef .tc main_arg2) = (m ((c.tc : Thread nD τ).loc main_arg2)) :=
  KerHost.host0_keep_arg2 (Gen.W0 m ρ c)
theorem W3_arg3 : Gen.W3 m ρ c (Proc.devRef .tc main_arg3) = (m ((c.tc : Thread nD τ).loc main_arg3)) :=
  KerHost.host0_keep_arg3 (Gen.W0 m ρ c)
theorem W3_arg4 : Gen.W3 m ρ c (Proc.devRef .tc main_arg4) = (m ((c.tc : Thread nD τ).loc main_arg4)) :=
  KerHost.host0_keep_arg4 (Gen.W0 m ρ c)
theorem W3_arg5 : Gen.W3 m ρ c (Proc.devRef .tc main_arg5) = (m ((c.tc : Thread nD τ).loc main_arg5)) :=
  KerHost.host0_keep_arg5 (Gen.W0 m ρ c)
theorem W3_arg6 : Gen.W3 m ρ c (Proc.devRef .tc main_arg6) = (m ((c.tc : Thread nD τ).loc main_arg6)) :=
  KerHost.host0_keep_arg6 (Gen.W0 m ρ c)
theorem W3_arg7 : Gen.W3 m ρ c (Proc.devRef .tc main_arg7) = (m ((c.tc : Thread nD τ).loc main_arg7)) :=
  KerHost.host0_keep_arg7 (Gen.W0 m ρ c)
theorem W3_arg8 : Gen.W3 m ρ c (Proc.devRef .tc main_arg8) = (m ((c.tc : Thread nD τ).loc main_arg8)) :=
  KerHost.host0_keep_arg8 (Gen.W0 m ρ c)
theorem W3_arg9 : Gen.W3 m ρ c (Proc.devRef .tc main_arg9) = (m ((c.tc : Thread nD τ).loc main_arg9)) :=
  KerHost.host0_keep_arg9 (Gen.W0 m ρ c)

/-! ## Region 0 -/

theorem W4_v16 : Gen.W4 m ρ c (Proc.devRef .tc main_v16) = (Spec.mat (M := 100000) (k := 128) (n := 64) (m ((c.tc : Thread nD τ).loc main_arg0)) (m ((c.tc : Thread nD τ).loc main_arg2))) :=
  (Gen.W4_arr m ρ c 2).trans ((reg0_out (Gen.V3 m ρ) c).trans (congr2 (Spec.mat (M := 100000) (k := 128) (n := 64)) (W3_arg0 m ρ c) (W3_arg2 m ρ c)))
theorem W4_v15 : Gen.W4 m ρ c (Proc.devRef .tc main_v15) = (KerTerm.dinv2 (KerTerm.dst (m ((c.tc : Thread nD τ).loc main_arg1)))) :=
  (Gen.W4_of_ne m ρ c main_v15 (by decide)).trans (W3_v15 m ρ c)
theorem W4_v3 : Gen.W4 m ρ c (Proc.devRef .tc main_v3) = (KerTerm.src (m ((c.tc : Thread nD τ).loc main_arg1))) :=
  (Gen.W4_of_ne m ρ c main_v3 (by decide)).trans (W3_v3 m ρ c)
theorem W4_v6 : Gen.W4 m ρ c (Proc.devRef .tc main_v6) = (KerTerm.dst (m ((c.tc : Thread nD τ).loc main_arg1))) :=
  (Gen.W4_of_ne m ρ c main_v6 (by decide)).trans (W3_v6 m ρ c)
theorem W4_arg3 : Gen.W4 m ρ c (Proc.devRef .tc main_arg3) = (m ((c.tc : Thread nD τ).loc main_arg3)) :=
  (Gen.W4_of_ne m ρ c main_arg3 (by decide)).trans (W3_arg3 m ρ c)
theorem W4_arg4 : Gen.W4 m ρ c (Proc.devRef .tc main_arg4) = (m ((c.tc : Thread nD τ).loc main_arg4)) :=
  (Gen.W4_of_ne m ρ c main_arg4 (by decide)).trans (W3_arg4 m ρ c)
theorem W4_arg5 : Gen.W4 m ρ c (Proc.devRef .tc main_arg5) = (m ((c.tc : Thread nD τ).loc main_arg5)) :=
  (Gen.W4_of_ne m ρ c main_arg5 (by decide)).trans (W3_arg5 m ρ c)
theorem W4_arg6 : Gen.W4 m ρ c (Proc.devRef .tc main_arg6) = (m ((c.tc : Thread nD τ).loc main_arg6)) :=
  (Gen.W4_of_ne m ρ c main_arg6 (by decide)).trans (W3_arg6 m ρ c)
theorem W4_arg7 : Gen.W4 m ρ c (Proc.devRef .tc main_arg7) = (m ((c.tc : Thread nD τ).loc main_arg7)) :=
  (Gen.W4_of_ne m ρ c main_arg7 (by decide)).trans (W3_arg7 m ρ c)
theorem W4_arg8 : Gen.W4 m ρ c (Proc.devRef .tc main_arg8) = (m ((c.tc : Thread nD τ).loc main_arg8)) :=
  (Gen.W4_of_ne m ρ c main_arg8 (by decide)).trans (W3_arg8 m ρ c)
theorem W4_arg9 : Gen.W4 m ρ c (Proc.devRef .tc main_arg9) = (m ((c.tc : Thread nD τ).loc main_arg9)) :=
  (Gen.W4_of_ne m ρ c main_arg9 (by decide)).trans (W3_arg9 m ρ c)

/-! ## The stretch before region 1: the scaled rows gathered and summed, the bias as a row -/

theorem W5_v28 : Gen.W5 m ρ c (Proc.devRef .tc main_v28) = (KerHost.agg1 (Spec.mat (M := 100000) (k := 128) (n := 64) (m ((c.tc : Thread nD τ).loc main_arg0)) (m ((c.tc : Thread nD τ).loc main_arg2))) (KerTerm.dinv2 (KerTerm.dst (m ((c.tc : Thread nD τ).loc main_arg1)))) (KerTerm.src (m ((c.tc : Thread nD τ).loc main_arg1))) (KerTerm.dst (m ((c.tc : Thread nD τ).loc main_arg1)))) :=
  (KerHost.host1_out (Gen.W4 m ρ c)).trans (congr4 KerHost.agg1 (W4_v16 m ρ c) (W4_v15 m ρ c) (W4_v3 m ρ c) (W4_v6 m ρ c))
theorem W5_v29 : Gen.W5 m ρ c (Proc.devRef .tc main_v29) = (shapeCast S1x64 (m ((c.tc : Thread nD τ).loc main_arg3)) shapeCasts_S64_S1x64) :=
  (KerHost.host1_bias (Gen.W4 m ρ c)).trans (congrArg (fun a => shapeCast S1x64 a shapeCasts_S64_S1x64) (W4_arg3 m ρ c))
theorem W5_v15 : Gen.W5 m ρ c (Proc.devRef .tc main_v15) = (KerTerm.dinv2 (KerTerm.dst (m ((c.tc : Thread nD τ).loc main_arg1)))) :=
  (KerHost.host1_keep_v15 (Gen.W4 m ρ c)).trans (W4_v15 m ρ c)
theorem W5_v3 : Gen.W5 m ρ c (Proc.devRef .tc main_v3) = (KerTerm.src (m ((c.tc : Thread nD τ).loc main_arg1))) :=
  (KerHost.host1_keep_v3 (Gen.W4 m ρ c)).trans (W4_v3 m ρ c)
theorem W5_v6 : Gen.W5 m ρ c (Proc.devRef .tc main_v6) = (KerTerm.dst (m ((c.tc : Thread nD τ).loc main_arg1))) :=
  (KerHost.host1_keep_v6 (Gen.W4 m ρ c)).trans (W4_v6 m ρ c)
theorem W5_arg4 : Gen.W5 m ρ c (Proc.devRef .tc main_arg4) = (m ((c.tc : Thread nD τ).loc main_arg4)) :=
  (KerHost.host1_keep_arg4 (Gen.W4 m ρ c)).trans (W4_arg4 m ρ c)
theorem W5_arg5 : Gen.W5 m ρ c (Proc.devRef .tc main_arg5) = (m ((c.tc : Thread nD τ).loc main_arg5)) :=
  (KerHost.host1_keep_arg5 (Gen.W4 m ρ c)).trans (W4_arg5 m ρ c)
theorem W5_arg6 : Gen.W5 m ρ c (Proc.devRef .tc main_arg6) = (m ((c.tc : Thread nD τ).loc main_arg6)) :=
  (KerHost.host1_keep_arg6 (Gen.W4 m ρ c)).trans (W4_arg6 m ρ c)
theorem W5_arg7 : Gen.W5 m ρ c (Proc.devRef .tc main_arg7) = (m ((c.tc : Thread nD τ).loc main_arg7)) :=
  (KerHost.host1_keep_arg7 (Gen.W4 m ρ c)).trans (W4_arg7 m ρ c)
theorem W5_arg8 : Gen.W5 m ρ c (Proc.devRef .tc main_arg8) = (m ((c.tc : Thread nD τ).loc main_arg8)) :=
  (KerHost.host1_keep_arg8 (Gen.W4 m ρ c)).trans (W4_arg8 m ρ c)
theorem W5_arg9 : Gen.W5 m ρ c (Proc.devRef .tc main_arg9) = (m ((c.tc : Thread nD τ).loc main_arg9)) :=
  (KerHost.host1_keep_arg9 (Gen.W4 m ρ c)).trans (W4_arg9 m ρ c)

/-! ## Region 1 -/

theorem W6_v30 : Gen.W6 m ρ c (Proc.devRef .tc main_v30) = (KerTerm.layer1 (m ((c.tc : Thread nD τ).loc main_arg0)) (m ((c.tc : Thread nD τ).loc main_arg2)) (m ((c.tc : Thread nD τ).loc main_arg3)) (KerTerm.src (m ((c.tc : Thread nD τ).loc main_arg1))) (KerTerm.dst (m ((c.tc : Thread nD τ).loc main_arg1)))) :=
  (Gen.W6_arr m ρ c 3).trans ((reg1_out (Gen.V5 m ρ) c).trans ((congr3 (Spec.sbr (M := 100000) (D := 64)) (W5_v28 m ρ c) (W5_v15 m ρ c) (W5_v29 m ρ c)).trans (KerHost.layer1_eq (m ((c.tc : Thread nD τ).loc main_arg0)) (m ((c.tc : Thread nD τ).loc main_arg2)) (m ((c.tc : Thread nD τ).loc main_arg3)) (KerTerm.src (m ((c.tc : Thread nD τ).loc main_arg1))) (KerTerm.dst (m ((c.tc : Thread nD τ).loc main_arg1))))))
theorem W6_v15 : Gen.W6 m ρ c (Proc.devRef .tc main_v15) = (KerTerm.dinv2 (KerTerm.dst (m ((c.tc : Thread nD τ).loc main_arg1)))) :=
  (Gen.W6_arr m ρ c 1).trans (((Gen.dat1 (Gen.V5 m ρ) c).arrAt_in 1 rfl _).trans ((Gen.A_eq1 (Gen.V5 m ρ) c 1).trans (W5_v15 m ρ c)))
theorem W6_v3 : Gen.W6 m ρ c (Proc.devRef .tc main_v3) = (KerTerm.src (m ((c.tc : Thread nD τ).loc main_arg1))) :=
  (Gen.W6_of_ne m ρ c main_v3 (by decide)).trans (W5_v3 m ρ c)
theorem W6_v6 : Gen.W6 m ρ c (Proc.devRef .tc main_v6) = (KerTerm.dst (m ((c.tc : Thread nD τ).loc main_arg1))) :=
  (Gen.W6_of_ne m ρ c main_v6 (by decide)).trans (W5_v6 m ρ c)
theorem W6_arg4 : Gen.W6 m ρ c (Proc.devRef .tc main_arg4) = (m ((c.tc : Thread nD τ).loc main_arg4)) :=
  (Gen.W6_of_ne m ρ c main_arg4 (by decide)).trans (W5_arg4 m ρ c)
theorem W6_arg5 : Gen.W6 m ρ c (Proc.devRef .tc main_arg5) = (m ((c.tc : Thread nD τ).loc main_arg5)) :=
  (Gen.W6_of_ne m ρ c main_arg5 (by decide)).trans (W5_arg5 m ρ c)
theorem W6_arg6 : Gen.W6 m ρ c (Proc.devRef .tc main_arg6) = (m ((c.tc : Thread nD τ).loc main_arg6)) :=
  (Gen.W6_of_ne m ρ c main_arg6 (by decide)).trans (W5_arg6 m ρ c)
theorem W6_arg7 : Gen.W6 m ρ c (Proc.devRef .tc main_arg7) = (m ((c.tc : Thread nD τ).loc main_arg7)) :=
  (Gen.W6_of_ne m ρ c main_arg7 (by decide)).trans (W5_arg7 m ρ c)
theorem W6_arg8 : Gen.W6 m ρ c (Proc.devRef .tc main_arg8) = (m ((c.tc : Thread nD τ).loc main_arg8)) :=
  (Gen.W6_of_ne m ρ c main_arg8 (by decide)).trans (W5_arg8 m ρ c)
theorem W6_arg9 : Gen.W6 m ρ c (Proc.devRef .tc main_arg9) = (m ((c.tc : Thread nD τ).loc main_arg9)) :=
  (Gen.W6_of_ne m ρ c main_arg9 (by decide)).trans (W5_arg9 m ρ c)

/-! ## Region 2 -/

theorem W7_v31 : Gen.W7 m ρ c (Proc.devRef .tc main_v31) = (Spec.mat (M := 100000) (k := 64) (n := 32) (KerTerm.layer1 (m ((c.tc : Thread nD τ).loc main_arg0)) (m ((c.tc : Thread nD τ).loc main_arg2)) (m ((c.tc : Thread nD τ).loc main_arg3)) (KerTerm.src (m ((c.tc : Thread nD τ).loc main_arg1))) (KerTerm.dst (m ((c.tc : Thread nD τ).loc main_arg1)))) (m ((c.tc : Thread nD τ).loc main_arg4))) :=
  (Gen.W7_arr m ρ c 2).trans ((reg2_out (Gen.V6 m ρ) c).trans (congr2 (Spec.mat (M := 100000) (k := 64) (n := 32)) (W6_v30 m ρ c) (W6_arg4 m ρ c)))
theorem W7_v15 : Gen.W7 m ρ c (Proc.devRef .tc main_v15) = (KerTerm.dinv2 (KerTerm.dst (m ((c.tc : Thread nD τ).loc main_arg1)))) :=
  (Gen.W7_of_ne m ρ c main_v15 (by decide)).trans (W6_v15 m ρ c)
theorem W7_v3 : Gen.W7 m ρ c (Proc.devRef .tc main_v3) = (KerTerm.src (m ((c.tc : Thread nD τ).loc main_arg1))) :=
  (Gen.W7_of_ne m ρ c main_v3 (by decide)).trans (W6_v3 m ρ c)
theorem W7_v6 : Gen.W7 m ρ c (Proc.devRef .tc main_v6) = (KerTerm.dst (m ((c.tc : Thread nD τ).loc main_arg1))) :=
  (Gen.W7_of_ne m ρ c main_v6 (by decide)).trans (W6_v6 m ρ c)
theorem W7_arg5 : Gen.W7 m ρ c (Proc.devRef .tc main_arg5) = (m ((c.tc : Thread nD τ).loc main_arg5)) :=
  (Gen.W7_of_ne m ρ c main_arg5 (by decide)).trans (W6_arg5 m ρ c)
theorem W7_arg6 : Gen.W7 m ρ c (Proc.devRef .tc main_arg6) = (m ((c.tc : Thread nD τ).loc main_arg6)) :=
  (Gen.W7_of_ne m ρ c main_arg6 (by decide)).trans (W6_arg6 m ρ c)
theorem W7_arg7 : Gen.W7 m ρ c (Proc.devRef .tc main_arg7) = (m ((c.tc : Thread nD τ).loc main_arg7)) :=
  (Gen.W7_of_ne m ρ c main_arg7 (by decide)).trans (W6_arg7 m ρ c)
theorem W7_arg8 : Gen.W7 m ρ c (Proc.devRef .tc main_arg8) = (m ((c.tc : Thread nD τ).loc main_arg8)) :=
  (Gen.W7_of_ne m ρ c main_arg8 (by decide)).trans (W6_arg8 m ρ c)
theorem W7_arg9 : Gen.W7 m ρ c (Proc.devRef .tc main_arg9) = (m ((c.tc : Thread nD τ).loc main_arg9)) :=
  (Gen.W7_of_ne m ρ c main_arg9 (by decide)).trans (W6_arg9 m ρ c)

/-! ## The stretch before region 3: the scaled rows gathered and summed, the bias as a row -/

theorem W8_v43 : Gen.W8 m ρ c (Proc.devRef .tc main_v43) = (KerHost.agg2 (Spec.mat (M := 100000) (k := 64) (n := 32) (KerTerm.layer1 (m ((c.tc : Thread nD τ).loc main_arg0)) (m ((c.tc : Thread nD τ).loc main_arg2)) (m ((c.tc : Thread nD τ).loc main_arg3)) (KerTerm.src (m ((c.tc : Thread nD τ).loc main_arg1))) (KerTerm.dst (m ((c.tc : Thread nD τ).loc main_arg1)))) (m ((c.tc : Thread nD τ).loc main_arg4))) (KerTerm.dinv2 (KerTerm.dst (m ((c.tc : Thread nD τ).loc main_arg1)))) (KerTerm.src (m ((c.tc : Thread nD τ).loc main_arg1))) (KerTerm.dst (m ((c.tc : Thread nD τ).loc main_arg1)))) :=
  (KerHost.host2_out (Gen.W7 m ρ c)).trans (congr4 KerHost.agg2 (W7_v31 m ρ c) (W7_v15 m ρ c) (W7_v3 m ρ c) (W7_v6 m ρ c))
theorem W8_v44 : Gen.W8 m ρ c (Proc.devRef .tc main_v44) = (shapeCast S1x32 (m ((c.tc : Thread nD τ).loc main_arg5)) shapeCasts_S32_S1x32) :=
  (KerHost.host2_bias (Gen.W7 m ρ c)).trans (congrArg (fun a => shapeCast S1x32 a shapeCasts_S32_S1x32) (W7_arg5 m ρ c))
theorem W8_v15 : Gen.W8 m ρ c (Proc.devRef .tc main_v15) = (KerTerm.dinv2 (KerTerm.dst (m ((c.tc : Thread nD τ).loc main_arg1)))) :=
  (KerHost.host2_keep_v15 (Gen.W7 m ρ c)).trans (W7_v15 m ρ c)
theorem W8_v3 : Gen.W8 m ρ c (Proc.devRef .tc main_v3) = (KerTerm.src (m ((c.tc : Thread nD τ).loc main_arg1))) :=
  (KerHost.host2_keep_v3 (Gen.W7 m ρ c)).trans (W7_v3 m ρ c)
theorem W8_v6 : Gen.W8 m ρ c (Proc.devRef .tc main_v6) = (KerTerm.dst (m ((c.tc : Thread nD τ).loc main_arg1))) :=
  (KerHost.host2_keep_v6 (Gen.W7 m ρ c)).trans (W7_v6 m ρ c)
theorem W8_arg6 : Gen.W8 m ρ c (Proc.devRef .tc main_arg6) = (m ((c.tc : Thread nD τ).loc main_arg6)) :=
  (KerHost.host2_keep_arg6 (Gen.W7 m ρ c)).trans (W7_arg6 m ρ c)
theorem W8_arg7 : Gen.W8 m ρ c (Proc.devRef .tc main_arg7) = (m ((c.tc : Thread nD τ).loc main_arg7)) :=
  (KerHost.host2_keep_arg7 (Gen.W7 m ρ c)).trans (W7_arg7 m ρ c)
theorem W8_arg8 : Gen.W8 m ρ c (Proc.devRef .tc main_arg8) = (m ((c.tc : Thread nD τ).loc main_arg8)) :=
  (KerHost.host2_keep_arg8 (Gen.W7 m ρ c)).trans (W7_arg8 m ρ c)
theorem W8_arg9 : Gen.W8 m ρ c (Proc.devRef .tc main_arg9) = (m ((c.tc : Thread nD τ).loc main_arg9)) :=
  (KerHost.host2_keep_arg9 (Gen.W7 m ρ c)).trans (W7_arg9 m ρ c)

/-! ## Region 3 -/

theorem W9_v45 : Gen.W9 m ρ c (Proc.devRef .tc main_v45) = (KerTerm.layer2 (KerTerm.layer1 (m ((c.tc : Thread nD τ).loc main_arg0)) (m ((c.tc : Thread nD τ).loc main_arg2)) (m ((c.tc : Thread nD τ).loc main_arg3)) (KerTerm.src (m ((c.tc : Thread nD τ).loc main_arg1))) (KerTerm.dst (m ((c.tc : Thread nD τ).loc main_arg1)))) (m ((c.tc : Thread nD τ).loc main_arg4)) (m ((c.tc : Thread nD τ).loc main_arg5)) (KerTerm.src (m ((c.tc : Thread nD τ).loc main_arg1))) (KerTerm.dst (m ((c.tc : Thread nD τ).loc main_arg1)))) :=
  (Gen.W9_arr m ρ c 3).trans ((reg3_out (Gen.V8 m ρ) c).trans ((congr3 (Spec.sbr (M := 100000) (D := 32)) (W8_v43 m ρ c) (W8_v15 m ρ c) (W8_v44 m ρ c)).trans (KerHost.layer2_eq (KerTerm.layer1 (m ((c.tc : Thread nD τ).loc main_arg0)) (m ((c.tc : Thread nD τ).loc main_arg2)) (m ((c.tc : Thread nD τ).loc main_arg3)) (KerTerm.src (m ((c.tc : Thread nD τ).loc main_arg1))) (KerTerm.dst (m ((c.tc : Thread nD τ).loc main_arg1)))) (m ((c.tc : Thread nD τ).loc main_arg4)) (m ((c.tc : Thread nD τ).loc main_arg5)) (KerTerm.src (m ((c.tc : Thread nD τ).loc main_arg1))) (KerTerm.dst (m ((c.tc : Thread nD τ).loc main_arg1))))))
theorem W9_v15 : Gen.W9 m ρ c (Proc.devRef .tc main_v15) = (KerTerm.dinv2 (KerTerm.dst (m ((c.tc : Thread nD τ).loc main_arg1)))) :=
  (Gen.W9_arr m ρ c 1).trans (((Gen.dat3 (Gen.V8 m ρ) c).arrAt_in 1 rfl _).trans ((Gen.A_eq3 (Gen.V8 m ρ) c 1).trans (W8_v15 m ρ c)))
theorem W9_v3 : Gen.W9 m ρ c (Proc.devRef .tc main_v3) = (KerTerm.src (m ((c.tc : Thread nD τ).loc main_arg1))) :=
  (Gen.W9_of_ne m ρ c main_v3 (by decide)).trans (W8_v3 m ρ c)
theorem W9_v6 : Gen.W9 m ρ c (Proc.devRef .tc main_v6) = (KerTerm.dst (m ((c.tc : Thread nD τ).loc main_arg1))) :=
  (Gen.W9_of_ne m ρ c main_v6 (by decide)).trans (W8_v6 m ρ c)
theorem W9_arg6 : Gen.W9 m ρ c (Proc.devRef .tc main_arg6) = (m ((c.tc : Thread nD τ).loc main_arg6)) :=
  (Gen.W9_of_ne m ρ c main_arg6 (by decide)).trans (W8_arg6 m ρ c)
theorem W9_arg7 : Gen.W9 m ρ c (Proc.devRef .tc main_arg7) = (m ((c.tc : Thread nD τ).loc main_arg7)) :=
  (Gen.W9_of_ne m ρ c main_arg7 (by decide)).trans (W8_arg7 m ρ c)
theorem W9_arg8 : Gen.W9 m ρ c (Proc.devRef .tc main_arg8) = (m ((c.tc : Thread nD τ).loc main_arg8)) :=
  (Gen.W9_of_ne m ρ c main_arg8 (by decide)).trans (W8_arg8 m ρ c)
theorem W9_arg9 : Gen.W9 m ρ c (Proc.devRef .tc main_arg9) = (m ((c.tc : Thread nD τ).loc main_arg9)) :=
  (Gen.W9_of_ne m ρ c main_arg9 (by decide)).trans (W8_arg9 m ρ c)

/-! ## Region 4 -/

theorem W10_v46 : Gen.W10 m ρ c (Proc.devRef .tc main_v46) = (Spec.mat (M := 100000) (k := 32) (n := 16) (KerTerm.layer2 (KerTerm.layer1 (m ((c.tc : Thread nD τ).loc main_arg0)) (m ((c.tc : Thread nD τ).loc main_arg2)) (m ((c.tc : Thread nD τ).loc main_arg3)) (KerTerm.src (m ((c.tc : Thread nD τ).loc main_arg1))) (KerTerm.dst (m ((c.tc : Thread nD τ).loc main_arg1)))) (m ((c.tc : Thread nD τ).loc main_arg4)) (m ((c.tc : Thread nD τ).loc main_arg5)) (KerTerm.src (m ((c.tc : Thread nD τ).loc main_arg1))) (KerTerm.dst (m ((c.tc : Thread nD τ).loc main_arg1)))) (m ((c.tc : Thread nD τ).loc main_arg6))) :=
  (Gen.W10_arr m ρ c 2).trans ((reg4_out (Gen.V9 m ρ) c).trans (congr2 (Spec.mat (M := 100000) (k := 32) (n := 16)) (W9_v45 m ρ c) (W9_arg6 m ρ c)))
theorem W10_v15 : Gen.W10 m ρ c (Proc.devRef .tc main_v15) = (KerTerm.dinv2 (KerTerm.dst (m ((c.tc : Thread nD τ).loc main_arg1)))) :=
  (Gen.W10_of_ne m ρ c main_v15 (by decide)).trans (W9_v15 m ρ c)
theorem W10_v3 : Gen.W10 m ρ c (Proc.devRef .tc main_v3) = (KerTerm.src (m ((c.tc : Thread nD τ).loc main_arg1))) :=
  (Gen.W10_of_ne m ρ c main_v3 (by decide)).trans (W9_v3 m ρ c)
theorem W10_v6 : Gen.W10 m ρ c (Proc.devRef .tc main_v6) = (KerTerm.dst (m ((c.tc : Thread nD τ).loc main_arg1))) :=
  (Gen.W10_of_ne m ρ c main_v6 (by decide)).trans (W9_v6 m ρ c)
theorem W10_arg7 : Gen.W10 m ρ c (Proc.devRef .tc main_arg7) = (m ((c.tc : Thread nD τ).loc main_arg7)) :=
  (Gen.W10_of_ne m ρ c main_arg7 (by decide)).trans (W9_arg7 m ρ c)
theorem W10_arg8 : Gen.W10 m ρ c (Proc.devRef .tc main_arg8) = (m ((c.tc : Thread nD τ).loc main_arg8)) :=
  (Gen.W10_of_ne m ρ c main_arg8 (by decide)).trans (W9_arg8 m ρ c)
theorem W10_arg9 : Gen.W10 m ρ c (Proc.devRef .tc main_arg9) = (m ((c.tc : Thread nD τ).loc main_arg9)) :=
  (Gen.W10_of_ne m ρ c main_arg9 (by decide)).trans (W9_arg9 m ρ c)

/-! ## The stretch before region 5: the scaled rows gathered and summed, the bias as a row -/

theorem W11_v58 : Gen.W11 m ρ c (Proc.devRef .tc main_v58) = (KerHost.agg3 (Spec.mat (M := 100000) (k := 32) (n := 16) (KerTerm.layer2 (KerTerm.layer1 (m ((c.tc : Thread nD τ).loc main_arg0)) (m ((c.tc : Thread nD τ).loc main_arg2)) (m ((c.tc : Thread nD τ).loc main_arg3)) (KerTerm.src (m ((c.tc : Thread nD τ).loc main_arg1))) (KerTerm.dst (m ((c.tc : Thread nD τ).loc main_arg1)))) (m ((c.tc : Thread nD τ).loc main_arg4)) (m ((c.tc : Thread nD τ).loc main_arg5)) (KerTerm.src (m ((c.tc : Thread nD τ).loc main_arg1))) (KerTerm.dst (m ((c.tc : Thread nD τ).loc main_arg1)))) (m ((c.tc : Thread nD τ).loc main_arg6))) (KerTerm.dinv2 (KerTerm.dst (m ((c.tc : Thread nD τ).loc main_arg1)))) (KerTerm.src (m ((c.tc : Thread nD τ).loc main_arg1))) (KerTerm.dst (m ((c.tc : Thread nD τ).loc main_arg1)))) :=
  (KerHost.host3_out (Gen.W10 m ρ c)).trans (congr4 KerHost.agg3 (W10_v46 m ρ c) (W10_v15 m ρ c) (W10_v3 m ρ c) (W10_v6 m ρ c))
theorem W11_v59 : Gen.W11 m ρ c (Proc.devRef .tc main_v59) = (shapeCast S1x16 (m ((c.tc : Thread nD τ).loc main_arg7)) shapeCasts_S16_S1x16) :=
  (KerHost.host3_bias (Gen.W10 m ρ c)).trans (congrArg (fun a => shapeCast S1x16 a shapeCasts_S16_S1x16) (W10_arg7 m ρ c))
theorem W11_v15 : Gen.W11 m ρ c (Proc.devRef .tc main_v15) = (KerTerm.dinv2 (KerTerm.dst (m ((c.tc : Thread nD τ).loc main_arg1)))) :=
  (KerHost.host3_keep_v15 (Gen.W10 m ρ c)).trans (W10_v15 m ρ c)
theorem W11_arg8 : Gen.W11 m ρ c (Proc.devRef .tc main_arg8) = (m ((c.tc : Thread nD τ).loc main_arg8)) :=
  (KerHost.host3_keep_arg8 (Gen.W10 m ρ c)).trans (W10_arg8 m ρ c)
theorem W11_arg9 : Gen.W11 m ρ c (Proc.devRef .tc main_arg9) = (m ((c.tc : Thread nD τ).loc main_arg9)) :=
  (KerHost.host3_keep_arg9 (Gen.W10 m ρ c)).trans (W10_arg9 m ρ c)

/-! ## Region 5 -/

theorem W12_v60 : Gen.W12 m ρ c (Proc.devRef .tc main_v60) = (KerTerm.layer3 (KerTerm.layer2 (KerTerm.layer1 (m ((c.tc : Thread nD τ).loc main_arg0)) (m ((c.tc : Thread nD τ).loc main_arg2)) (m ((c.tc : Thread nD τ).loc main_arg3)) (KerTerm.src (m ((c.tc : Thread nD τ).loc main_arg1))) (KerTerm.dst (m ((c.tc : Thread nD τ).loc main_arg1)))) (m ((c.tc : Thread nD τ).loc main_arg4)) (m ((c.tc : Thread nD τ).loc main_arg5)) (KerTerm.src (m ((c.tc : Thread nD τ).loc main_arg1))) (KerTerm.dst (m ((c.tc : Thread nD τ).loc main_arg1)))) (m ((c.tc : Thread nD τ).loc main_arg6)) (m ((c.tc : Thread nD τ).loc main_arg7)) (KerTerm.src (m ((c.tc : Thread nD τ).loc main_arg1))) (KerTerm.dst (m ((c.tc : Thread nD τ).loc main_arg1)))) :=
  (Gen.W12_arr m ρ c 3).trans ((reg5_out (Gen.V11 m ρ) c).trans ((congr3 (Spec.sbr (M := 100000) (D := 16)) (W11_v58 m ρ c) (W11_v15 m ρ c) (W11_v59 m ρ c)).trans (KerHost.layer3_eq (KerTerm.layer2 (KerTerm.layer1 (m ((c.tc : Thread nD τ).loc main_arg0)) (m ((c.tc : Thread nD τ).loc main_arg2)) (m ((c.tc : Thread nD τ).loc main_arg3)) (KerTerm.src (m ((c.tc : Thread nD τ).loc main_arg1))) (KerTerm.dst (m ((c.tc : Thread nD τ).loc main_arg1)))) (m ((c.tc : Thread nD τ).loc main_arg4)) (m ((c.tc : Thread nD τ).loc main_arg5)) (KerTerm.src (m ((c.tc : Thread nD τ).loc main_arg1))) (KerTerm.dst (m ((c.tc : Thread nD τ).loc main_arg1)))) (m ((c.tc : Thread nD τ).loc main_arg6)) (m ((c.tc : Thread nD τ).loc main_arg7)) (KerTerm.src (m ((c.tc : Thread nD τ).loc main_arg1))) (KerTerm.dst (m ((c.tc : Thread nD τ).loc main_arg1))))))
theorem W12_arg8 : Gen.W12 m ρ c (Proc.devRef .tc main_arg8) = (m ((c.tc : Thread nD τ).loc main_arg8)) :=
  (Gen.W12_of_ne m ρ c main_arg8 (by decide)).trans (W11_arg8 m ρ c)
theorem W12_arg9 : Gen.W12 m ρ c (Proc.devRef .tc main_arg9) = (m ((c.tc : Thread nD τ).loc main_arg9)) :=
  (Gen.W12_of_ne m ρ c main_arg9 (by decide)).trans (W11_arg9 m ρ c)

/-! ## The stretch before the last region: the output bias as a row -/

theorem W13_v61 : Gen.W13 m ρ c (Proc.devRef .tc main_v61) = (shapeCast S1x1 (m ((c.tc : Thread nD τ).loc main_arg9)) shapeCasts_S1_S1x1) :=
  (KerHost.host6_bias (Gen.W12 m ρ c)).trans (congrArg (fun a => shapeCast S1x1 a shapeCasts_S1_S1x1) (W12_arg9 m ρ c))
theorem W13_v60 : Gen.W13 m ρ c (Proc.devRef .tc main_v60) = (KerTerm.layer3 (KerTerm.layer2 (KerTerm.layer1 (m ((c.tc : Thread nD τ).loc main_arg0)) (m ((c.tc : Thread nD τ).loc main_arg2)) (m ((c.tc : Thread nD τ).loc main_arg3)) (KerTerm.src (m ((c.tc : Thread nD τ).loc main_arg1))) (KerTerm.dst (m ((c.tc : Thread nD τ).loc main_arg1)))) (m ((c.tc : Thread nD τ).loc main_arg4)) (m ((c.tc : Thread nD τ).loc main_arg5)) (KerTerm.src (m ((c.tc : Thread nD τ).loc main_arg1))) (KerTerm.dst (m ((c.tc : Thread nD τ).loc main_arg1)))) (m ((c.tc : Thread nD τ).loc main_arg6)) (m ((c.tc : Thread nD τ).loc main_arg7)) (KerTerm.src (m ((c.tc : Thread nD τ).loc main_arg1))) (KerTerm.dst (m ((c.tc : Thread nD τ).loc main_arg1)))) :=
  (KerHost.host6_keep_v60 (Gen.W12 m ρ c)).trans (W12_v60 m ρ c)
theorem W13_arg8 : Gen.W13 m ρ c (Proc.devRef .tc main_arg8) = (m ((c.tc : Thread nD τ).loc main_arg8)) :=
  (KerHost.host6_keep_arg8 (Gen.W12 m ρ c)).trans (W12_arg8 m ρ c)

/-! ## Region 6 -/

theorem W14_v62 : Gen.W14 m ρ c (Proc.devRef .tc main_v62) = KerTerm.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (Gen.W14_arr m ρ c 3).trans ((reg6_out (Gen.V13 m ρ) c).trans ((congr3 (Spec.matb (M := 100000) (k := 16) (n := 1)) (W13_v60 m ρ c) (W13_arg8 m ρ c) (W13_v61 m ρ c)).trans (out_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)))))

end Walk

-- the run's implicit arguments are found by unifying its conclusion with this one, which takes unfolding plain
-- definitions in a metavariable's type
set_option backward.isDefEq.respectTransparency.types false in
/-- The run of the program with its result named: every weakly fair execution terminates without fault, the result
    buffer ends at the last boundary's contents of it, and every argument ends as launched. -/
theorem run_named : θ_run (defs (F := Ideal)) (onTc (τ := τ) (main (F := Ideal))) ⟨m, fun _ => 0, ρ⟩ (fun r => ∀ c : Dev nD,
      r.2.mem ((c.tc : Thread nD τ).loc main_v62) = Gen.W14 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := Ideal)) Gen.adm (Gen.pdats m ρ) () Gen.cellOf_inj emb₁ defs₀ Gen.𝒱₀ Gen.L Gen.lv m ρ main (Gen.segs m ρ)
    (fun c Q => by rw [Gen.main_run m ρ c])
    (by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs Gen.cellOf_inj) (Pipeline.launchToks cfgs Gen.cellOf_inj))
    (hu₀ := by
      iintro Hu; imodintro
      isplitl [Hu]
      · iapply (show (ownU (initOf (Pipeline.cells cfgs Gen.cellOf_inj) (Pipeline.launchToks cfgs Gen.cellOf_inj)) : sProp 𝕄)
            ⊢ BI.own (emb₁ (initOf (Pipeline.cells cfgs Gen.cellOf_inj) (Pipeline.launchToks cfgs Gen.cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.W0 m ρ c) ∗ Gen.R c)) (Tₙ := Gen.Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach Gen.L Gen.lv fun c => ?_
      rw [show unscopedBufs c (fun b => m ((c : Thread nD τ).loc b)) = StableHlo.held (c : Thread nD τ) (Pipeline.ucRefs τ sig) (Gen.W0 m ρ c)
        from Pipeline.unscopedBufs_held c (Gen.W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (Gen.W14 m ρ c) s')
      isplitl [Hh] <;> iassumption)
    (hQ := fun s h c =>
      ⟨h c _ (Gen.mem_uc main_v62 (by decide)),
       (h c _ (Gen.mem_uc main_arg0 (by decide))).trans (Gen.W14_main_arg0 m ρ c),
       (h c _ (Gen.mem_uc main_arg1 (by decide))).trans (Gen.W14_main_arg1 m ρ c),
       (h c _ (Gen.mem_uc main_arg2 (by decide))).trans (Gen.W14_main_arg2 m ρ c),
       (h c _ (Gen.mem_uc main_arg3 (by decide))).trans (Gen.W14_main_arg3 m ρ c),
       (h c _ (Gen.mem_uc main_arg4 (by decide))).trans (Gen.W14_main_arg4 m ρ c),
       (h c _ (Gen.mem_uc main_arg5 (by decide))).trans (Gen.W14_main_arg5 m ρ c),
       (h c _ (Gen.mem_uc main_arg6 (by decide))).trans (Gen.W14_main_arg6 m ρ c),
       (h c _ (Gen.mem_uc main_arg7 (by decide))).trans (Gen.W14_main_arg7 m ρ c),
       (h c _ (Gen.mem_uc main_arg8 (by decide))).trans (Gen.W14_main_arg8 m ρ c),
       (h c _ (Gen.mem_uc main_arg9 (by decide))).trans (Gen.W14_main_arg9 m ρ c)⟩)

/-- The run of the program: every weakly fair execution terminates without fault, the result buffer ends at the
    composed term of the arguments, and every argument ends as launched. -/
theorem run : θ_run (defs (F := Ideal)) (onTc (τ := τ) (main (F := Ideal))) ⟨m, fun _ => 0, ρ⟩ fun r => ∀ c : Dev nD,
      r.2.mem ((c.tc : Thread nD τ).loc main_v62) = Cert.KerTerm.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨(h c).1.trans (W14_v62 m ρ c), (h c).2⟩) (run_named m ρ)

end Cert.KernelIdeal.KerRun

end
-- ==== Proof.RefTerm.lean ====
/-
  The value the reference computes, as one composed term of its argument arrays at the extended reals, in the
  reference's own operations, cut into the stages its mathematics has: the two ends of every edge, the nodes'
  scaling factors, and the three layers.
-/
import proofs.«105999_j16286515986672_1_alg».proof.ReferenceIdeal
import proofs.«105999_j16286515986672_1_alg».proof.Proof.Gen.ReferenceIdeal
import Idealize.ShloMosaic.PureOps.Ideal

noncomputable section

namespace Cert.RefTerm

open Cert.ReferenceIdeal Cert.ReferenceIdeal.Facts₀ Idealize.ShloMosaic

/-- The source end of every edge: row 0 of the edge list, followed by one self loop per node. -/
def src (a1 : IVec S2x3200000 32) : IVec S3300000 32 :=
  concatenate S3300000 0 [⟨S3200000, shapeCast S3200000 (extractStridedSlice S1x3200000 ![0, 0] a1 slices_S2x3200000_S1x3200000_0_0) shapeCasts_S1x3200000_S3200000⟩, ⟨S100000, iotaInDim S100000 32 0⟩] concatenates_S3200000_S100000_S3300000_d0

/-- The target end of every edge: row 1 of the edge list, followed by one self loop per node. -/
def dst (a1 : IVec S2x3200000 32) : IVec S3300000 32 :=
  concatenate S3300000 0 [⟨S3200000, shapeCast S3200000 (extractStridedSlice S1x3200000 ![1, 0] a1 slices_S2x3200000_S1x3200000_1_0) shapeCasts_S1x3200000_S3200000⟩, ⟨S100000, iotaInDim S100000 32 0⟩] concatenates_S3200000_S100000_S3300000_d0

/-- A list of node numbers as a column of gather indices: a negative number `s` is replaced by `s + 100000`. -/
def wrap (s : IVec S3300000 32) : IVec S3300000x1 32 :=
  broadcastInDim S3300000x1 ![0] bcast_S3300000_S3300000x1_0
    (select (cmpi .slt s (broadcastInDim S3300000 ![] bcast_S_S3300000 (constantI S_ 32 0#32)))
      (addi s (broadcastInDim S3300000 ![] bcast_S_S3300000 (constantI S_ 32 100000#32))) s)

/-- A list of node numbers as a column of scatter indices, unchanged. -/
def col (s : IVec S3300000 32) : IVec S3300000x1 32 :=
  broadcastInDim S3300000x1 ![0] bcast_S3300000_S3300000x1_0 s

/-- The number of edges that end at each node (one added per edge whose target is that node). -/
def deg (d : IVec S3300000 32) : FVec Ideal S100000 .f32 :=
  Host.scatterAdd (F := Ideal) scatter_S100000_S3300000x1_S3300000_n_0_0_1
    (broadcastInDim S100000 ![] bcast_S_S100000 (constant (F := Ideal) S_ .f32 0x00000000#32)) (col d)
    (broadcastInDim S3300000 ![] bcast_S_S3300000 (constant (F := Ideal) S_ .f32 0x3F800000#32))

/-- The inverse square root of that number where it is positive, zero elsewhere. -/
def dinv (d : IVec S3300000 32) : FVec Ideal S100000 .f32 :=
  select (cmpf (F := Ideal) .ogt (deg d) (broadcastInDim S100000 ![] bcast_S_S100000 (constant (F := Ideal) S_ .f32 0x00000000#32)))
    (Host.rsqrt (F := Ideal) (deg d))
    (broadcastInDim S100000 ![] bcast_S_S100000 (constant (F := Ideal) S_ .f32 0x00000000#32))

/-- Layer 1 as the reference computes it: the product with the weights, the rows of the edges' sources each scaled
    by the product of the two end nodes' factors and summed at the edges' targets, the bias added, the negative
    entries replaced by zero. -/
def layer1 (h : FVec Ideal S100000x128 .f32) (w : FVec Ideal S128x64 .f32) (b : FVec Ideal S64 .f32)
    (s d : IVec S3300000 32) : FVec Ideal S100000x64 .f32 :=
  maximumf (F := Ideal)
    (addf (F := Ideal)
      (Host.scatterAdd (F := Ideal) scatter_S100000x64_S3300000x1_S3300000x64_1_0_0_1
        (broadcastInDim S100000x64 ![] bcast_S_S100000x64 (constant (F := Ideal) S_ .f32 0x00000000#32)) (col d)
        (mulf (F := Ideal)
          (Host.gather gather_S100000x64_S3300000x1_S3300000x64_1_0_n_n_0_1_164
            (Host.dotGeneral (F := Ideal) dot_S100000x128_S128x64_S100000x64_1_0_0_1_n_n none h w) (wrap s))
          (broadcastInDim S3300000x64 ![0, 1] bcast_S3300000x1_S3300000x64_0_1
            (broadcastInDim S3300000x1 ![0] bcast_S3300000_S3300000x1_0
              (mulf (F := Ideal) (Host.gather gather_S100000_S3300000x1_S3300000_n_0_n_n_0_1_1 (dinv d) (wrap s))
                (Host.gather gather_S100000_S3300000x1_S3300000_n_0_n_n_0_1_1 (dinv d) (wrap d)))))))
      (broadcastInDim S100000x64 ![0, 1] bcast_S1x64_S100000x64_0_1 (broadcastInDim S1x64 ![1] bcast_S64_S1x64_1 b)))
    (broadcastInDim S100000x64 ![] bcast_S_S100000x64 (constant (F := Ideal) S_ .f32 0x00000000#32))

/-- Layer 2 as the reference computes it: the product with the weights, the rows of the edges' sources each scaled
    by the product of the two end nodes' factors and summed at the edges' targets, the bias added, the negative
    entries replaced by zero. -/
def layer2 (h : FVec Ideal S100000x64 .f32) (w : FVec Ideal S64x32 .f32) (b : FVec Ideal S32 .f32)
    (s d : IVec S3300000 32) : FVec Ideal S100000x32 .f32 :=
  maximumf (F := Ideal)
    (addf (F := Ideal)
      (Host.scatterAdd (F := Ideal) scatter_S100000x32_S3300000x1_S3300000x32_1_0_0_1
        (broadcastInDim S100000x32 ![] bcast_S_S100000x32 (constant (F := Ideal) S_ .f32 0x00000000#32)) (col d)
        (mulf (F := Ideal)
          (Host.gather gather_S100000x32_S3300000x1_S3300000x32_1_0_n_n_0_1_132
            (Host.dotGeneral (F := Ideal) dot_S100000x64_S64x32_S100000x32_1_0_0_1_n_n none h w) (wrap s))
          (broadcastInDim S3300000x32 ![0, 1] bcast_S3300000x1_S3300000x32_0_1
            (broadcastInDim S3300000x1 ![0] bcast_S3300000_S3300000x1_0
              (mulf (F := Ideal) (Host.gather gather_S100000_S3300000x1_S3300000_n_0_n_n_0_1_1 (dinv d) (wrap s))
                (Host.gather gather_S100000_S3300000x1_S3300000_n_0_n_n_0_1_1 (dinv d) (wrap d)))))))
      (broadcastInDim S100000x32 ![0, 1] bcast_S1x32_S100000x32_0_1 (broadcastInDim S1x32 ![1] bcast_S32_S1x32_1 b)))
    (broadcastInDim S100000x32 ![] bcast_S_S100000x32 (constant (F := Ideal) S_ .f32 0x00000000#32))

/-- Layer 3 as the reference computes it: the product with the weights, the rows of the edges' sources each scaled
    by the product of the two end nodes' factors and summed at the edges' targets, the bias added, the negative
    entries replaced by zero. -/
def layer3 (h : FVec Ideal S100000x32 .f32) (w : FVec Ideal S32x16 .f32) (b : FVec Ideal S16 .f32)
    (s d : IVec S3300000 32) : FVec Ideal S100000x16 .f32 :=
  maximumf (F := Ideal)
    (addf (F := Ideal)
      (Host.scatterAdd (F := Ideal) scatter_S100000x16_S3300000x1_S3300000x16_1_0_0_1
        (broadcastInDim S100000x16 ![] bcast_S_S100000x16 (constant (F := Ideal) S_ .f32 0x00000000#32)) (col d)
        (mulf (F := Ideal)
          (Host.gather gather_S100000x16_S3300000x1_S3300000x16_1_0_n_n_0_1_116
            (Host.dotGeneral (F := Ideal) dot_S100000x32_S32x16_S100000x16_1_0_0_1_n_n none h w) (wrap s))
          (broadcastInDim S3300000x16 ![0, 1] bcast_S3300000x1_S3300000x16_0_1
            (broadcastInDim S3300000x1 ![0] bcast_S3300000_S3300000x1_0
              (mulf (F := Ideal) (Host.gather gather_S100000_S3300000x1_S3300000_n_0_n_n_0_1_1 (dinv d) (wrap s))
                (Host.gather gather_S100000_S3300000x1_S3300000_n_0_n_n_0_1_1 (dinv d) (wrap d)))))))
      (broadcastInDim S100000x16 ![0, 1] bcast_S1x16_S100000x16_0_1 (broadcastInDim S1x16 ![1] bcast_S16_S1x16_1 b)))
    (broadcastInDim S100000x16 ![] bcast_S_S100000x16 (constant (F := Ideal) S_ .f32 0x00000000#32))

/-- The reference's result: three layers, then the product with the output weights plus the output bias. -/
def out (x : FVec Ideal S100000x128 .f32) (a1 : IVec S2x3200000 32) (w1 : FVec Ideal S128x64 .f32) (b1 : FVec Ideal S64 .f32)
    (w2 : FVec Ideal S64x32 .f32) (b2 : FVec Ideal S32 .f32) (w3 : FVec Ideal S32x16 .f32) (b3 : FVec Ideal S16 .f32)
    (wo : FVec Ideal S16x1 .f32) (bo : FVec Ideal S1 .f32) : FVec Ideal S100000x1 .f32 :=
  addf (F := Ideal)
    (Host.dotGeneral (F := Ideal) dot_S100000x16_S16x1_S100000x1_1_0_0_1_n_n none
      (layer3 (layer2 (layer1 x w1 b1 (src a1) (dst a1)) w2 b2 (src a1) (dst a1)) w3 b3 (src a1) (dst a1)) wo)
    (broadcastInDim S100000x1 ![0, 1] bcast_S1x1_S100000x1_0_1 (broadcastInDim S1x1 ![1] bcast_S1_S1x1_1 bo))

end Cert.RefTerm

end
-- ==== Proof.RefRun.lean ====
/-
  The reference's run, read back to one named term.

  The operation list below is a copy of the generated run's list with the operations re-bracketed: fourteen consecutive
  stretches, cut where the network's stages end (the two ends of every edge; then, per layer, the product with the
  weights and the in-degrees, the nodes' scaling factors, the gather / scale / scatter-add / bias, the clamp; the head).
  Each stretch is read over an arbitrary valuation of the buffers, stating what it leaves in the buffers that later
  stretches read; the whole run is the composition.
-/
import proofs.«105999_j16286515986672_1_alg».proof.Proof.Gen.ReferenceIdeal
import proofs.«105999_j16286515986672_1_alg».proof.Proof.RefTerm
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
/-- The two ends of every edge (`main_v3`, `main_v6`). -/
abbrev opsE : List (HloOp τ sig (Elt F)) :=
  [ nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)) ]

/-- Layer 1: the product with the weights (`main_v7`), and the in-degree compared with zero (`main_v13`) and its inverse square root (`main_v14`). -/
abbrev opsP1 : List (HloOp τ sig (Elt F)) :=
  [ binary main_arg0 main_arg2 main_v7 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_cst (constant S_ .f32 0x3F800000#32),
    unary main_cst main_v8 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v6 main_v10 (broadcastInDim S3300000x1 ![0] bcast_S3300000_S3300000x1_0 : (⟨S3300000, .i32⟩ : BufTy).Contents (Elt F) → (⟨S3300000x1, .i32⟩ : BufTy).Contents (Elt F)),
    ternary main_v9 main_v10 main_v8 main_v11 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)) ]

/-- Layer 1: the nodes' scaling factors (`main_v15`), the inlined selection between the two. -/
abbrev opsW1 : List (HloOp τ sig (Elt F)) :=
  [ nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select ]

/-- Layer 1: gather by the sources, scale, scatter-add at the targets, add the bias (`main_v46`). -/
abbrev opsG1 : List (HloOp τ sig (Elt F)) :=
  [ nullary main_c (constantI S_ 32 0#32),
    unary main_c main_v16 (broadcastInDim S3300000 ![] bcast_S_S3300000 : (⟨S_, .i32⟩ : BufTy).Contents (Elt F) → (⟨S3300000, .i32⟩ : BufTy).Contents (Elt F)),
    binary main_v3 main_v16 main_v17 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v18 (broadcastInDim S3300000 ![] bcast_S_S3300000 : (⟨S_, .i32⟩ : BufTy).Contents (Elt F) → (⟨S3300000, .i32⟩ : BufTy).Contents (Elt F)),
    binary main_v3 main_v18 main_v19 (addi : (⟨S3300000, .i32⟩ : BufTy).Contents (Elt F) → (⟨S3300000, .i32⟩ : BufTy).Contents (Elt F) → (⟨S3300000, .i32⟩ : BufTy).Contents (Elt F)),
    ternary main_v17 main_v19 main_v3 main_v20 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v20 main_v21 (broadcastInDim S3300000x1 ![0] bcast_S3300000_S3300000x1_0 : (⟨S3300000, .i32⟩ : BufTy).Contents (Elt F) → (⟨S3300000x1, .i32⟩ : BufTy).Contents (Elt F)),
    binary main_v15 main_v21 main_v22 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v23 (broadcastInDim S3300000 ![] bcast_S_S3300000 : (⟨S_, .i32⟩ : BufTy).Contents (Elt F) → (⟨S3300000, .i32⟩ : BufTy).Contents (Elt F)),
    binary main_v6 main_v23 main_v24 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v25 (broadcastInDim S3300000 ![] bcast_S_S3300000 : (⟨S_, .i32⟩ : BufTy).Contents (Elt F) → (⟨S3300000, .i32⟩ : BufTy).Contents (Elt F)),
    binary main_v6 main_v25 main_v26 (addi : (⟨S3300000, .i32⟩ : BufTy).Contents (Elt F) → (⟨S3300000, .i32⟩ : BufTy).Contents (Elt F) → (⟨S3300000, .i32⟩ : BufTy).Contents (Elt F)),
    ternary main_v24 main_v26 main_v6 main_v27 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v27 main_v28 (broadcastInDim S3300000x1 ![0] bcast_S3300000_S3300000x1_0 : (⟨S3300000, .i32⟩ : BufTy).Contents (Elt F) → (⟨S3300000x1, .i32⟩ : BufTy).Contents (Elt F)),
    binary main_v15 main_v28 main_v29 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v22 main_v29 main_v30 (mulf : (⟨S3300000, .f32⟩ : BufTy).Contents (Elt F) → (⟨S3300000, .f32⟩ : BufTy).Contents (Elt F) → (⟨S3300000, .f32⟩ : BufTy).Contents (Elt F)),
    nullary main_c_6 (constantI S_ 32 0#32),
    unary main_c_6 main_v31 (broadcastInDim S3300000 ![] bcast_S_S3300000 : (⟨S_, .i32⟩ : BufTy).Contents (Elt F) → (⟨S3300000, .i32⟩ : BufTy).Contents (Elt F)),
    binary main_v3 main_v31 main_v32 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v33 (broadcastInDim S3300000 ![] bcast_S_S3300000 : (⟨S_, .i32⟩ : BufTy).Contents (Elt F) → (⟨S3300000, .i32⟩ : BufTy).Contents (Elt F)),
    binary main_v3 main_v33 main_v34 (addi : (⟨S3300000, .i32⟩ : BufTy).Contents (Elt F) → (⟨S3300000, .i32⟩ : BufTy).Contents (Elt F) → (⟨S3300000, .i32⟩ : BufTy).Contents (Elt F)),
    ternary main_v32 main_v34 main_v3 main_v35 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v35 main_v36 (broadcastInDim S3300000x1 ![0] bcast_S3300000_S3300000x1_0 : (⟨S3300000, .i32⟩ : BufTy).Contents (Elt F) → (⟨S3300000x1, .i32⟩ : BufTy).Contents (Elt F)),
    binary main_v7 main_v36 main_v37 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    unary main_v30 main_v38 (broadcastInDim S3300000x1 ![0] bcast_S3300000_S3300000x1_0 : (⟨S3300000, .f32⟩ : BufTy).Contents (Elt F) → (⟨S3300000x1, .f32⟩ : BufTy).Contents (Elt F)),
    unary main_v38 main_v39 (broadcastInDim S3300000x64 ![0, 1] bcast_S3300000x1_S3300000x64_0_1 : (⟨S3300000x1, .f32⟩ : BufTy).Contents (Elt F) → (⟨S3300000x64, .f32⟩ : BufTy).Contents (Elt F)),
    binary main_v37 main_v39 main_v40 (mulf : (⟨S3300000x64, .f32⟩ : BufTy).Contents (Elt F) → (⟨S3300000x64, .f32⟩ : BufTy).Contents (Elt F) → (⟨S3300000x64, .f32⟩ : BufTy).Contents (Elt F)),
    nullary main_cst_8 (constant S_ .f32 0x00000000#32),
    unary main_cst_8 main_v41 (broadcastInDim S100000x64 ![] bcast_S_S100000x64 : (⟨S_, .f32⟩ : BufTy).Contents (Elt F) → (⟨S100000x64, .f32⟩ : BufTy).Contents (Elt F)),
    unary main_v6 main_v42 (broadcastInDim S3300000x1 ![0] bcast_S3300000_S3300000x1_0 : (⟨S3300000, .i32⟩ : BufTy).Contents (Elt F) → (⟨S3300000x1, .i32⟩ : BufTy).Contents (Elt F)),
    ternary main_v41 main_v42 main_v40 main_v43 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)),
    unary main_arg3 main_v44 (broadcastInDim S1x64 ![1] bcast_S64_S1x64_1 : (⟨S64, .f32⟩ : BufTy).Contents (Elt F) → (⟨S1x64, .f32⟩ : BufTy).Contents (Elt F)),
    unary main_v44 main_v45 (broadcastInDim S100000x64 ![0, 1] bcast_S1x64_S100000x64_0_1 : (⟨S1x64, .f32⟩ : BufTy).Contents (Elt F) → (⟨S100000x64, .f32⟩ : BufTy).Contents (Elt F)),
    binary main_v43 main_v45 main_v46 (addf : (⟨S100000x64, .f32⟩ : BufTy).Contents (Elt F) → (⟨S100000x64, .f32⟩ : BufTy).Contents (Elt F) → (⟨S100000x64, .f32⟩ : BufTy).Contents (Elt F)) ]

/-- Layer 1: the inlined clamp at zero (`main_v47`). -/
abbrev opsR1 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v46) (TRef.of (T := ⟨S100000x64, .f32⟩) main_call1_v0) (TRef.of (T := ⟨S100000x64, .f32⟩) main_v47) maximumf ]

/-- Layer 2: the product with the weights (`main_v48`), and the in-degree compared with zero (`main_v54`) and its inverse square root (`main_v55`). -/
abbrev opsP2 : List (HloOp τ sig (Elt F)) :=
  [ binary main_v47 main_arg4 main_v48 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    nullary main_cst_9 (constant S_ .f32 0x3F800000#32),
    unary main_cst_9 main_v49 (broadcastInDim S3300000 ![] bcast_S_S3300000 : (⟨S_, .f32⟩ : BufTy).Contents (Elt F) → (⟨S3300000, .f32⟩ : BufTy).Contents (Elt F)),
    nullary main_cst_10 (constant S_ .f32 0x00000000#32),
    unary main_cst_10 main_v50 (broadcastInDim S100000 ![] bcast_S_S100000 : (⟨S_, .f32⟩ : BufTy).Contents (Elt F) → (⟨S100000, .f32⟩ : BufTy).Contents (Elt F)),
    unary main_v6 main_v51 (broadcastInDim S3300000x1 ![0] bcast_S3300000_S3300000x1_0 : (⟨S3300000, .i32⟩ : BufTy).Contents (Elt F) → (⟨S3300000x1, .i32⟩ : BufTy).Contents (Elt F)),
    ternary main_v50 main_v51 main_v49 main_v52 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_11 (constant S_ .f32 0x00000000#32),
    unary main_cst_11 main_v53 (broadcastInDim S100000 ![] bcast_S_S100000 : (⟨S_, .f32⟩ : BufTy).Contents (Elt F) → (⟨S100000, .f32⟩ : BufTy).Contents (Elt F)),
    binary main_v52 main_v53 main_v54 (cmpf .ogt : (⟨S100000, .f32⟩ : BufTy).Contents (Elt F) → (⟨S100000, .f32⟩ : BufTy).Contents (Elt F) → (⟨S100000, .i1⟩ : BufTy).Contents (Elt F)),
    unary main_v52 main_v55 (Host.rsqrt : (⟨S100000, .f32⟩ : BufTy).Contents (Elt F) → (⟨S100000, .f32⟩ : BufTy).Contents (Elt F)) ]

/-- Layer 2: the nodes' scaling factors (`main_v56`). -/
abbrev opsW2 : List (HloOp τ sig (Elt F)) :=
  [ nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v54) (TRef.of (T := ⟨S100000, .f32⟩) main_v55) (TRef.of (T := ⟨S100000, .f32⟩) main_call2_v1) (TRef.of (T := ⟨S100000, .f32⟩) main_v56) select ]

/-- Layer 2: gather by the sources, scale, scatter-add at the targets, add the bias (`main_v87`). -/
abbrev opsG2 : List (HloOp τ sig (Elt F)) :=
  [ nullary main_c_13 (constantI S_ 32 0#32),
    unary main_c_13 main_v57 (broadcastInDim S3300000 ![] bcast_S_S3300000 : (⟨S_, .i32⟩ : BufTy).Contents (Elt F) → (⟨S3300000, .i32⟩ : BufTy).Contents (Elt F)),
    binary main_v3 main_v57 main_v58 (cmpi .slt : (⟨S3300000, .i32⟩ : BufTy).Contents (Elt F) → (⟨S3300000, .i32⟩ : BufTy).Contents (Elt F) → (⟨S3300000, .i1⟩ : BufTy).Contents (Elt F)),
    nullary main_c_14 (constantI S_ 32 100000#32),
    unary main_c_14 main_v59 (broadcastInDim S3300000 ![] bcast_S_S3300000 : (⟨S_, .i32⟩ : BufTy).Contents (Elt F) → (⟨S3300000, .i32⟩ : BufTy).Contents (Elt F)),
    binary main_v3 main_v59 main_v60 (addi : (⟨S3300000, .i32⟩ : BufTy).Contents (Elt F) → (⟨S3300000, .i32⟩ : BufTy).Contents (Elt F) → (⟨S3300000, .i32⟩ : BufTy).Contents (Elt F)),
    ternary main_v58 main_v60 main_v3 main_v61 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v61 main_v62 (broadcastInDim S3300000x1 ![0] bcast_S3300000_S3300000x1_0 : (⟨S3300000, .i32⟩ : BufTy).Contents (Elt F) → (⟨S3300000x1, .i32⟩ : BufTy).Contents (Elt F)),
    binary main_v56 main_v62 main_v63 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_15 (constantI S_ 32 0#32),
    unary main_c_15 main_v64 (broadcastInDim S3300000 ![] bcast_S_S3300000 : (⟨S_, .i32⟩ : BufTy).Contents (Elt F) → (⟨S3300000, .i32⟩ : BufTy).Contents (Elt F)),
    binary main_v6 main_v64 main_v65 (cmpi .slt : (⟨S3300000, .i32⟩ : BufTy).Contents (Elt F) → (⟨S3300000, .i32⟩ : BufTy).Contents (Elt F) → (⟨S3300000, .i1⟩ : BufTy).Contents (Elt F)),
    nullary main_c_16 (constantI S_ 32 100000#32),
    unary main_c_16 main_v66 (broadcastInDim S3300000 ![] bcast_S_S3300000 : (⟨S_, .i32⟩ : BufTy).Contents (Elt F) → (⟨S3300000, .i32⟩ : BufTy).Contents (Elt F)),
    binary main_v6 main_v66 main_v67 (addi : (⟨S3300000, .i32⟩ : BufTy).Contents (Elt F) → (⟨S3300000, .i32⟩ : BufTy).Contents (Elt F) → (⟨S3300000, .i32⟩ : BufTy).Contents (Elt F)),
    ternary main_v65 main_v67 main_v6 main_v68 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v68 main_v69 (broadcastInDim S3300000x1 ![0] bcast_S3300000_S3300000x1_0 : (⟨S3300000, .i32⟩ : BufTy).Contents (Elt F) → (⟨S3300000x1, .i32⟩ : BufTy).Contents (Elt F)),
    binary main_v56 main_v69 main_v70 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v63 main_v70 main_v71 (mulf : (⟨S3300000, .f32⟩ : BufTy).Contents (Elt F) → (⟨S3300000, .f32⟩ : BufTy).Contents (Elt F) → (⟨S3300000, .f32⟩ : BufTy).Contents (Elt F)),
    nullary main_c_17 (constantI S_ 32 0#32),
    unary main_c_17 main_v72 (broadcastInDim S3300000 ![] bcast_S_S3300000 : (⟨S_, .i32⟩ : BufTy).Contents (Elt F) → (⟨S3300000, .i32⟩ : BufTy).Contents (Elt F)),
    binary main_v3 main_v72 main_v73 (cmpi .slt : (⟨S3300000, .i32⟩ : BufTy).Contents (Elt F) → (⟨S3300000, .i32⟩ : BufTy).Contents (Elt F) → (⟨S3300000, .i1⟩ : BufTy).Contents (Elt F)),
    nullary main_c_18 (constantI S_ 32 100000#32),
    unary main_c_18 main_v74 (broadcastInDim S3300000 ![] bcast_S_S3300000 : (⟨S_, .i32⟩ : BufTy).Contents (Elt F) → (⟨S3300000, .i32⟩ : BufTy).Contents (Elt F)),
    binary main_v3 main_v74 main_v75 (addi : (⟨S3300000, .i32⟩ : BufTy).Contents (Elt F) → (⟨S3300000, .i32⟩ : BufTy).Contents (Elt F) → (⟨S3300000, .i32⟩ : BufTy).Contents (Elt F)),
    ternary main_v73 main_v75 main_v3 main_v76 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v76 main_v77 (broadcastInDim S3300000x1 ![0] bcast_S3300000_S3300000x1_0 : (⟨S3300000, .i32⟩ : BufTy).Contents (Elt F) → (⟨S3300000x1, .i32⟩ : BufTy).Contents (Elt F)),
    binary main_v48 main_v77 main_v78 ((fun x i => Host.gather gather_S100000x32_S3300000x1_S3300000x32_1_0_n_n_0_1_132 x i) : (⟨S100000x32, .f32⟩ : BufTy).Contents (Elt F) → (⟨S3300000x1, .i32⟩ : BufTy).Contents (Elt F) → (⟨S3300000x32, .f32⟩ : BufTy).Contents (Elt F)),
    unary main_v71 main_v79 (broadcastInDim S3300000x1 ![0] bcast_S3300000_S3300000x1_0 : (⟨S3300000, .f32⟩ : BufTy).Contents (Elt F) → (⟨S3300000x1, .f32⟩ : BufTy).Contents (Elt F)),
    unary main_v79 main_v80 (broadcastInDim S3300000x32 ![0, 1] bcast_S3300000x1_S3300000x32_0_1 : (⟨S3300000x1, .f32⟩ : BufTy).Contents (Elt F) → (⟨S3300000x32, .f32⟩ : BufTy).Contents (Elt F)),
    binary main_v78 main_v80 main_v81 (mulf : (⟨S3300000x32, .f32⟩ : BufTy).Contents (Elt F) → (⟨S3300000x32, .f32⟩ : BufTy).Contents (Elt F) → (⟨S3300000x32, .f32⟩ : BufTy).Contents (Elt F)),
    nullary main_cst_19 (constant S_ .f32 0x00000000#32),
    unary main_cst_19 main_v82 (broadcastInDim S100000x32 ![] bcast_S_S100000x32 : (⟨S_, .f32⟩ : BufTy).Contents (Elt F) → (⟨S100000x32, .f32⟩ : BufTy).Contents (Elt F)),
    unary main_v6 main_v83 (broadcastInDim S3300000x1 ![0] bcast_S3300000_S3300000x1_0 : (⟨S3300000, .i32⟩ : BufTy).Contents (Elt F) → (⟨S3300000x1, .i32⟩ : BufTy).Contents (Elt F)),
    ternary main_v82 main_v83 main_v81 main_v84 ((fun x i u => Host.scatterAdd scatter_S100000x32_S3300000x1_S3300000x32_1_0_0_1 x i u) : (⟨S100000x32, .f32⟩ : BufTy).Contents (Elt F) → (⟨S3300000x1, .i32⟩ : BufTy).Contents (Elt F) → (⟨S3300000x32, .f32⟩ : BufTy).Contents (Elt F) → (⟨S100000x32, .f32⟩ : BufTy).Contents (Elt F)),
    unary main_arg5 main_v85 (broadcastInDim S1x32 ![1] bcast_S32_S1x32_1 : (⟨S32, .f32⟩ : BufTy).Contents (Elt F) → (⟨S1x32, .f32⟩ : BufTy).Contents (Elt F)),
    unary main_v85 main_v86 (broadcastInDim S100000x32 ![0, 1] bcast_S1x32_S100000x32_0_1 : (⟨S1x32, .f32⟩ : BufTy).Contents (Elt F) → (⟨S100000x32, .f32⟩ : BufTy).Contents (Elt F)),
    binary main_v84 main_v86 main_v87 (addf : (⟨S100000x32, .f32⟩ : BufTy).Contents (Elt F) → (⟨S100000x32, .f32⟩ : BufTy).Contents (Elt F) → (⟨S100000x32, .f32⟩ : BufTy).Contents (Elt F)) ]

/-- Layer 2: the inlined clamp at zero (`main_v88`). -/
abbrev opsR2 : List (HloOp τ sig (Elt F)) :=
  [ TRef.nullary (TRef.of (T := ⟨S_, .f32⟩) main_call3_cst) (constant S_ .f32 0x00000000#32),
    TRef.unary (TRef.of (T := ⟨S_, .f32⟩) main_call3_cst) (TRef.of (T := ⟨S100000x32, .f32⟩) main_call3_v0) (broadcastInDim S100000x32 ![] bcast_S_S100000x32),
    TRef.binary (TRef.of (T := ⟨S100000x32, .f32⟩) main_v87) (TRef.of (T := ⟨S100000x32, .f32⟩) main_call3_v0) (TRef.of (T := ⟨S100000x32, .f32⟩) main_v88) maximumf ]

/-- Layer 3: the product with the weights (`main_v89`), and the in-degree compared with zero (`main_v95`) and its inverse square root (`main_v96`). -/
abbrev opsP3 : List (HloOp τ sig (Elt F)) :=
  [ binary main_v88 main_arg6 main_v89 ((fun l r => Host.dotGeneral dot_S100000x32_S32x16_S100000x16_1_0_0_1_n_n none l r) : (⟨S100000x32, .f32⟩ : BufTy).Contents (Elt F) → (⟨S32x16, .f32⟩ : BufTy).Contents (Elt F) → (⟨S100000x16, .f32⟩ : BufTy).Contents (Elt F)),
    nullary main_cst_20 (constant S_ .f32 0x3F800000#32),
    unary main_cst_20 main_v90 (broadcastInDim S3300000 ![] bcast_S_S3300000 : (⟨S_, .f32⟩ : BufTy).Contents (Elt F) → (⟨S3300000, .f32⟩ : BufTy).Contents (Elt F)),
    nullary main_cst_21 (constant S_ .f32 0x00000000#32),
    unary main_cst_21 main_v91 (broadcastInDim S100000 ![] bcast_S_S100000 : (⟨S_, .f32⟩ : BufTy).Contents (Elt F) → (⟨S100000, .f32⟩ : BufTy).Contents (Elt F)),
    unary main_v6 main_v92 (broadcastInDim S3300000x1 ![0] bcast_S3300000_S3300000x1_0 : (⟨S3300000, .i32⟩ : BufTy).Contents (Elt F) → (⟨S3300000x1, .i32⟩ : BufTy).Contents (Elt F)),
    ternary main_v91 main_v92 main_v90 main_v93 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_22 (constant S_ .f32 0x00000000#32),
    unary main_cst_22 main_v94 (broadcastInDim S100000 ![] bcast_S_S100000 : (⟨S_, .f32⟩ : BufTy).Contents (Elt F) → (⟨S100000, .f32⟩ : BufTy).Contents (Elt F)),
    binary main_v93 main_v94 main_v95 (cmpf .ogt : (⟨S100000, .f32⟩ : BufTy).Contents (Elt F) → (⟨S100000, .f32⟩ : BufTy).Contents (Elt F) → (⟨S100000, .i1⟩ : BufTy).Contents (Elt F)),
    unary main_v93 main_v96 (Host.rsqrt : (⟨S100000, .f32⟩ : BufTy).Contents (Elt F) → (⟨S100000, .f32⟩ : BufTy).Contents (Elt F)) ]

/-- Layer 3: the nodes' scaling factors (`main_v97`). -/
abbrev opsW3 : List (HloOp τ sig (Elt F)) :=
  [ nullary main_cst_23 (constant S_ .f32 0x00000000#32),
    TRef.unary (TRef.of (T := ⟨S_, .f32⟩) main_cst_23) (TRef.of (T := ⟨S_, .f32⟩) main_call4_v0) id,
    TRef.unary (TRef.of (T := ⟨S_, .f32⟩) main_call4_v0) (TRef.of (T := ⟨S100000, .f32⟩) main_call4_v1) (broadcastInDim S100000 ![] bcast_S_S100000),
    TRef.ternary (TRef.of (T := ⟨S100000, .i1⟩) main_v95) (TRef.of (T := ⟨S100000, .f32⟩) main_v96) (TRef.of (T := ⟨S100000, .f32⟩) main_call4_v1) (TRef.of (T := ⟨S100000, .f32⟩) main_v97) select ]

/-- Layer 3: gather by the sources, scale, scatter-add at the targets, add the bias (`main_v128`). -/
abbrev opsG3 : List (HloOp τ sig (Elt F)) :=
  [ nullary main_c_24 (constantI S_ 32 0#32),
    unary main_c_24 main_v98 (broadcastInDim S3300000 ![] bcast_S_S3300000 : (⟨S_, .i32⟩ : BufTy).Contents (Elt F) → (⟨S3300000, .i32⟩ : BufTy).Contents (Elt F)),
    binary main_v3 main_v98 main_v99 (cmpi .slt : (⟨S3300000, .i32⟩ : BufTy).Contents (Elt F) → (⟨S3300000, .i32⟩ : BufTy).Contents (Elt F) → (⟨S3300000, .i1⟩ : BufTy).Contents (Elt F)),
    nullary main_c_25 (constantI S_ 32 100000#32),
    unary main_c_25 main_v100 (broadcastInDim S3300000 ![] bcast_S_S3300000 : (⟨S_, .i32⟩ : BufTy).Contents (Elt F) → (⟨S3300000, .i32⟩ : BufTy).Contents (Elt F)),
    binary main_v3 main_v100 main_v101 (addi : (⟨S3300000, .i32⟩ : BufTy).Contents (Elt F) → (⟨S3300000, .i32⟩ : BufTy).Contents (Elt F) → (⟨S3300000, .i32⟩ : BufTy).Contents (Elt F)),
    ternary main_v99 main_v101 main_v3 main_v102 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v102 main_v103 (broadcastInDim S3300000x1 ![0] bcast_S3300000_S3300000x1_0 : (⟨S3300000, .i32⟩ : BufTy).Contents (Elt F) → (⟨S3300000x1, .i32⟩ : BufTy).Contents (Elt F)),
    binary main_v97 main_v103 main_v104 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_26 (constantI S_ 32 0#32),
    unary main_c_26 main_v105 (broadcastInDim S3300000 ![] bcast_S_S3300000 : (⟨S_, .i32⟩ : BufTy).Contents (Elt F) → (⟨S3300000, .i32⟩ : BufTy).Contents (Elt F)),
    binary main_v6 main_v105 main_v106 (cmpi .slt : (⟨S3300000, .i32⟩ : BufTy).Contents (Elt F) → (⟨S3300000, .i32⟩ : BufTy).Contents (Elt F) → (⟨S3300000, .i1⟩ : BufTy).Contents (Elt F)),
    nullary main_c_27 (constantI S_ 32 100000#32),
    unary main_c_27 main_v107 (broadcastInDim S3300000 ![] bcast_S_S3300000 : (⟨S_, .i32⟩ : BufTy).Contents (Elt F) → (⟨S3300000, .i32⟩ : BufTy).Contents (Elt F)),
    binary main_v6 main_v107 main_v108 (addi : (⟨S3300000, .i32⟩ : BufTy).Contents (Elt F) → (⟨S3300000, .i32⟩ : BufTy).Contents (Elt F) → (⟨S3300000, .i32⟩ : BufTy).Contents (Elt F)),
    ternary main_v106 main_v108 main_v6 main_v109 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v109 main_v110 (broadcastInDim S3300000x1 ![0] bcast_S3300000_S3300000x1_0 : (⟨S3300000, .i32⟩ : BufTy).Contents (Elt F) → (⟨S3300000x1, .i32⟩ : BufTy).Contents (Elt F)),
    binary main_v97 main_v110 main_v111 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v104 main_v111 main_v112 (mulf : (⟨S3300000, .f32⟩ : BufTy).Contents (Elt F) → (⟨S3300000, .f32⟩ : BufTy).Contents (Elt F) → (⟨S3300000, .f32⟩ : BufTy).Contents (Elt F)),
    nullary main_c_28 (constantI S_ 32 0#32),
    unary main_c_28 main_v113 (broadcastInDim S3300000 ![] bcast_S_S3300000 : (⟨S_, .i32⟩ : BufTy).Contents (Elt F) → (⟨S3300000, .i32⟩ : BufTy).Contents (Elt F)),
    binary main_v3 main_v113 main_v114 (cmpi .slt : (⟨S3300000, .i32⟩ : BufTy).Contents (Elt F) → (⟨S3300000, .i32⟩ : BufTy).Contents (Elt F) → (⟨S3300000, .i1⟩ : BufTy).Contents (Elt F)),
    nullary main_c_29 (constantI S_ 32 100000#32),
    unary main_c_29 main_v115 (broadcastInDim S3300000 ![] bcast_S_S3300000 : (⟨S_, .i32⟩ : BufTy).Contents (Elt F) → (⟨S3300000, .i32⟩ : BufTy).Contents (Elt F)),
    binary main_v3 main_v115 main_v116 (addi : (⟨S3300000, .i32⟩ : BufTy).Contents (Elt F) → (⟨S3300000, .i32⟩ : BufTy).Contents (Elt F) → (⟨S3300000, .i32⟩ : BufTy).Contents (Elt F)),
    ternary main_v114 main_v116 main_v3 main_v117 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v117 main_v118 (broadcastInDim S3300000x1 ![0] bcast_S3300000_S3300000x1_0 : (⟨S3300000, .i32⟩ : BufTy).Contents (Elt F) → (⟨S3300000x1, .i32⟩ : BufTy).Contents (Elt F)),
    binary main_v89 main_v118 main_v119 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v112 main_v120 (broadcastInDim S3300000x1 ![0] bcast_S3300000_S3300000x1_0 : (⟨S3300000, .f32⟩ : BufTy).Contents (Elt F) → (⟨S3300000x1, .f32⟩ : BufTy).Contents (Elt F)),
    unary main_v120 main_v121 (broadcastInDim S3300000x16 ![0, 1] bcast_S3300000x1_S3300000x16_0_1 : (⟨S3300000x1, .f32⟩ : BufTy).Contents (Elt F) → (⟨S3300000x16, .f32⟩ : BufTy).Contents (Elt F)),
    binary main_v119 main_v121 main_v122 (mulf : (⟨S3300000x16, .f32⟩ : BufTy).Contents (Elt F) → (⟨S3300000x16, .f32⟩ : BufTy).Contents (Elt F) → (⟨S3300000x16, .f32⟩ : BufTy).Contents (Elt F)),
    nullary main_cst_30 (constant S_ .f32 0x00000000#32),
    unary main_cst_30 main_v123 (broadcastInDim S100000x16 ![] bcast_S_S100000x16 : (⟨S_, .f32⟩ : BufTy).Contents (Elt F) → (⟨S100000x16, .f32⟩ : BufTy).Contents (Elt F)),
    unary main_v6 main_v124 (broadcastInDim S3300000x1 ![0] bcast_S3300000_S3300000x1_0 : (⟨S3300000, .i32⟩ : BufTy).Contents (Elt F) → (⟨S3300000x1, .i32⟩ : BufTy).Contents (Elt F)),
    ternary main_v123 main_v124 main_v122 main_v125 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg7 main_v126 (broadcastInDim S1x16 ![1] bcast_S16_S1x16_1 : (⟨S16, .f32⟩ : BufTy).Contents (Elt F) → (⟨S1x16, .f32⟩ : BufTy).Contents (Elt F)),
    unary main_v126 main_v127 (broadcastInDim S100000x16 ![0, 1] bcast_S1x16_S100000x16_0_1 : (⟨S1x16, .f32⟩ : BufTy).Contents (Elt F) → (⟨S100000x16, .f32⟩ : BufTy).Contents (Elt F)),
    binary main_v125 main_v127 main_v128 (addf : (⟨S100000x16, .f32⟩ : BufTy).Contents (Elt F) → (⟨S100000x16, .f32⟩ : BufTy).Contents (Elt F) → (⟨S100000x16, .f32⟩ : BufTy).Contents (Elt F)) ]

/-- Layer 3: the inlined clamp at zero (`main_v129`). -/
abbrev opsR3 : List (HloOp τ sig (Elt F)) :=
  [ TRef.nullary (TRef.of (T := ⟨S_, .f32⟩) main_call5_cst) (constant S_ .f32 0x00000000#32),
    TRef.unary (TRef.of (T := ⟨S_, .f32⟩) main_call5_cst) (TRef.of (T := ⟨S100000x16, .f32⟩) main_call5_v0) (broadcastInDim S100000x16 ![] bcast_S_S100000x16),
    TRef.binary (TRef.of (T := ⟨S100000x16, .f32⟩) main_v128) (TRef.of (T := ⟨S100000x16, .f32⟩) main_call5_v0) (TRef.of (T := ⟨S100000x16, .f32⟩) main_v129) maximumf ]

/-- The head: the product with the output weights plus the output bias (`main_v133`). -/
abbrev opsH : List (HloOp τ sig (Elt F)) :=
  [ binary main_v129 main_arg8 main_v130 ((fun l r => Host.dotGeneral dot_S100000x16_S16x1_S100000x1_1_0_0_1_n_n none l r) : (⟨S100000x16, .f32⟩ : BufTy).Contents (Elt F) → (⟨S16x1, .f32⟩ : BufTy).Contents (Elt F) → (⟨S100000x1, .f32⟩ : BufTy).Contents (Elt F)),
    unary main_arg9 main_v131 (broadcastInDim S1x1 ![1] bcast_S1_S1x1_1 : (⟨S1, .f32⟩ : BufTy).Contents (Elt F) → (⟨S1x1, .f32⟩ : BufTy).Contents (Elt F)),
    unary main_v131 main_v132 (broadcastInDim S100000x1 ![0, 1] bcast_S1x1_S100000x1_0_1 : (⟨S1x1, .f32⟩ : BufTy).Contents (Elt F) → (⟨S100000x1, .f32⟩ : BufTy).Contents (Elt F)),
    binary main_v130 main_v132 main_v133 (addf : (⟨S100000x1, .f32⟩ : BufTy).Contents (Elt F) → (⟨S100000x1, .f32⟩ : BufTy).Contents (Elt F) → (⟨S100000x1, .f32⟩ : BufTy).Contents (Elt F)) ]

/-- Layer 1's operations. -/
def opsL1 : List (HloOp τ sig (Elt F)) := opsP1 ++ (opsW1 ++ (opsG1 ++ opsR1))
/-- Layer 2's operations. -/
def opsL2 : List (HloOp τ sig (Elt F)) := opsP2 ++ (opsW2 ++ (opsG2 ++ opsR2))
/-- Layer 3's operations. -/
def opsL3 : List (HloOp τ sig (Elt F)) := opsP3 ++ (opsW3 ++ (opsG3 ++ opsR3))

/-- @main's 179 operations, in order. -/
def ops : List (HloOp τ sig (Elt F)) := opsE ++ (opsL1 ++ (opsL2 ++ (opsL3 ++ opsH)))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

/-- A property of every operation of two lines holds of every operation of the two in a row. -/
theorem forall_append {α : Type} {p : α → Prop} {l₁ l₂ : List α} (h₁ : l₁.Forall p) (h₂ : l₂.Forall p) : (l₁ ++ l₂).Forall p :=
  List.forall_iff_forall_mem.2 fun x hx =>
    (List.mem_append.1 hx).elim (List.forall_iff_forall_mem.1 h₁ x) (List.forall_iff_forall_mem.1 h₂ x)

theorem opsE_sub : (opsE : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub ..⟩
theorem opsP1_sub : (opsP1 : List (HloOp τ sig (Elt F))).Forall fun op => op.bufs ⊆ tcRefs τ sig :=
  ⟨binary_bufs_sub .., nullary_bufs_sub .., unary_bufs_sub .., nullary_bufs_sub .., unary_bufs_sub .., unary_bufs_sub .., ternary_bufs_sub .., nullary_bufs_sub .., unary_bufs_sub .., binary_bufs_sub .., unary_bufs_sub ..⟩
theorem opsW1_sub : (opsW1 : List (HloOp τ sig (Elt F))).Forall fun op => op.bufs ⊆ tcRefs τ sig :=
  ⟨nullary_bufs_sub .., unary_bufs_sub .., unary_bufs_sub .., ternary_bufs_sub ..⟩
theorem opsG1_sub : (opsG1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩
theorem opsR1_sub : (opsR1 : List (HloOp τ sig (Elt F))).Forall fun op => op.bufs ⊆ tcRefs τ sig :=
  ⟨nullary_bufs_sub .., unary_bufs_sub .., binary_bufs_sub ..⟩
theorem opsP2_sub : (opsP2 : List (HloOp τ sig (Elt F))).Forall fun op => op.bufs ⊆ tcRefs τ sig :=
  ⟨binary_bufs_sub .., nullary_bufs_sub .., unary_bufs_sub .., nullary_bufs_sub .., unary_bufs_sub .., unary_bufs_sub .., ternary_bufs_sub .., nullary_bufs_sub .., unary_bufs_sub .., binary_bufs_sub .., unary_bufs_sub ..⟩
theorem opsW2_sub : (opsW2 : List (HloOp τ sig (Elt F))).Forall fun op => op.bufs ⊆ tcRefs τ sig :=
  ⟨nullary_bufs_sub .., unary_bufs_sub .., unary_bufs_sub .., ternary_bufs_sub ..⟩
theorem opsG2_sub : (opsG2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩
theorem opsR2_sub : (opsR2 : List (HloOp τ sig (Elt F))).Forall fun op => op.bufs ⊆ tcRefs τ sig :=
  ⟨nullary_bufs_sub .., unary_bufs_sub .., binary_bufs_sub ..⟩
theorem opsP3_sub : (opsP3 : List (HloOp τ sig (Elt F))).Forall fun op => op.bufs ⊆ tcRefs τ sig :=
  ⟨binary_bufs_sub .., nullary_bufs_sub .., unary_bufs_sub .., nullary_bufs_sub .., unary_bufs_sub .., unary_bufs_sub .., ternary_bufs_sub .., nullary_bufs_sub .., unary_bufs_sub .., binary_bufs_sub .., unary_bufs_sub ..⟩
theorem opsW3_sub : (opsW3 : List (HloOp τ sig (Elt F))).Forall fun op => op.bufs ⊆ tcRefs τ sig :=
  ⟨nullary_bufs_sub .., unary_bufs_sub .., unary_bufs_sub .., ternary_bufs_sub ..⟩
theorem opsG3_sub : (opsG3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩
theorem opsR3_sub : (opsR3 : List (HloOp τ sig (Elt F))).Forall fun op => op.bufs ⊆ tcRefs τ sig :=
  ⟨nullary_bufs_sub .., unary_bufs_sub .., binary_bufs_sub ..⟩
theorem opsH_sub : (opsH : List (HloOp τ sig (Elt F))).Forall fun op => op.bufs ⊆ tcRefs τ sig :=
  ⟨binary_bufs_sub .., unary_bufs_sub .., unary_bufs_sub .., binary_bufs_sub ..⟩
theorem opsL1_sub : (opsL1 : List (HloOp τ sig (Elt F))).Forall fun op => op.bufs ⊆ tcRefs τ sig :=
  forall_append opsP1_sub (forall_append opsW1_sub (forall_append opsG1_sub opsR1_sub))
theorem opsL2_sub : (opsL2 : List (HloOp τ sig (Elt F))).Forall fun op => op.bufs ⊆ tcRefs τ sig :=
  forall_append opsP2_sub (forall_append opsW2_sub (forall_append opsG2_sub opsR2_sub))
theorem opsL3_sub : (opsL3 : List (HloOp τ sig (Elt F))).Forall fun op => op.bufs ⊆ tcRefs τ sig :=
  forall_append opsP3_sub (forall_append opsW3_sub (forall_append opsG3_sub opsR3_sub))
theorem ops_sub : (ops : List (HloOp τ sig (Elt F))).Forall fun op => op.bufs ⊆ tcRefs τ sig :=
  forall_append opsE_sub (forall_append opsL1_sub (forall_append opsL2_sub (forall_append opsL3_sub opsH_sub)))

theorem opsE_fresh : ∀ op ∈ (opsE : List (HloOp τ sig (Elt F))), op.fresh = ∅ := by
  intro _ h; (repeat (cases h with | head => rfl | tail _ h => ?_)); exact nomatch h
theorem opsP1_fresh : ∀ op ∈ (opsP1 : List (HloOp τ sig (Elt F))), op.fresh = ∅ := by
  intro _ h; (repeat (cases h with | head => rfl | tail _ h => ?_)); exact nomatch h
theorem opsW1_fresh : ∀ op ∈ (opsW1 : List (HloOp τ sig (Elt F))), op.fresh = ∅ := by
  intro _ h; (repeat (cases h with | head => rfl | tail _ h => ?_)); exact nomatch h
theorem opsG1_fresh : ∀ op ∈ (opsG1 : List (HloOp τ sig (Elt F))), op.fresh = ∅ := by
  intro _ h; (repeat (cases h with | head => rfl | tail _ h => ?_)); exact nomatch h
theorem opsR1_fresh : ∀ op ∈ (opsR1 : List (HloOp τ sig (Elt F))), op.fresh = ∅ := by
  intro _ h; (repeat (cases h with | head => rfl | tail _ h => ?_)); exact nomatch h
theorem opsP2_fresh : ∀ op ∈ (opsP2 : List (HloOp τ sig (Elt F))), op.fresh = ∅ := by
  intro _ h; (repeat (cases h with | head => rfl | tail _ h => ?_)); exact nomatch h
theorem opsW2_fresh : ∀ op ∈ (opsW2 : List (HloOp τ sig (Elt F))), op.fresh = ∅ := by
  intro _ h; (repeat (cases h with | head => rfl | tail _ h => ?_)); exact nomatch h
theorem opsG2_fresh : ∀ op ∈ (opsG2 : List (HloOp τ sig (Elt F))), op.fresh = ∅ := by
  intro _ h; (repeat (cases h with | head => rfl | tail _ h => ?_)); exact nomatch h
theorem opsR2_fresh : ∀ op ∈ (opsR2 : List (HloOp τ sig (Elt F))), op.fresh = ∅ := by
  intro _ h; (repeat (cases h with | head => rfl | tail _ h => ?_)); exact nomatch h
theorem opsP3_fresh : ∀ op ∈ (opsP3 : List (HloOp τ sig (Elt F))), op.fresh = ∅ := by
  intro _ h; (repeat (cases h with | head => rfl | tail _ h => ?_)); exact nomatch h
theorem opsW3_fresh : ∀ op ∈ (opsW3 : List (HloOp τ sig (Elt F))), op.fresh = ∅ := by
  intro _ h; (repeat (cases h with | head => rfl | tail _ h => ?_)); exact nomatch h
theorem opsG3_fresh : ∀ op ∈ (opsG3 : List (HloOp τ sig (Elt F))), op.fresh = ∅ := by
  intro _ h; (repeat (cases h with | head => rfl | tail _ h => ?_)); exact nomatch h
theorem opsR3_fresh : ∀ op ∈ (opsR3 : List (HloOp τ sig (Elt F))), op.fresh = ∅ := by
  intro _ h; (repeat (cases h with | head => rfl | tail _ h => ?_)); exact nomatch h
theorem opsH_fresh : ∀ op ∈ (opsH : List (HloOp τ sig (Elt F))), op.fresh = ∅ := by
  intro _ h; (repeat (cases h with | head => rfl | tail _ h => ?_)); exact nomatch h
theorem opsL1_fresh : ∀ op ∈ (opsL1 : List (HloOp τ sig (Elt F))), op.fresh = ∅ := by
  intro op h
  unfold opsL1 at h
  simp only [List.mem_append] at h
  rcases h with h | h | h | h
  exacts [opsP1_fresh op h, opsW1_fresh op h, opsG1_fresh op h, opsR1_fresh op h]
theorem opsL2_fresh : ∀ op ∈ (opsL2 : List (HloOp τ sig (Elt F))), op.fresh = ∅ := by
  intro op h
  unfold opsL2 at h
  simp only [List.mem_append] at h
  rcases h with h | h | h | h
  exacts [opsP2_fresh op h, opsW2_fresh op h, opsG2_fresh op h, opsR2_fresh op h]
theorem opsL3_fresh : ∀ op ∈ (opsL3 : List (HloOp τ sig (Elt F))), op.fresh = ∅ := by
  intro op h
  unfold opsL3 at h
  simp only [List.mem_append] at h
  rcases h with h | h | h | h
  exacts [opsP3_fresh op h, opsW3_fresh op h, opsG3_fresh op h, opsR3_fresh op h]
/-- Every operation determines its results. -/
theorem ops_fresh : ∀ op ∈ (ops : List (HloOp τ sig (Elt F))), op.fresh = ∅ := by
  intro op h
  unfold ops at h
  simp only [List.mem_append] at h
  rcases h with h | h | h | h | h
  exacts [opsE_fresh op h, opsL1_fresh op h, opsL2_fresh op h, opsL3_fresh op h, opsH_fresh op h]

/-! ## What a stretch leaves alone

Each operation writes one buffer. A stretch's written references, listed; a reference not in the list keeps its
contents through the stretch. -/

/-- An operation that writes the one buffer of a reference in the list `W` writes within `W`'s buffers. -/
theorem writes_sub {W : List (Ref sig .tc)} {op : HloOp τ sig (Elt F)} (y : Ref sig .tc)
    (h : op.writes = {Proc.devRef .tc y}) (hy : y ∈ W) :
    op.writes ⊆ (W.map (Proc.devRef (τ := τ) .tc)).toFinset := by
  rw [h, Finset.singleton_subset_iff, List.mem_toFinset]
  exact List.mem_map.2 ⟨y, hy, rfl⟩

/-- The references stretch `opsE` writes. -/
abbrev WE : List (Ref sig .tc) :=
  [main_v0, main_v1, main_v2, main_v3, main_v4, main_v5, main_v6]
theorem opsE_writes : (opsE : List (HloOp τ sig (Elt F))).Forall fun op => op.writes ⊆ (WE.map (Proc.devRef (τ := τ) .tc)).toFinset :=
  ⟨writes_sub main_v0 rfl (by decide), writes_sub main_v1 rfl (by decide), writes_sub main_v2 rfl (by decide), writes_sub main_v3 rfl (by decide), writes_sub main_v4 rfl (by decide), writes_sub main_v5 rfl (by decide), writes_sub main_v6 rfl (by decide)⟩
theorem frameE (V : Valuation τ sig (Elt F)) {r : Ref sig .tc} (hr : r ∉ WE) :
    after opsE V (Proc.devRef .tc r) = V (Proc.devRef .tc r) :=
  after_of_writes_sub opsE V opsE_writes hr

/-- The references stretch `opsP1` writes. -/
abbrev WP1 : List (Ref sig .tc) :=
  [main_v7, main_cst, main_v8, main_cst_0, main_v9, main_v10, main_v11, main_cst_1, main_v12, main_v13, main_v14]
theorem opsP1_writes : (opsP1 : List (HloOp τ sig (Elt F))).Forall fun op => op.writes ⊆ (WP1.map (Proc.devRef (τ := τ) .tc)).toFinset :=
  ⟨writes_sub main_v7 rfl (by decide), writes_sub main_cst rfl (by decide), writes_sub main_v8 rfl (by decide), writes_sub main_cst_0 rfl (by decide), writes_sub main_v9 rfl (by decide), writes_sub main_v10 rfl (by decide), writes_sub main_v11 rfl (by decide), writes_sub main_cst_1 rfl (by decide), writes_sub main_v12 rfl (by decide), writes_sub main_v13 rfl (by decide), writes_sub main_v14 rfl (by decide)⟩
theorem frameP1 (V : Valuation τ sig (Elt F)) {r : Ref sig .tc} (hr : r ∉ WP1) :
    after opsP1 V (Proc.devRef .tc r) = V (Proc.devRef .tc r) :=
  after_of_writes_sub opsP1 V opsP1_writes hr

/-- The references stretch `opsW1` writes. -/
abbrev WW1 : List (Ref sig .tc) :=
  [main_cst_2, main_call0_v0, main_call0_v1, main_v15]
theorem opsW1_writes : (opsW1 : List (HloOp τ sig (Elt F))).Forall fun op => op.writes ⊆ (WW1.map (Proc.devRef (τ := τ) .tc)).toFinset :=
  ⟨writes_sub main_cst_2 rfl (by decide), writes_sub main_call0_v0 rfl (by decide), writes_sub main_call0_v1 rfl (by decide), writes_sub main_v15 rfl (by decide)⟩
theorem frameW1 (V : Valuation τ sig (Elt F)) {r : Ref sig .tc} (hr : r ∉ WW1) :
    after opsW1 V (Proc.devRef .tc r) = V (Proc.devRef .tc r) :=
  after_of_writes_sub opsW1 V opsW1_writes hr

/-- The references stretch `opsG1` writes. -/
abbrev WG1 : List (Ref sig .tc) :=
  [main_c, main_v16, main_v17, main_c_3, main_v18, main_v19, main_v20, main_v21, main_v22, main_c_4, main_v23, main_v24, main_c_5, main_v25, main_v26, main_v27, main_v28, main_v29, main_v30, main_c_6, main_v31, main_v32, main_c_7, main_v33, main_v34, main_v35, main_v36, main_v37, main_v38, main_v39, main_v40, main_cst_8, main_v41, main_v42, main_v43, main_v44, main_v45, main_v46]
theorem opsG1_writes : (opsG1 : List (HloOp τ sig (Elt F))).Forall fun op => op.writes ⊆ (WG1.map (Proc.devRef (τ := τ) .tc)).toFinset :=
  ⟨writes_sub main_c rfl (by decide), writes_sub main_v16 rfl (by decide), writes_sub main_v17 rfl (by decide), writes_sub main_c_3 rfl (by decide), writes_sub main_v18 rfl (by decide), writes_sub main_v19 rfl (by decide), writes_sub main_v20 rfl (by decide), writes_sub main_v21 rfl (by decide), writes_sub main_v22 rfl (by decide), writes_sub main_c_4 rfl (by decide), writes_sub main_v23 rfl (by decide), writes_sub main_v24 rfl (by decide), writes_sub main_c_5 rfl (by decide), writes_sub main_v25 rfl (by decide), writes_sub main_v26 rfl (by decide), writes_sub main_v27 rfl (by decide), writes_sub main_v28 rfl (by decide), writes_sub main_v29 rfl (by decide), writes_sub main_v30 rfl (by decide), writes_sub main_c_6 rfl (by decide), writes_sub main_v31 rfl (by decide), writes_sub main_v32 rfl (by decide), writes_sub main_c_7 rfl (by decide), writes_sub main_v33 rfl (by decide), writes_sub main_v34 rfl (by decide), writes_sub main_v35 rfl (by decide), writes_sub main_v36 rfl (by decide), writes_sub main_v37 rfl (by decide), writes_sub main_v38 rfl (by decide), writes_sub main_v39 rfl (by decide), writes_sub main_v40 rfl (by decide), writes_sub main_cst_8 rfl (by decide), writes_sub main_v41 rfl (by decide), writes_sub main_v42 rfl (by decide), writes_sub main_v43 rfl (by decide), writes_sub main_v44 rfl (by decide), writes_sub main_v45 rfl (by decide), writes_sub main_v46 rfl (by decide)⟩
theorem frameG1 (V : Valuation τ sig (Elt F)) {r : Ref sig .tc} (hr : r ∉ WG1) :
    after opsG1 V (Proc.devRef .tc r) = V (Proc.devRef .tc r) :=
  after_of_writes_sub opsG1 V opsG1_writes hr

/-- The references stretch `opsR1` writes. -/
abbrev WR1 : List (Ref sig .tc) :=
  [main_call1_cst, main_call1_v0, main_v47]
theorem opsR1_writes : (opsR1 : List (HloOp τ sig (Elt F))).Forall fun op => op.writes ⊆ (WR1.map (Proc.devRef (τ := τ) .tc)).toFinset :=
  ⟨writes_sub main_call1_cst rfl (by decide), writes_sub main_call1_v0 rfl (by decide), writes_sub main_v47 rfl (by decide)⟩
theorem frameR1 (V : Valuation τ sig (Elt F)) {r : Ref sig .tc} (hr : r ∉ WR1) :
    after opsR1 V (Proc.devRef .tc r) = V (Proc.devRef .tc r) :=
  after_of_writes_sub opsR1 V opsR1_writes hr

/-- The references stretch `opsP2` writes. -/
abbrev WP2 : List (Ref sig .tc) :=
  [main_v48, main_cst_9, main_v49, main_cst_10, main_v50, main_v51, main_v52, main_cst_11, main_v53, main_v54, main_v55]
theorem opsP2_writes : (opsP2 : List (HloOp τ sig (Elt F))).Forall fun op => op.writes ⊆ (WP2.map (Proc.devRef (τ := τ) .tc)).toFinset :=
  ⟨writes_sub main_v48 rfl (by decide), writes_sub main_cst_9 rfl (by decide), writes_sub main_v49 rfl (by decide), writes_sub main_cst_10 rfl (by decide), writes_sub main_v50 rfl (by decide), writes_sub main_v51 rfl (by decide), writes_sub main_v52 rfl (by decide), writes_sub main_cst_11 rfl (by decide), writes_sub main_v53 rfl (by decide), writes_sub main_v54 rfl (by decide), writes_sub main_v55 rfl (by decide)⟩
theorem frameP2 (V : Valuation τ sig (Elt F)) {r : Ref sig .tc} (hr : r ∉ WP2) :
    after opsP2 V (Proc.devRef .tc r) = V (Proc.devRef .tc r) :=
  after_of_writes_sub opsP2 V opsP2_writes hr

/-- The references stretch `opsW2` writes. -/
abbrev WW2 : List (Ref sig .tc) :=
  [main_cst_12, main_call2_v0, main_call2_v1, main_v56]
theorem opsW2_writes : (opsW2 : List (HloOp τ sig (Elt F))).Forall fun op => op.writes ⊆ (WW2.map (Proc.devRef (τ := τ) .tc)).toFinset :=
  ⟨writes_sub main_cst_12 rfl (by decide), writes_sub main_call2_v0 rfl (by decide), writes_sub main_call2_v1 rfl (by decide), writes_sub main_v56 rfl (by decide)⟩
theorem frameW2 (V : Valuation τ sig (Elt F)) {r : Ref sig .tc} (hr : r ∉ WW2) :
    after opsW2 V (Proc.devRef .tc r) = V (Proc.devRef .tc r) :=
  after_of_writes_sub opsW2 V opsW2_writes hr

/-- The references stretch `opsG2` writes. -/
abbrev WG2 : List (Ref sig .tc) :=
  [main_c_13, main_v57, main_v58, main_c_14, main_v59, main_v60, main_v61, main_v62, main_v63, main_c_15, main_v64, main_v65, main_c_16, main_v66, main_v67, main_v68, main_v69, main_v70, main_v71, main_c_17, main_v72, main_v73, main_c_18, main_v74, main_v75, main_v76, main_v77, main_v78, main_v79, main_v80, main_v81, main_cst_19, main_v82, main_v83, main_v84, main_v85, main_v86, main_v87]
theorem opsG2_writes : (opsG2 : List (HloOp τ sig (Elt F))).Forall fun op => op.writes ⊆ (WG2.map (Proc.devRef (τ := τ) .tc)).toFinset :=
  ⟨writes_sub main_c_13 rfl (by decide), writes_sub main_v57 rfl (by decide), writes_sub main_v58 rfl (by decide), writes_sub main_c_14 rfl (by decide), writes_sub main_v59 rfl (by decide), writes_sub main_v60 rfl (by decide), writes_sub main_v61 rfl (by decide), writes_sub main_v62 rfl (by decide), writes_sub main_v63 rfl (by decide), writes_sub main_c_15 rfl (by decide), writes_sub main_v64 rfl (by decide), writes_sub main_v65 rfl (by decide), writes_sub main_c_16 rfl (by decide), writes_sub main_v66 rfl (by decide), writes_sub main_v67 rfl (by decide), writes_sub main_v68 rfl (by decide), writes_sub main_v69 rfl (by decide), writes_sub main_v70 rfl (by decide), writes_sub main_v71 rfl (by decide), writes_sub main_c_17 rfl (by decide), writes_sub main_v72 rfl (by decide), writes_sub main_v73 rfl (by decide), writes_sub main_c_18 rfl (by decide), writes_sub main_v74 rfl (by decide), writes_sub main_v75 rfl (by decide), writes_sub main_v76 rfl (by decide), writes_sub main_v77 rfl (by decide), writes_sub main_v78 rfl (by decide), writes_sub main_v79 rfl (by decide), writes_sub main_v80 rfl (by decide), writes_sub main_v81 rfl (by decide), writes_sub main_cst_19 rfl (by decide), writes_sub main_v82 rfl (by decide), writes_sub main_v83 rfl (by decide), writes_sub main_v84 rfl (by decide), writes_sub main_v85 rfl (by decide), writes_sub main_v86 rfl (by decide), writes_sub main_v87 rfl (by decide)⟩
theorem frameG2 (V : Valuation τ sig (Elt F)) {r : Ref sig .tc} (hr : r ∉ WG2) :
    after opsG2 V (Proc.devRef .tc r) = V (Proc.devRef .tc r) :=
  after_of_writes_sub opsG2 V opsG2_writes hr

/-- The references stretch `opsR2` writes. -/
abbrev WR2 : List (Ref sig .tc) :=
  [main_call3_cst, main_call3_v0, main_v88]
theorem opsR2_writes : (opsR2 : List (HloOp τ sig (Elt F))).Forall fun op => op.writes ⊆ (WR2.map (Proc.devRef (τ := τ) .tc)).toFinset :=
  ⟨writes_sub main_call3_cst rfl (by decide), writes_sub main_call3_v0 rfl (by decide), writes_sub main_v88 rfl (by decide)⟩
theorem frameR2 (V : Valuation τ sig (Elt F)) {r : Ref sig .tc} (hr : r ∉ WR2) :
    after opsR2 V (Proc.devRef .tc r) = V (Proc.devRef .tc r) :=
  after_of_writes_sub opsR2 V opsR2_writes hr

/-- The references stretch `opsP3` writes. -/
abbrev WP3 : List (Ref sig .tc) :=
  [main_v89, main_cst_20, main_v90, main_cst_21, main_v91, main_v92, main_v93, main_cst_22, main_v94, main_v95, main_v96]
theorem opsP3_writes : (opsP3 : List (HloOp τ sig (Elt F))).Forall fun op => op.writes ⊆ (WP3.map (Proc.devRef (τ := τ) .tc)).toFinset :=
  ⟨writes_sub main_v89 rfl (by decide), writes_sub main_cst_20 rfl (by decide), writes_sub main_v90 rfl (by decide), writes_sub main_cst_21 rfl (by decide), writes_sub main_v91 rfl (by decide), writes_sub main_v92 rfl (by decide), writes_sub main_v93 rfl (by decide), writes_sub main_cst_22 rfl (by decide), writes_sub main_v94 rfl (by decide), writes_sub main_v95 rfl (by decide), writes_sub main_v96 rfl (by decide)⟩
theorem frameP3 (V : Valuation τ sig (Elt F)) {r : Ref sig .tc} (hr : r ∉ WP3) :
    after opsP3 V (Proc.devRef .tc r) = V (Proc.devRef .tc r) :=
  after_of_writes_sub opsP3 V opsP3_writes hr

/-- The references stretch `opsW3` writes. -/
abbrev WW3 : List (Ref sig .tc) :=
  [main_cst_23, main_call4_v0, main_call4_v1, main_v97]
theorem opsW3_writes : (opsW3 : List (HloOp τ sig (Elt F))).Forall fun op => op.writes ⊆ (WW3.map (Proc.devRef (τ := τ) .tc)).toFinset :=
  ⟨writes_sub main_cst_23 rfl (by decide), writes_sub main_call4_v0 rfl (by decide), writes_sub main_call4_v1 rfl (by decide), writes_sub main_v97 rfl (by decide)⟩
theorem frameW3 (V : Valuation τ sig (Elt F)) {r : Ref sig .tc} (hr : r ∉ WW3) :
    after opsW3 V (Proc.devRef .tc r) = V (Proc.devRef .tc r) :=
  after_of_writes_sub opsW3 V opsW3_writes hr

/-- The references stretch `opsG3` writes. -/
abbrev WG3 : List (Ref sig .tc) :=
  [main_c_24, main_v98, main_v99, main_c_25, main_v100, main_v101, main_v102, main_v103, main_v104, main_c_26, main_v105, main_v106, main_c_27, main_v107, main_v108, main_v109, main_v110, main_v111, main_v112, main_c_28, main_v113, main_v114, main_c_29, main_v115, main_v116, main_v117, main_v118, main_v119, main_v120, main_v121, main_v122, main_cst_30, main_v123, main_v124, main_v125, main_v126, main_v127, main_v128]
theorem opsG3_writes : (opsG3 : List (HloOp τ sig (Elt F))).Forall fun op => op.writes ⊆ (WG3.map (Proc.devRef (τ := τ) .tc)).toFinset :=
  ⟨writes_sub main_c_24 rfl (by decide), writes_sub main_v98 rfl (by decide), writes_sub main_v99 rfl (by decide), writes_sub main_c_25 rfl (by decide), writes_sub main_v100 rfl (by decide), writes_sub main_v101 rfl (by decide), writes_sub main_v102 rfl (by decide), writes_sub main_v103 rfl (by decide), writes_sub main_v104 rfl (by decide), writes_sub main_c_26 rfl (by decide), writes_sub main_v105 rfl (by decide), writes_sub main_v106 rfl (by decide), writes_sub main_c_27 rfl (by decide), writes_sub main_v107 rfl (by decide), writes_sub main_v108 rfl (by decide), writes_sub main_v109 rfl (by decide), writes_sub main_v110 rfl (by decide), writes_sub main_v111 rfl (by decide), writes_sub main_v112 rfl (by decide), writes_sub main_c_28 rfl (by decide), writes_sub main_v113 rfl (by decide), writes_sub main_v114 rfl (by decide), writes_sub main_c_29 rfl (by decide), writes_sub main_v115 rfl (by decide), writes_sub main_v116 rfl (by decide), writes_sub main_v117 rfl (by decide), writes_sub main_v118 rfl (by decide), writes_sub main_v119 rfl (by decide), writes_sub main_v120 rfl (by decide), writes_sub main_v121 rfl (by decide), writes_sub main_v122 rfl (by decide), writes_sub main_cst_30 rfl (by decide), writes_sub main_v123 rfl (by decide), writes_sub main_v124 rfl (by decide), writes_sub main_v125 rfl (by decide), writes_sub main_v126 rfl (by decide), writes_sub main_v127 rfl (by decide), writes_sub main_v128 rfl (by decide)⟩
theorem frameG3 (V : Valuation τ sig (Elt F)) {r : Ref sig .tc} (hr : r ∉ WG3) :
    after opsG3 V (Proc.devRef .tc r) = V (Proc.devRef .tc r) :=
  after_of_writes_sub opsG3 V opsG3_writes hr

/-- The references stretch `opsR3` writes. -/
abbrev WR3 : List (Ref sig .tc) :=
  [main_call5_cst, main_call5_v0, main_v129]
theorem opsR3_writes : (opsR3 : List (HloOp τ sig (Elt F))).Forall fun op => op.writes ⊆ (WR3.map (Proc.devRef (τ := τ) .tc)).toFinset :=
  ⟨writes_sub main_call5_cst rfl (by decide), writes_sub main_call5_v0 rfl (by decide), writes_sub main_v129 rfl (by decide)⟩
theorem frameR3 (V : Valuation τ sig (Elt F)) {r : Ref sig .tc} (hr : r ∉ WR3) :
    after opsR3 V (Proc.devRef .tc r) = V (Proc.devRef .tc r) :=
  after_of_writes_sub opsR3 V opsR3_writes hr

/-- The references stretch `opsH` writes. -/
abbrev WH : List (Ref sig .tc) :=
  [main_v130, main_v131, main_v132, main_v133]
theorem opsH_writes : (opsH : List (HloOp τ sig (Elt F))).Forall fun op => op.writes ⊆ (WH.map (Proc.devRef (τ := τ) .tc)).toFinset :=
  ⟨writes_sub main_v130 rfl (by decide), writes_sub main_v131 rfl (by decide), writes_sub main_v132 rfl (by decide), writes_sub main_v133 rfl (by decide)⟩
theorem frameH (V : Valuation τ sig (Elt F)) {r : Ref sig .tc} (hr : r ∉ WH) :
    after opsH V (Proc.devRef .tc r) = V (Proc.devRef .tc r) :=
  after_of_writes_sub opsH V opsH_writes hr

/-- A layer's operations run stretch after stretch. -/
theorem opsL1_after (V : Valuation τ sig (Elt F)) :
    after opsL1 V = after opsR1 (after opsG1 (after opsW1 (after opsP1 V))) := by
  unfold opsL1
  rw [after_append, after_append, after_append]
theorem frameL1 (V : Valuation τ sig (Elt F)) {r : Ref sig .tc} (h : r ∉ WP1 ++ (WW1 ++ (WG1 ++ WR1))) :
    after opsL1 V (Proc.devRef .tc r) = V (Proc.devRef .tc r) := by
  simp only [List.mem_append, not_or] at h
  rw [opsL1_after, frameR1 _ h.2.2.2, frameG1 _ h.2.2.1, frameW1 _ h.2.1, frameP1 _ h.1]

/-- A layer's operations run stretch after stretch. -/
theorem opsL2_after (V : Valuation τ sig (Elt F)) :
    after opsL2 V = after opsR2 (after opsG2 (after opsW2 (after opsP2 V))) := by
  unfold opsL2
  rw [after_append, after_append, after_append]
theorem frameL2 (V : Valuation τ sig (Elt F)) {r : Ref sig .tc} (h : r ∉ WP2 ++ (WW2 ++ (WG2 ++ WR2))) :
    after opsL2 V (Proc.devRef .tc r) = V (Proc.devRef .tc r) := by
  simp only [List.mem_append, not_or] at h
  rw [opsL2_after, frameR2 _ h.2.2.2, frameG2 _ h.2.2.1, frameW2 _ h.2.1, frameP2 _ h.1]

/-- A layer's operations run stretch after stretch. -/
theorem opsL3_after (V : Valuation τ sig (Elt F)) :
    after opsL3 V = after opsR3 (after opsG3 (after opsW3 (after opsP3 V))) := by
  unfold opsL3
  rw [after_append, after_append, after_append]
theorem frameL3 (V : Valuation τ sig (Elt F)) {r : Ref sig .tc} (h : r ∉ WP3 ++ (WW3 ++ (WG3 ++ WR3))) :
    after opsL3 V (Proc.devRef .tc r) = V (Proc.devRef .tc r) := by
  simp only [List.mem_append, not_or] at h
  rw [opsL3_after, frameR3 _ h.2.2.2, frameG3 _ h.2.2.1, frameW3 _ h.2.1, frameP3 _ h.1]

/-- The whole line runs stage after stage. -/
theorem ops_after (V : Valuation τ sig (Elt F)) :
    after ops V = after opsH (after opsL3 (after opsL2 (after opsL1 (after opsE V)))) := by
  unfold ops
  rw [after_append, after_append, after_append, after_append]
theorem frame_ops (V : Valuation τ sig (Elt F)) {r : Ref sig .tc} (hE : r ∉ WE)
    (h1 : r ∉ WP1 ++ (WW1 ++ (WG1 ++ WR1))) (h2 : r ∉ WP2 ++ (WW2 ++ (WG2 ++ WR2))) (h3 : r ∉ WP3 ++ (WW3 ++ (WG3 ++ WR3)))
    (hH : r ∉ WH) : after ops V (Proc.devRef .tc r) = V (Proc.devRef .tc r) := by
  rw [ops_after, frameH _ hH, frameL3 _ h3, frameL2 _ h2, frameL1 _ h1, frameE _ hE]

/-! ## The stretches, read

Each over an arbitrary valuation `V` of the buffers at the extended reals: what the stretch leaves in the buffers later
stretches read, as the reference's own operations applied to `V`'s entries. -/

variable (V : Valuation τ sig (Elt Ideal))

set_option maxRecDepth 8192 in
set_option maxHeartbeats 400000 in
theorem src_run : after (opsE (F := Ideal)) V (Proc.devRef .tc main_v3) = Cert.RefTerm.src (V (Proc.devRef .tc main_arg1)) := by
  after_results_simp
  unfold Cert.RefTerm.src
  rfl

set_option maxRecDepth 8192 in
set_option maxHeartbeats 400000 in
theorem dst_run : after (opsE (F := Ideal)) V (Proc.devRef .tc main_v6) = Cert.RefTerm.dst (V (Proc.devRef .tc main_arg1)) := by
  after_results_simp
  unfold Cert.RefTerm.dst
  rfl

/-! ### Layer 1 -/

set_option maxRecDepth 8192 in
set_option maxHeartbeats 400000 in
theorem prod1 : after (opsP1 (F := Ideal)) V (Proc.devRef .tc main_v7)
    = Host.dotGeneral (F := Ideal) (φ₁ := .f32) (φ₂ := .f32) dot_S100000x128_S128x64_S100000x64_1_0_0_1_n_n none (V (Proc.devRef .tc main_arg0)) (V (Proc.devRef .tc main_arg2)) := by
  after_results_simp

set_option maxRecDepth 8192 in
set_option maxHeartbeats 400000 in
theorem cmp1 : after (opsP1 (F := Ideal)) V (Proc.devRef .tc main_v13)
    = cmpf (F := Ideal) .ogt (Cert.RefTerm.deg (V (Proc.devRef .tc main_v6))) (broadcastInDim S100000 ![] bcast_S_S100000 (constant (F := Ideal) S_ .f32 0x00000000#32)) := by
  after_results_simp
  unfold Cert.RefTerm.deg Cert.RefTerm.col
  rfl

set_option maxRecDepth 8192 in
set_option maxHeartbeats 400000 in
theorem rsq1 : after (opsP1 (F := Ideal)) V (Proc.devRef .tc main_v14)
    = Host.rsqrt (F := Ideal) (Cert.RefTerm.deg (V (Proc.devRef .tc main_v6))) := by
  after_results_simp
  unfold Cert.RefTerm.deg Cert.RefTerm.col
  rfl

set_option maxRecDepth 8192 in
set_option maxHeartbeats 400000 in
theorem where1 : after (opsW1 (F := Ideal)) V (Proc.devRef .tc main_v15)
    = select (V (Proc.devRef .tc main_v13)) (V (Proc.devRef .tc main_v14)) (broadcastInDim S100000 ![] bcast_S_S100000 (constant (F := Ideal) S_ .f32 0x00000000#32)) := by
  after_results_simp
  rfl

set_option maxRecDepth 8192 in
set_option maxHeartbeats 1000000 in
theorem rest1 : after (opsG1 (F := Ideal)) V (Proc.devRef .tc main_v46)
    = addf (F := Ideal)
        (Host.scatterAdd (F := Ideal) scatter_S100000x64_S3300000x1_S3300000x64_1_0_0_1
          (broadcastInDim S100000x64 ![] bcast_S_S100000x64 (constant (F := Ideal) S_ .f32 0x00000000#32)) (Cert.RefTerm.col (V (Proc.devRef .tc main_v6)))
          (mulf (F := Ideal)
            (Host.gather gather_S100000x64_S3300000x1_S3300000x64_1_0_n_n_0_1_164 (V (Proc.devRef .tc main_v7)) (Cert.RefTerm.wrap (V (Proc.devRef .tc main_v3))))
            (broadcastInDim S3300000x64 ![0, 1] bcast_S3300000x1_S3300000x64_0_1
              (broadcastInDim S3300000x1 ![0] bcast_S3300000_S3300000x1_0
                (mulf (F := Ideal)
                  (Host.gather gather_S100000_S3300000x1_S3300000_n_0_n_n_0_1_1 (V (Proc.devRef .tc main_v15)) (Cert.RefTerm.wrap (V (Proc.devRef .tc main_v3))))
                  (Host.gather gather_S100000_S3300000x1_S3300000_n_0_n_n_0_1_1 (V (Proc.devRef .tc main_v15)) (Cert.RefTerm.wrap (V (Proc.devRef .tc main_v6)))))))))
        (broadcastInDim S100000x64 ![0, 1] bcast_S1x64_S100000x64_0_1 (broadcastInDim S1x64 ![1] bcast_S64_S1x64_1 (V (Proc.devRef .tc main_arg3)))) := by
  after_results_simp
  unfold Cert.RefTerm.col Cert.RefTerm.wrap
  rfl

set_option maxRecDepth 8192 in
set_option maxHeartbeats 400000 in
theorem relu1 : after (opsR1 (F := Ideal)) V (Proc.devRef .tc main_v47)
    = maximumf (F := Ideal) (V (Proc.devRef .tc main_v46)) (broadcastInDim S100000x64 ![] bcast_S_S100000x64 (constant (F := Ideal) S_ .f32 0x00000000#32)) := by
  after_results_simp
  rfl

/-! ### Layer 2 -/

set_option maxRecDepth 8192 in
set_option maxHeartbeats 400000 in
theorem prod2 : after (opsP2 (F := Ideal)) V (Proc.devRef .tc main_v48)
    = Host.dotGeneral (F := Ideal) (φ₁ := .f32) (φ₂ := .f32) dot_S100000x64_S64x32_S100000x32_1_0_0_1_n_n none (V (Proc.devRef .tc main_v47)) (V (Proc.devRef .tc main_arg4)) := by
  after_results_simp

set_option maxRecDepth 8192 in
set_option maxHeartbeats 400000 in
theorem cmp2 : after (opsP2 (F := Ideal)) V (Proc.devRef .tc main_v54)
    = cmpf (F := Ideal) .ogt (Cert.RefTerm.deg (V (Proc.devRef .tc main_v6))) (broadcastInDim S100000 ![] bcast_S_S100000 (constant (F := Ideal) S_ .f32 0x00000000#32)) := by
  after_results_simp
  unfold Cert.RefTerm.deg Cert.RefTerm.col
  rfl

set_option maxRecDepth 8192 in
set_option maxHeartbeats 400000 in
theorem rsq2 : after (opsP2 (F := Ideal)) V (Proc.devRef .tc main_v55)
    = Host.rsqrt (F := Ideal) (Cert.RefTerm.deg (V (Proc.devRef .tc main_v6))) := by
  after_results_simp
  unfold Cert.RefTerm.deg Cert.RefTerm.col
  rfl

set_option maxRecDepth 8192 in
set_option maxHeartbeats 400000 in
theorem where2 : after (opsW2 (F := Ideal)) V (Proc.devRef .tc main_v56)
    = select (V (Proc.devRef .tc main_v54)) (V (Proc.devRef .tc main_v55)) (broadcastInDim S100000 ![] bcast_S_S100000 (constant (F := Ideal) S_ .f32 0x00000000#32)) := by
  after_results_simp
  rfl

set_option maxRecDepth 8192 in
set_option maxHeartbeats 1000000 in
theorem rest2 : after (opsG2 (F := Ideal)) V (Proc.devRef .tc main_v87)
    = addf (F := Ideal)
        (Host.scatterAdd (F := Ideal) scatter_S100000x32_S3300000x1_S3300000x32_1_0_0_1
          (broadcastInDim S100000x32 ![] bcast_S_S100000x32 (constant (F := Ideal) S_ .f32 0x00000000#32)) (Cert.RefTerm.col (V (Proc.devRef .tc main_v6)))
          (mulf (F := Ideal)
            (Host.gather gather_S100000x32_S3300000x1_S3300000x32_1_0_n_n_0_1_132 (V (Proc.devRef .tc main_v48)) (Cert.RefTerm.wrap (V (Proc.devRef .tc main_v3))))
            (broadcastInDim S3300000x32 ![0, 1] bcast_S3300000x1_S3300000x32_0_1
              (broadcastInDim S3300000x1 ![0] bcast_S3300000_S3300000x1_0
                (mulf (F := Ideal)
                  (Host.gather gather_S100000_S3300000x1_S3300000_n_0_n_n_0_1_1 (V (Proc.devRef .tc main_v56)) (Cert.RefTerm.wrap (V (Proc.devRef .tc main_v3))))
                  (Host.gather gather_S100000_S3300000x1_S3300000_n_0_n_n_0_1_1 (V (Proc.devRef .tc main_v56)) (Cert.RefTerm.wrap (V (Proc.devRef .tc main_v6)))))))))
        (broadcastInDim S100000x32 ![0, 1] bcast_S1x32_S100000x32_0_1 (broadcastInDim S1x32 ![1] bcast_S32_S1x32_1 (V (Proc.devRef .tc main_arg5)))) := by
  after_results_simp
  unfold Cert.RefTerm.col Cert.RefTerm.wrap
  rfl

set_option maxRecDepth 8192 in
set_option maxHeartbeats 400000 in
theorem relu2 : after (opsR2 (F := Ideal)) V (Proc.devRef .tc main_v88)
    = maximumf (F := Ideal) (V (Proc.devRef .tc main_v87)) (broadcastInDim S100000x32 ![] bcast_S_S100000x32 (constant (F := Ideal) S_ .f32 0x00000000#32)) := by
  after_results_simp
  rfl

/-! ### Layer 3 -/

set_option maxRecDepth 8192 in
set_option maxHeartbeats 400000 in
theorem prod3 : after (opsP3 (F := Ideal)) V (Proc.devRef .tc main_v89)
    = Host.dotGeneral (F := Ideal) (φ₁ := .f32) (φ₂ := .f32) dot_S100000x32_S32x16_S100000x16_1_0_0_1_n_n none (V (Proc.devRef .tc main_v88)) (V (Proc.devRef .tc main_arg6)) := by
  after_results_simp

set_option maxRecDepth 8192 in
set_option maxHeartbeats 400000 in
theorem cmp3 : after (opsP3 (F := Ideal)) V (Proc.devRef .tc main_v95)
    = cmpf (F := Ideal) .ogt (Cert.RefTerm.deg (V (Proc.devRef .tc main_v6))) (broadcastInDim S100000 ![] bcast_S_S100000 (constant (F := Ideal) S_ .f32 0x00000000#32)) := by
  after_results_simp
  unfold Cert.RefTerm.deg Cert.RefTerm.col
  rfl

set_option maxRecDepth 8192 in
set_option maxHeartbeats 400000 in
theorem rsq3 : after (opsP3 (F := Ideal)) V (Proc.devRef .tc main_v96)
    = Host.rsqrt (F := Ideal) (Cert.RefTerm.deg (V (Proc.devRef .tc main_v6))) := by
  after_results_simp
  unfold Cert.RefTerm.deg Cert.RefTerm.col
  rfl

set_option maxRecDepth 8192 in
set_option maxHeartbeats 400000 in
theorem where3 : after (opsW3 (F := Ideal)) V (Proc.devRef .tc main_v97)
    = select (V (Proc.devRef .tc main_v95)) (V (Proc.devRef .tc main_v96)) (broadcastInDim S100000 ![] bcast_S_S100000 (constant (F := Ideal) S_ .f32 0x00000000#32)) := by
  after_results_simp
  rfl

set_option maxRecDepth 8192 in
set_option maxHeartbeats 1000000 in
theorem rest3 : after (opsG3 (F := Ideal)) V (Proc.devRef .tc main_v128)
    = addf (F := Ideal)
        (Host.scatterAdd (F := Ideal) scatter_S100000x16_S3300000x1_S3300000x16_1_0_0_1
          (broadcastInDim S100000x16 ![] bcast_S_S100000x16 (constant (F := Ideal) S_ .f32 0x00000000#32)) (Cert.RefTerm.col (V (Proc.devRef .tc main_v6)))
          (mulf (F := Ideal)
            (Host.gather gather_S100000x16_S3300000x1_S3300000x16_1_0_n_n_0_1_116 (V (Proc.devRef .tc main_v89)) (Cert.RefTerm.wrap (V (Proc.devRef .tc main_v3))))
            (broadcastInDim S3300000x16 ![0, 1] bcast_S3300000x1_S3300000x16_0_1
              (broadcastInDim S3300000x1 ![0] bcast_S3300000_S3300000x1_0
                (mulf (F := Ideal)
                  (Host.gather gather_S100000_S3300000x1_S3300000_n_0_n_n_0_1_1 (V (Proc.devRef .tc main_v97)) (Cert.RefTerm.wrap (V (Proc.devRef .tc main_v3))))
                  (Host.gather gather_S100000_S3300000x1_S3300000_n_0_n_n_0_1_1 (V (Proc.devRef .tc main_v97)) (Cert.RefTerm.wrap (V (Proc.devRef .tc main_v6)))))))))
        (broadcastInDim S100000x16 ![0, 1] bcast_S1x16_S100000x16_0_1 (broadcastInDim S1x16 ![1] bcast_S16_S1x16_1 (V (Proc.devRef .tc main_arg7)))) := by
  after_results_simp
  unfold Cert.RefTerm.col Cert.RefTerm.wrap
  rfl

set_option maxRecDepth 8192 in
set_option maxHeartbeats 400000 in
theorem relu3 : after (opsR3 (F := Ideal)) V (Proc.devRef .tc main_v129)
    = maximumf (F := Ideal) (V (Proc.devRef .tc main_v128)) (broadcastInDim S100000x16 ![] bcast_S_S100000x16 (constant (F := Ideal) S_ .f32 0x00000000#32)) := by
  after_results_simp
  rfl

/-! ### The head -/

set_option maxRecDepth 8192 in
set_option maxHeartbeats 400000 in
theorem head_run : after (opsH (F := Ideal)) V (Proc.devRef .tc main_v133)
    = addf (F := Ideal)
        (Host.dotGeneral (F := Ideal) (φ₁ := .f32) (φ₂ := .f32) dot_S100000x16_S16x1_S100000x1_1_0_0_1_n_n none (V (Proc.devRef .tc main_v129)) (V (Proc.devRef .tc main_arg8)))
        (broadcastInDim S100000x1 ![0, 1] bcast_S1x1_S100000x1_0_1 (broadcastInDim S1x1 ![1] bcast_S1_S1x1_1 (V (Proc.devRef .tc main_arg9)))) := by
  after_results_simp

/-! ## The layers, the whole line, the run -/

set_option maxRecDepth 8192 in
set_option maxHeartbeats 1000000 in
theorem layer1_run : after (opsL1 (F := Ideal)) V (Proc.devRef .tc main_v47)
    = Cert.RefTerm.layer1 (V (Proc.devRef .tc main_arg0)) (V (Proc.devRef .tc main_arg2)) (V (Proc.devRef .tc main_arg3)) (V (Proc.devRef .tc main_v3)) (V (Proc.devRef .tc main_v6)) := by
  rw [opsL1_after, relu1, rest1, where1,
    frameW1 (F := Ideal) _ (r := main_v7) (by decide), frameW1 (F := Ideal) _ (r := main_v3) (by decide), frameW1 (F := Ideal) _ (r := main_v6) (by decide), frameW1 (F := Ideal) _ (r := main_arg3) (by decide),
    prod1, cmp1, rsq1,
    frameP1 (F := Ideal) _ (r := main_v3) (by decide), frameP1 (F := Ideal) _ (r := main_v6) (by decide), frameP1 (F := Ideal) _ (r := main_arg3) (by decide)]
  unfold Cert.RefTerm.layer1 Cert.RefTerm.dinv
  rfl

set_option maxRecDepth 8192 in
set_option maxHeartbeats 1000000 in
theorem layer2_run : after (opsL2 (F := Ideal)) V (Proc.devRef .tc main_v88)
    = Cert.RefTerm.layer2 (V (Proc.devRef .tc main_v47)) (V (Proc.devRef .tc main_arg4)) (V (Proc.devRef .tc main_arg5)) (V (Proc.devRef .tc main_v3)) (V (Proc.devRef .tc main_v6)) := by
  rw [opsL2_after, relu2, rest2, where2,
    frameW2 (F := Ideal) _ (r := main_v48) (by decide), frameW2 (F := Ideal) _ (r := main_v3) (by decide), frameW2 (F := Ideal) _ (r := main_v6) (by decide), frameW2 (F := Ideal) _ (r := main_arg5) (by decide),
    prod2, cmp2, rsq2,
    frameP2 (F := Ideal) _ (r := main_v3) (by decide), frameP2 (F := Ideal) _ (r := main_v6) (by decide), frameP2 (F := Ideal) _ (r := main_arg5) (by decide)]
  unfold Cert.RefTerm.layer2 Cert.RefTerm.dinv
  rfl

set_option maxRecDepth 8192 in
set_option maxHeartbeats 1000000 in
theorem layer3_run : after (opsL3 (F := Ideal)) V (Proc.devRef .tc main_v129)
    = Cert.RefTerm.layer3 (V (Proc.devRef .tc main_v88)) (V (Proc.devRef .tc main_arg6)) (V (Proc.devRef .tc main_arg7)) (V (Proc.devRef .tc main_v3)) (V (Proc.devRef .tc main_v6)) := by
  rw [opsL3_after, relu3, rest3, where3,
    frameW3 (F := Ideal) _ (r := main_v89) (by decide), frameW3 (F := Ideal) _ (r := main_v3) (by decide), frameW3 (F := Ideal) _ (r := main_v6) (by decide), frameW3 (F := Ideal) _ (r := main_arg7) (by decide),
    prod3, cmp3, rsq3,
    frameP3 (F := Ideal) _ (r := main_v3) (by decide), frameP3 (F := Ideal) _ (r := main_v6) (by decide), frameP3 (F := Ideal) _ (r := main_arg7) (by decide)]
  unfold Cert.RefTerm.layer3 Cert.RefTerm.dinv
  rfl

set_option maxRecDepth 8192 in
set_option maxHeartbeats 1000000 in
/-- The result buffer after the whole line: the reference's value of the ten argument buffers. -/
theorem value : after (ops (F := Ideal)) V (Proc.devRef .tc main_v133)
    = Cert.RefTerm.out (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  rw [ops_after, head_run, layer3_run,
    frameL3 (F := Ideal) _ (r := main_arg8) (by decide), frameL3 (F := Ideal) _ (r := main_arg9) (by decide),
    layer2_run,
    frameL2 (F := Ideal) _ (r := main_arg6) (by decide), frameL2 (F := Ideal) _ (r := main_arg7) (by decide), frameL2 (F := Ideal) _ (r := main_v3) (by decide), frameL2 (F := Ideal) _ (r := main_v6) (by decide), frameL2 (F := Ideal) _ (r := main_arg8) (by decide), frameL2 (F := Ideal) _ (r := main_arg9) (by decide),
    layer1_run,
    frameL1 (F := Ideal) _ (r := main_arg4) (by decide), frameL1 (F := Ideal) _ (r := main_arg5) (by decide), frameL1 (F := Ideal) _ (r := main_v3) (by decide), frameL1 (F := Ideal) _ (r := main_v6) (by decide), frameL1 (F := Ideal) _ (r := main_arg6) (by decide), frameL1 (F := Ideal) _ (r := main_arg7) (by decide), frameL1 (F := Ideal) _ (r := main_arg8) (by decide), frameL1 (F := Ideal) _ (r := main_arg9) (by decide),
    src_run, dst_run,
    frameE (F := Ideal) _ (r := main_arg0) (by decide), frameE (F := Ideal) _ (r := main_arg2) (by decide), frameE (F := Ideal) _ (r := main_arg3) (by decide), frameE (F := Ideal) _ (r := main_arg4) (by decide), frameE (F := Ideal) _ (r := main_arg5) (by decide), frameE (F := Ideal) _ (r := main_arg6) (by decide), frameE (F := Ideal) _ (r := main_arg7) (by decide), frameE (F := Ideal) _ (r := main_arg8) (by decide), frameE (F := Ideal) _ (r := main_arg9) (by decide)]
  unfold Cert.RefTerm.out
  rfl

set_option maxRecDepth 8192 in
/-- On every device, at the extended reals, from any memory with zero counters: every weakly fair execution of the
    reference's @main terminates with the result buffer at the reference's value of the ten arguments' launch
    contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v133) = Cert.RefTerm.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v133).trans (value _),
      (h c main_arg0).trans (frame_ops _ (by decide) (by decide) (by decide) (by decide) (by decide)),
      (h c main_arg1).trans (frame_ops _ (by decide) (by decide) (by decide) (by decide) (by decide)),
      (h c main_arg2).trans (frame_ops _ (by decide) (by decide) (by decide) (by decide) (by decide)),
      (h c main_arg3).trans (frame_ops _ (by decide) (by decide) (by decide) (by decide) (by decide)),
      (h c main_arg4).trans (frame_ops _ (by decide) (by decide) (by decide) (by decide) (by decide)),
      (h c main_arg5).trans (frame_ops _ (by decide) (by decide) (by decide) (by decide) (by decide)),
      (h c main_arg6).trans (frame_ops _ (by decide) (by decide) (by decide) (by decide) (by decide)),
      (h c main_arg7).trans (frame_ops _ (by decide) (by decide) (by decide) (by decide) (by decide)),
      (h c main_arg8).trans (frame_ops _ (by decide) (by decide) (by decide) (by decide) (by decide)),
      (h c main_arg9).trans (frame_ops _ (by decide) (by decide) (by decide) (by decide) (by decide))⟩)
    (run_seq scopedRefs_eq scopedSems_eq defs main (fun _ => ops) main_eq (fun _ => ops_sub) m ρ (fun _ => ops_fresh))

end Cert.ReferenceIdeal.RefRun

end
-- ==== Proof.Finite.lean ====
/-
  From "every float input is finite" to "every entry of every float input is a real number".

  The precondition tests each float array `x` by `|x| < +∞` entry by entry, takes the conjunction of the
  tests over all entries of the array, and then the conjunction over the nine arrays, and says the outcome is 1.
  Read on extended reals, `|x| = max x (-x)`, which is `⊤` at both `⊥` and `⊤`; so an entry passing the test is
  neither, that is, it is (the image of) a real number. A conjunction that is 1 has every conjunct 1, which
  carries the outcome back to each entry of each array.
-/
import proofs.«105999_j16286515986672_1_alg».proof.Pre_finite_inputs
import proofs.«105999_j16286515986672_1_alg».proof.Proof.Gen.Pre_finite_inputs
import Idealize.ShloMosaic.Lib.ReduceAll
import Idealize.ShloMosaic.Lib.IdealHost

namespace Cert.Finite

open Idealize.ShloMosaic Idealize.ShloMosaic.ValueIdx
open Cert.Pre_finite_inputs

/-- The shape of rank 0 has one index: there is no axis to give a coordinate on. -/
instance : Subsingleton S_.Idx := ⟨fun a b => funext fun d => d.elim0⟩

/-- The pattern `0x7F800000` (sign 0, exponent all ones, significand 0) denotes `+∞`. -/
theorem inf_bits : Ideal.ofBits .f32 0x7F800000#32 = (⊤ : EReal) := by
  simp [Ideal.ofBits, Ideal.ieee]

/-- An extended real whose absolute value `max x (-x)` is below `+∞` is a real: at `⊥` and at `⊤` the
    absolute value is `⊤`, which is not below itself. -/
theorem real_of_abs_lt_top (x : EReal) (h : max x (-x) < ⊤) : ∃ r : ℝ, x = (r : EReal) := by
  induction x using EReal.rec with
  | bot => simp at h
  | coe r => exact ⟨r, rfl⟩
  | top => simp at h

/-- One array, any shape `s`: if the conjunction over all entries of `|x i| < +∞` is 1, every entry of `x` is a real.
    The conjunction being 1 gives the test at each index `i`; there the bound, a scalar spread over `s`, reads `⊤`, and
    the comparison is the order of the extended reals, so `max (x i) (-(x i)) < ⊤`. -/
theorem reals_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant S_ .f32 0x7F800000#32)))
          (constantI S_ 1 1#1) hr hu ix0 = 1#1) (i : s.Idx) : ∃ r : ℝ, x i = (r : EReal) := by
  have h1 := Host.reduce_andi_all _ _ hr hu ix0 e i
  rw [cmpf_apply, broadcastInDim_scalar_apply, constant_apply, inf_bits, Ideal.cmpf_def] at h1
  change BitVec.ofBool (decide (max (x i) (-(x i)) < ⊤)) = 1#1 at h1
  refine real_of_abs_lt_top (x i) ?_
  by_contra hn
  rw [decide_eq_false hn] at h1
  exact absurd h1 (by decide)

/-- The nine float inputs: the precondition's outcome is the conjunction, nested to the left, of the nine arrays'
    tests (the integer edge list `a1` is not tested); it is 1, so each test is 1, and each array has real entries. -/
theorem reals_of_finite
    (a0 : FVec Ideal S100000x128 .f32) (a1 : IVec S2x3200000 32) (a2 : FVec Ideal S128x64 .f32) (a3 : FVec Ideal S64 .f32)
    (a4 : FVec Ideal S64x32 .f32) (a5 : FVec Ideal S32 .f32) (a6 : FVec Ideal S32x16 .f32) (a7 : FVec Ideal S16 .f32)
    (a8 : FVec Ideal S16x1 .f32) (a9 : FVec Ideal S1 .f32)
    (h : Cert.Pre_finite_inputs.fn (F := Ideal) a0 a1 a2 a3 a4 a5 a6 a7 a8 a9 = (fun _ => 1#1)) :
    (∀ i, ∃ r : ℝ, a0 i = (r : EReal)) ∧ (∀ i, ∃ r : ℝ, a2 i = (r : EReal)) ∧ (∀ i, ∃ r : ℝ, a3 i = (r : EReal))
    ∧ (∀ i, ∃ r : ℝ, a4 i = (r : EReal)) ∧ (∀ i, ∃ r : ℝ, a5 i = (r : EReal)) ∧ (∀ i, ∃ r : ℝ, a6 i = (r : EReal))
    ∧ (∀ i, ∃ r : ℝ, a7 i = (r : EReal)) ∧ (∀ i, ∃ r : ℝ, a8 i = (r : EReal)) ∧ (∀ i, ∃ r : ℝ, a9 i = (r : EReal)) := by
  have h0 := congrFun h ix0
  dsimp only [fn, fn_part1, fn_part2, andi] at h0
  simp only [IntOp.andi_eq_one] at h0
  obtain ⟨⟨⟨⟨⟨⟨⟨⟨e0, e2⟩, e3⟩, e4⟩, e5⟩, e6⟩, e7⟩, e8⟩, e9⟩ := h0
  exact ⟨reals_of_all a0 _ _ _ e0, reals_of_all a2 _ _ _ e2, reals_of_all a3 _ _ _ e3, reals_of_all a4 _ _ _ e4,
    reals_of_all a5 _ _ _ e5, reals_of_all a6 _ _ _ e6, reals_of_all a7 _ _ _ e7, reals_of_all a8 _ _ _ e8,
    reals_of_all a9 _ _ _ e9⟩

end Cert.Finite
-- ==== Proof.LibScatterRows.lean ====
/-
  Reading the host's index operations at one element, at the ideal instance (every float an extended real, every
  operation exact): the accumulating scatter along axis 0 (rows of a matrix, entries of a flat array), the gather
  along axis 0, the concatenation of two flat arrays, the column of start indices built from a flat array, the
  iota, the wrap-around normalisation of a signed index, and the splitting of a finite sum over `A + B` terms.
  Everything is stated over generic extents and over any dimension record with the stated data, so that it applies
  to every program of this family.
-/
import Idealize.ShloMosaic.PureOps.Ideal
import Idealize.ShloMosaic.Lib.ValueIdx
import Idealize.ShloMosaic.Lib.Pipeline.Value

noncomputable section

open scoped BigOperators

namespace Cert.Lib.ScatterRows

open Idealize.ShloMosaic Idealize.ShloMosaic.ValueIdx

/-- A start index read as a signed integer and clamped into `[0, N − 1]`: a negative integer gives `0`
    (the natural-number part of a negative integer is `0`), one past the end gives `N − 1`. -/
def clampRow (N : Nat) (hN : 0 < N) (z : ℤ) : Fin N := ⟨min z.toNat (N - 1), by omega⟩

/-! ## Rows of a matrix: scatter-add and gather along axis 0 -/

section Rows
variable {N D E w : Nat}

/-- Row scatter, operand axis 0 (the row axis): the window of update `(e, c)` starts at the row index stored at
    `idx[e, 0]`, read as a signed integer and not clamped. -/
theorem start0 (wf) (j : (⟨2, ![E, D]⟩ : Shape).Idx) (idx : IVec ⟨2, ![E, 1]⟩ w) :
    (⟨[1], [0], [0], 1, wf⟩ : ScatterDims ⟨2, ![N, D]⟩ ⟨2, ![E, 1]⟩ ⟨2, ![E, D]⟩).start j idx 0
      = (idx (ix2 (j 0) 0)).toInt := by
  unfold ScatterDims.start
  rw [dif_pos (show (0 : Fin 2) ∈ [(0 : Fin 2)] from List.mem_singleton.mpr rfl)]
  congr 2
  funext b; refine Fin.ext ?_
  match b with
  | ⟨0, _⟩ => rfl
  | ⟨1, _⟩ => rfl

/-- Row scatter, operand axis 1 (the column axis): the scatter indices do not address it, so every window starts
    at column `0`. -/
theorem start1 (wf) (j : (⟨2, ![E, D]⟩ : Shape).Idx) (idx : IVec ⟨2, ![E, 1]⟩ w) :
    (⟨[1], [0], [0], 1, wf⟩ : ScatterDims ⟨2, ![N, D]⟩ ⟨2, ![E, 1]⟩ ⟨2, ![E, D]⟩).start j idx 1 = 0 := by
  unfold ScatterDims.start
  rw [dif_neg (show (1 : Fin 2) ∉ [(0 : Fin 2)] by decide)]

/-- Row scatter: the row axis is an inserted window axis, so the window coordinate on it is `0`. -/
theorem window0 (wf) (j : (⟨2, ![E, D]⟩ : Shape).Idx) :
    (⟨[1], [0], [0], 1, wf⟩ : ScatterDims ⟨2, ![N, D]⟩ ⟨2, ![E, 1]⟩ ⟨2, ![E, D]⟩).window j 0 = 0 := by
  have h0 : (0 : Fin 2) ∉ (⟨[1], [0], [0], 1, wf⟩ : ScatterDims ⟨2, ![N, D]⟩ ⟨2, ![E, 1]⟩ ⟨2, ![E, D]⟩).sKept := by
    show (0 : Fin 2) ∉ [(1 : Fin 2)]
    decide
  unfold ScatterDims.window
  rw [dif_neg h0]

/-- Row scatter: the column axis carries the update's own column, so the window coordinate of update `(e, c)`
    on it is `c`. -/
theorem window1 (wf) (j : (⟨2, ![E, D]⟩ : Shape).Idx) :
    (⟨[1], [0], [0], 1, wf⟩ : ScatterDims ⟨2, ![N, D]⟩ ⟨2, ![E, 1]⟩ ⟨2, ![E, D]⟩).window j 1 = (j 1).val := by
  have h1 : (1 : Fin 2) ∈ (⟨[1], [0], [0], 1, wf⟩ : ScatterDims ⟨2, ![N, D]⟩ ⟨2, ![E, 1]⟩ ⟨2, ![E, D]⟩).sKept := by
    show (1 : Fin 2) ∈ [(1 : Fin 2)]
    decide
  unfold ScatterDims.window
  rw [dif_pos h1]
  rfl

/-- WHERE AN UPDATE LANDS. Update element `(e, c)` of a row scatter lands on operand element `(i, j)` exactly
    when the row index `idx[e, 0]`, read signed, is `i` and the column is unchanged, `c = j`; an update whose row
    index is negative or at least `N` lands nowhere (it is dropped). -/
theorem resultIdx?_rows (wf) (idx : IVec ⟨2, ![E, 1]⟩ w) (e : Fin E) (j' : Fin D) (i : Fin N) (j : Fin D) :
    (⟨[1], [0], [0], 1, wf⟩ : ScatterDims ⟨2, ![N, D]⟩ ⟨2, ![E, 1]⟩ ⟨2, ![E, D]⟩).resultIdx? (ix2 e j') idx
        = some (ix2 i j)
      ↔ (idx (ix2 e 0)).toInt = (i.val : ℤ) ∧ j' = j := by
  have hs0 : (⟨[1], [0], [0], 1, wf⟩ : ScatterDims ⟨2, ![N, D]⟩ ⟨2, ![E, 1]⟩ ⟨2, ![E, D]⟩).start (ix2 e j') idx 0
      = (idx (ix2 e 0)).toInt := start0 wf (ix2 e j') idx
  have hs1 := start1 (N := N) wf (ix2 e j') idx
  have hw0 := window0 (N := N) (E := E) wf (ix2 e j')
  have hw1 : (⟨[1], [0], [0], 1, wf⟩ : ScatterDims ⟨2, ![N, D]⟩ ⟨2, ![E, 1]⟩ ⟨2, ![E, D]⟩).window (ix2 e j') 1
      = j'.val := window1 wf (ix2 e j')
  unfold ScatterDims.resultIdx?
  split
  next h =>
    rw [Option.some.injEq]
    have ha0 := (h 0).1
    rw [hs0, hw0] at ha0
    constructor
    · intro hf
      have h0 : ((⟨[1], [0], [0], 1, wf⟩ : ScatterDims ⟨2, ![N, D]⟩ ⟨2, ![E, 1]⟩ ⟨2, ![E, D]⟩).start (ix2 e j') idx 0
          + ((⟨[1], [0], [0], 1, wf⟩ : ScatterDims ⟨2, ![N, D]⟩ ⟨2, ![E, 1]⟩ ⟨2, ![E, D]⟩).window (ix2 e j') 0 : ℕ)).toNat = i.val :=
        congrArg Fin.val (congrFun hf 0)
      have h1 : ((⟨[1], [0], [0], 1, wf⟩ : ScatterDims ⟨2, ![N, D]⟩ ⟨2, ![E, 1]⟩ ⟨2, ![E, D]⟩).start (ix2 e j') idx 1
          + ((⟨[1], [0], [0], 1, wf⟩ : ScatterDims ⟨2, ![N, D]⟩ ⟨2, ![E, 1]⟩ ⟨2, ![E, D]⟩).window (ix2 e j') 1 : ℕ)).toNat = j.val :=
        congrArg Fin.val (congrFun hf 1)
      rw [hs0, hw0] at h0
      rw [hs1, hw1] at h1
      refine ⟨by omega, Fin.ext (by omega)⟩
    · rintro ⟨hz, rfl⟩
      funext a
      refine Fin.ext ?_
      match a with
      | ⟨0, _⟩ =>
        show ((⟨[1], [0], [0], 1, wf⟩ : ScatterDims ⟨2, ![N, D]⟩ ⟨2, ![E, 1]⟩ ⟨2, ![E, D]⟩).start (ix2 e j') idx 0
          + ((⟨[1], [0], [0], 1, wf⟩ : ScatterDims ⟨2, ![N, D]⟩ ⟨2, ![E, 1]⟩ ⟨2, ![E, D]⟩).window (ix2 e j') 0 : ℕ)).toNat = i.val
        rw [hs0, hw0, hz]; omega
      | ⟨1, _⟩ =>
        show ((⟨[1], [0], [0], 1, wf⟩ : ScatterDims ⟨2, ![N, D]⟩ ⟨2, ![E, 1]⟩ ⟨2, ![E, D]⟩).start (ix2 e j') idx 1
          + ((⟨[1], [0], [0], 1, wf⟩ : ScatterDims ⟨2, ![N, D]⟩ ⟨2, ![E, 1]⟩ ⟨2, ![E, D]⟩).window (ix2 e j') 1 : ℕ)).toNat = j'.val
        rw [hs1, hw1]; omega
  next h =>
    constructor
    · intro hf; exact absurd hf (by simp)
    · rintro ⟨hz, rfl⟩
      exfalso; apply h
      intro a
      match a with
      | ⟨0, _⟩ =>
        show 0 ≤ (⟨[1], [0], [0], 1, wf⟩ : ScatterDims ⟨2, ![N, D]⟩ ⟨2, ![E, 1]⟩ ⟨2, ![E, D]⟩).start (ix2 e j') idx 0
            + ((⟨[1], [0], [0], 1, wf⟩ : ScatterDims ⟨2, ![N, D]⟩ ⟨2, ![E, 1]⟩ ⟨2, ![E, D]⟩).window (ix2 e j') 0 : ℕ)
          ∧ (⟨[1], [0], [0], 1, wf⟩ : ScatterDims ⟨2, ![N, D]⟩ ⟨2, ![E, 1]⟩ ⟨2, ![E, D]⟩).start (ix2 e j') idx 0
            + ((⟨[1], [0], [0], 1, wf⟩ : ScatterDims ⟨2, ![N, D]⟩ ⟨2, ![E, 1]⟩ ⟨2, ![E, D]⟩).window (ix2 e j') 0 : ℕ) < (N : ℤ)
        rw [hs0, hw0, hz]; have := i.isLt; omega
      | ⟨1, _⟩ =>
        show 0 ≤ (⟨[1], [0], [0], 1, wf⟩ : ScatterDims ⟨2, ![N, D]⟩ ⟨2, ![E, 1]⟩ ⟨2, ![E, D]⟩).start (ix2 e j') idx 1
            + ((⟨[1], [0], [0], 1, wf⟩ : ScatterDims ⟨2, ![N, D]⟩ ⟨2, ![E, 1]⟩ ⟨2, ![E, D]⟩).window (ix2 e j') 1 : ℕ)
          ∧ (⟨[1], [0], [0], 1, wf⟩ : ScatterDims ⟨2, ![N, D]⟩ ⟨2, ![E, 1]⟩ ⟨2, ![E, D]⟩).start (ix2 e j') idx 1
            + ((⟨[1], [0], [0], 1, wf⟩ : ScatterDims ⟨2, ![N, D]⟩ ⟨2, ![E, 1]⟩ ⟨2, ![E, D]⟩).window (ix2 e j') 1 : ℕ) < (D : ℤ)
        rw [hs1, hw1]; have := j'.isLt; omega

/-- THE ROW SCATTER-ADD READ AT `(i, j)`. Scattering the rows of `upd : [E, D]` into `x : [N, D]` at the row
    indices `idx : [E, 1]` and adding: element `(i, j)` of the result is `x[i, j]` plus the sum, over all updates
    `e` whose row index `idx[e, 0]` (read signed) equals `i`, of `upd[e, j]`. Stated for any dimension record
    whose data are those of a row scatter (window axis `1`, inserted axis `0`, index map `[0]`, index vector on
    axis `1`). -/
theorem scatterAdd_rows_apply (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1)
    (x : (⟨2, ![N, D]⟩ : Shape).Idx → EReal) (idx : IVec ⟨2, ![E, 1]⟩ w) (upd : (⟨2, ![E, D]⟩ : Shape).Idx → EReal)
    (i : Fin N) (j : Fin D) :
    Ideal.hostScatterAdd d x idx upd (ix2 i j)
      = x (ix2 i j) + ∑ e : Fin E, if (idx (ix2 e 0)).toInt = (i.val : ℤ) then upd (ix2 e j) else 0 := by
  obtain ⟨uw, iw, sd, iv, wf⟩ := d
  subst h1 h2 h3 h4
  unfold Ideal.hostScatterAdd
  congr 1
  rw [Finset.sum_filter, sum_idx2]
  refine Finset.sum_congr rfl fun e _ => ?_
  refine (Finset.sum_congr rfl fun j' _ => if_congr (resultIdx?_rows wf idx e j' i j) rfl rfl).trans ?_
  by_cases hz : (idx (ix2 e 0)).toInt = (i.val : ℤ)
  · simp only [hz, true_and]
    rw [Finset.sum_ite_eq']
    simp
  · simp [hz]

/-- The same read for the float instance's scatter-add at the ideal instance, at any schedule key: there it is the
    exact sum above, whatever the key. -/
theorem floatOps_scatterAdd_rows_apply {φ : FTy} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1) (sched : HostSchedule)
    (x : FVec Ideal ⟨2, ![N, D]⟩ φ) (idx : IVec ⟨2, ![E, 1]⟩ w) (upd : FVec Ideal ⟨2, ![E, D]⟩ φ)
    (i : Fin N) (j : Fin D) :
    FloatOps.hostScatterAdd (F := Ideal) d sched x idx upd (ix2 i j)
      = x (ix2 i j) + ∑ e : Fin E, if (idx (ix2 e 0)).toInt = (i.val : ℤ) then upd (ix2 e j) else 0 :=
  scatterAdd_rows_apply d h1 h2 h3 h4 x idx upd i j

/-- The same read for the host's accumulating scatter of a one-device program, at the ideal instance. -/
theorem host_scatterAdd_rows_apply {φ : FTy} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1)
    (x : FVec Ideal ⟨2, ![N, D]⟩ φ) (idx : IVec ⟨2, ![E, 1]⟩ w) (upd : FVec Ideal ⟨2, ![E, D]⟩ φ)
    (i : Fin N) (j : Fin D) :
    Host.scatterAdd (F := Ideal) d x idx upd (ix2 i j)
      = x (ix2 i j) + ∑ e : Fin E, if (idx (ix2 e 0)).toInt = (i.val : ℤ) then upd (ix2 e j) else 0 :=
  scatterAdd_rows_apply d h1 h2 h3 h4 x idx upd i j

/-- THE ROW GATHER READ AT `(e, j)`. Gathering whole rows of `x : [N, D]` at the row indices `idx : [E, 1]`:
    element `(e, j)` of the result is `x[r, j]`, where `r` is the row index `idx[e, 0]` read as a signed
    integer and clamped into `[0, N − 1]` (the gather clamps every start index so that the slice fits). Stated for
    any dimension record whose data are those of a row gather (offset axis `1`, collapsed axis `0`, index map
    `[0]`, index vector on axis `1`, slices `1 × D`, no batching axes). -/
theorem gather_rows_apply {α : Type} (hN : 0 < N) (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
    (x : (⟨2, ![N, D]⟩ : Shape).Idx → α) (idx : IVec ⟨2, ![E, 1]⟩ w) (e : Fin E) (j : Fin D) :
    Host.gather d x idx (ix2 e j) = x (ix2 (clampRow N hN (idx (ix2 e 0)).toInt) j) := by
  obtain ⟨od, cd, ob, sb, sm, iv, ss, wf⟩ := d
  subst h1 h2 h3 h4 h5 h6 h7
  unfold Host.gather
  congr 1
  funext a
  refine Fin.ext ?_
  match a with
  | ⟨0, _⟩ =>
    show (⟨[1], [0], [], [], [0], 1, ![1, D], wf⟩ : GatherDims ⟨2, ![N, D]⟩ ⟨2, ![E, 1]⟩ ⟨2, ![E, D]⟩).start (ix2 e j) idx 0 + (⟨[1], [0], [], [], [0], 1, ![1, D], wf⟩ : GatherDims ⟨2, ![N, D]⟩ ⟨2, ![E, 1]⟩ ⟨2, ![E, D]⟩).batchCoord (ix2 e j) 0 + (⟨[1], [0], [], [], [0], 1, ![1, D], wf⟩ : GatherDims ⟨2, ![N, D]⟩ ⟨2, ![E, 1]⟩ ⟨2, ![E, D]⟩).offCoord (ix2 e j) 0
      = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ [(0 : Fin 2)] from List.mem_singleton.mpr rfl)]
    have hsi : (⟨[1], [0], [], [], [0], 1, ![1, D], wf⟩ : GatherDims ⟨2, ![N, D]⟩ ⟨2, ![E, 1]⟩ ⟨2, ![E, D]⟩).siIdx (ix2 e j) ⟨List.idxOf (0 : Fin 2) [(0 : Fin 2)],
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (⟨[1], [0], [], [], [0], 1, ![1, D], wf⟩ : GatherDims ⟨2, ![N, D]⟩ ⟨2, ![E, 1]⟩ ⟨2, ![E, D]⟩).start (ix2 e j) idx 1 + (⟨[1], [0], [], [], [0], 1, ![1, D], wf⟩ : GatherDims ⟨2, ![N, D]⟩ ⟨2, ![E, 1]⟩ ⟨2, ![E, D]⟩).batchCoord (ix2 e j) 1 + (⟨[1], [0], [], [], [0], 1, ![1, D], wf⟩ : GatherDims ⟨2, ![N, D]⟩ ⟨2, ![E, 1]⟩ ⟨2, ![E, D]⟩).offCoord (ix2 e j) 1 = j.val
    have hk : (1 : Fin 2) ∈ (⟨[1], [0], [], [], [0], 1, ![1, D], wf⟩ : GatherDims ⟨2, ![N, D]⟩ ⟨2, ![E, 1]⟩ ⟨2, ![E, D]⟩).sKept := by
      show (1 : Fin 2) ∈ [(1 : Fin 2)]
      decide
    rw [GatherDims.batchCoord_eq_zero _ _ _ List.not_mem_nil]
    unfold GatherDims.start
    rw [dif_neg (show (1 : Fin 2) ∉ [(0 : Fin 2)] by decide)]
    unfold GatherDims.offCoord
    rw [dif_pos hk]
    simp only [Nat.zero_add, Nat.add_zero]
    rfl

end Rows

/-! ## Entries of a flat array: scatter-add and gather along its one axis -/

section Flat
variable {N E w : Nat}

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Flat scatter: the window of update `e` starts at the index stored at `idx[e, 0]`, read as a signed integer
    and not clamped. -/
theorem startFlat (wf) (j : (⟨1, ![E]⟩ : Shape).Idx) (idx : IVec ⟨2, ![E, 1]⟩ w) :
    (⟨[], [0], [0], 1, wf⟩ : ScatterDims ⟨1, ![N]⟩ ⟨2, ![E, 1]⟩ ⟨1, ![E]⟩).start j idx 0 = (idx (ix2 (j 0) 0)).toInt := by
  unfold ScatterDims.start
  rw [dif_pos (show (0 : Fin 1) ∈ [(0 : Fin 1)] from List.mem_singleton.mpr rfl)]
  congr 2
  funext b; refine Fin.ext ?_
  match b with
  | ⟨0, _⟩ => rfl
  | ⟨1, _⟩ => rfl

/-- Flat scatter: the one operand axis is an inserted window axis, so the window coordinate on it is `0`. -/
theorem windowFlat (wf) (j : (⟨1, ![E]⟩ : Shape).Idx) : (⟨[], [0], [0], 1, wf⟩ : ScatterDims ⟨1, ![N]⟩ ⟨2, ![E, 1]⟩ ⟨1, ![E]⟩).window j 0 = 0 := by
  have h0 : (0 : Fin 1) ∉ (⟨[], [0], [0], 1, wf⟩ : ScatterDims ⟨1, ![N]⟩ ⟨2, ![E, 1]⟩ ⟨1, ![E]⟩).sKept := by
    show (0 : Fin 1) ∉ ([] : List (Fin 1))
    decide
  unfold ScatterDims.window
  rw [dif_neg h0]

/-- WHERE A FLAT UPDATE LANDS. Update element `e` of a flat scatter lands on operand element `i` exactly when the
    index `idx[e, 0]`, read signed, is `i`; an update whose index is negative or at least `N` is dropped. -/
theorem resultIdx?_flat (wf) (idx : IVec ⟨2, ![E, 1]⟩ w) (e : Fin E) (i : Fin N) :
    (⟨[], [0], [0], 1, wf⟩ : ScatterDims ⟨1, ![N]⟩ ⟨2, ![E, 1]⟩ ⟨1, ![E]⟩).resultIdx? (ix1 e) idx = some (ix1 i) ↔ (idx (ix2 e 0)).toInt = (i.val : ℤ) := by
  have hs0 : (⟨[], [0], [0], 1, wf⟩ : ScatterDims ⟨1, ![N]⟩ ⟨2, ![E, 1]⟩ ⟨1, ![E]⟩).start (ix1 e) idx 0 = (idx (ix2 e 0)).toInt := startFlat wf (ix1 e) idx
  have hw0 := windowFlat (N := N) (E := E) wf (ix1 e)
  unfold ScatterDims.resultIdx?
  split
  next h =>
    rw [Option.some.injEq]
    have ha0 := (h 0).1
    rw [hs0, hw0] at ha0
    constructor
    · intro hf
      have h0 : ((⟨[], [0], [0], 1, wf⟩ : ScatterDims ⟨1, ![N]⟩ ⟨2, ![E, 1]⟩ ⟨1, ![E]⟩).start (ix1 e) idx 0 + ((⟨[], [0], [0], 1, wf⟩ : ScatterDims ⟨1, ![N]⟩ ⟨2, ![E, 1]⟩ ⟨1, ![E]⟩).window (ix1 e) 0 : ℕ)).toNat = i.val :=
        congrArg Fin.val (congrFun hf 0)
      rw [hs0, hw0] at h0
      omega
    · intro hz
      funext a
      refine Fin.ext ?_
      match a with
      | ⟨0, _⟩ =>
        show ((⟨[], [0], [0], 1, wf⟩ : ScatterDims ⟨1, ![N]⟩ ⟨2, ![E, 1]⟩ ⟨1, ![E]⟩).start (ix1 e) idx 0 + ((⟨[], [0], [0], 1, wf⟩ : ScatterDims ⟨1, ![N]⟩ ⟨2, ![E, 1]⟩ ⟨1, ![E]⟩).window (ix1 e) 0 : ℕ)).toNat = i.val
        rw [hs0, hw0, hz]; omega
  next h =>
    constructor
    · intro hf; exact absurd hf (by simp)
    · intro hz
      exfalso; apply h
      intro a
      match a with
      | ⟨0, _⟩ =>
        show 0 ≤ (⟨[], [0], [0], 1, wf⟩ : ScatterDims ⟨1, ![N]⟩ ⟨2, ![E, 1]⟩ ⟨1, ![E]⟩).start (ix1 e) idx 0 + ((⟨[], [0], [0], 1, wf⟩ : ScatterDims ⟨1, ![N]⟩ ⟨2, ![E, 1]⟩ ⟨1, ![E]⟩).window (ix1 e) 0 : ℕ)
          ∧ (⟨[], [0], [0], 1, wf⟩ : ScatterDims ⟨1, ![N]⟩ ⟨2, ![E, 1]⟩ ⟨1, ![E]⟩).start (ix1 e) idx 0 + ((⟨[], [0], [0], 1, wf⟩ : ScatterDims ⟨1, ![N]⟩ ⟨2, ![E, 1]⟩ ⟨1, ![E]⟩).window (ix1 e) 0 : ℕ) < (N : ℤ)
        rw [hs0, hw0, hz]; have := i.isLt; omega

/-- THE FLAT SCATTER-ADD READ AT `i`. Scattering the entries of `upd : [E]` into `x : [N]` at the indices
    `idx : [E, 1]` and adding: entry `i` of the result is `x[i]` plus the sum, over all updates `e` whose index
    `idx[e, 0]` (read signed) equals `i`, of `upd[e]`. Stated for any dimension record whose data are those of a
    flat scatter (no window axis, inserted axis `0`, index map `[0]`, index vector on axis `1`). -/
theorem scatterAdd_flat_apply (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
    (x : (⟨1, ![N]⟩ : Shape).Idx → EReal) (idx : IVec ⟨2, ![E, 1]⟩ w) (upd : (⟨1, ![E]⟩ : Shape).Idx → EReal)
    (i : Fin N) :
    Ideal.hostScatterAdd d x idx upd (ix1 i)
      = x (ix1 i) + ∑ e : Fin E, if (idx (ix2 e 0)).toInt = (i.val : ℤ) then upd (ix1 e) else 0 := by
  obtain ⟨uw, iw, sd, iv, wf⟩ := d
  subst h1 h2 h3 h4
  unfold Ideal.hostScatterAdd
  congr 1
  rw [Finset.sum_filter, sum_idx1]
  exact Finset.sum_congr rfl fun e _ => if_congr (resultIdx?_flat wf idx e i) rfl rfl

/-- The same read for the float instance's scatter-add at the ideal instance, at any schedule key. -/
theorem floatOps_scatterAdd_flat_apply {φ : FTy} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (sched : HostSchedule)
    (x : FVec Ideal ⟨1, ![N]⟩ φ) (idx : IVec ⟨2, ![E, 1]⟩ w) (upd : FVec Ideal ⟨1, ![E]⟩ φ) (i : Fin N) :
    FloatOps.hostScatterAdd (F := Ideal) d sched x idx upd (ix1 i)
      = x (ix1 i) + ∑ e : Fin E, if (idx (ix2 e 0)).toInt = (i.val : ℤ) then upd (ix1 e) else 0 :=
  scatterAdd_flat_apply d h1 h2 h3 h4 x idx upd i

/-- The same read for the host's accumulating scatter of a one-device program, at the ideal instance. -/
theorem host_scatterAdd_flat_apply {φ : FTy} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
    (x : FVec Ideal ⟨1, ![N]⟩ φ) (idx : IVec ⟨2, ![E, 1]⟩ w) (upd : FVec Ideal ⟨1, ![E]⟩ φ) (i : Fin N) :
    Host.scatterAdd (F := Ideal) d x idx upd (ix1 i)
      = x (ix1 i) + ∑ e : Fin E, if (idx (ix2 e 0)).toInt = (i.val : ℤ) then upd (ix1 e) else 0 :=
  scatterAdd_flat_apply d h1 h2 h3 h4 x idx upd i

/-- THE FLAT GATHER READ AT `e`. Gathering entries of `x : [N]` at the indices `idx : [E, 1]`: entry `e` of the
    result is `x[r]`, where `r` is the index `idx[e, 0]` read as a signed integer and clamped into `[0, N − 1]`.
    Stated for any dimension record whose data are those of a flat gather (no offset axis, collapsed axis `0`,
    index map `[0]`, index vector on axis `1`, slices of one entry, no batching axes). -/
theorem gather_flat_apply {α : Type} (hN : 0 < N) (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (x : (⟨1, ![N]⟩ : Shape).Idx → α) (idx : IVec ⟨2, ![E, 1]⟩ w) (e : Fin E) :
    Host.gather d x idx (ix1 e) = x (ix1 (clampRow N hN (idx (ix2 e 0)).toInt)) := by
  obtain ⟨od, cd, ob, sb, sm, iv, ss, wf⟩ := d
  subst h1 h2 h3 h4 h5 h6 h7
  unfold Host.gather
  congr 1
  funext a
  refine Fin.ext ?_
  match a with
  | ⟨0, _⟩ =>
    show (⟨[], [0], [], [], [0], 1, ![1], wf⟩ : GatherDims ⟨1, ![N]⟩ ⟨2, ![E, 1]⟩ ⟨1, ![E]⟩).start (ix1 e) idx 0 + (⟨[], [0], [], [], [0], 1, ![1], wf⟩ : GatherDims ⟨1, ![N]⟩ ⟨2, ![E, 1]⟩ ⟨1, ![E]⟩).batchCoord (ix1 e) 0 + (⟨[], [0], [], [], [0], 1, ![1], wf⟩ : GatherDims ⟨1, ![N]⟩ ⟨2, ![E, 1]⟩ ⟨1, ![E]⟩).offCoord (ix1 e) 0
      = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ [(0 : Fin 1)] from List.mem_singleton.mpr rfl)]
    have hsi : (⟨[], [0], [], [], [0], 1, ![1], wf⟩ : GatherDims ⟨1, ![N]⟩ ⟨2, ![E, 1]⟩ ⟨1, ![E]⟩).siIdx (ix1 e) ⟨List.idxOf (0 : Fin 1) [(0 : Fin 1)],
        List.idxOf_lt_length_iff.2 (List.mem_singleton.mpr rfl)⟩ = ix2 e 0 := by
      funext b; refine Fin.ext ?_
      match b with
      | ⟨0, _⟩ => rfl
      | ⟨1, _⟩ => rfl
    rw [hsi]
    rfl

end Flat

/-! ## Two flat arrays laid end to end -/

section Concat
variable {α : Type}

/-- THE CONCATENATION OF TWO FLAT ARRAYS READ AT `e`: below `A` it is the first array at `e`, from `A` on the
    second array at `e − A`. -/
theorem concatenate_flat_apply {A B C : Nat} (hC : C = A + B)
    (a : (⟨1, ![A]⟩ : Shape).Idx → α) (b : (⟨1, ![B]⟩ : Shape).Idx → α)
    (h : Shape.Concatenates [(⟨1, ![A]⟩ : Shape), ⟨1, ![B]⟩] ⟨1, ![C]⟩ 0) (e : Fin C) :
    concatenate ⟨1, ![C]⟩ 0 [⟨⟨1, ![A]⟩, a⟩, ⟨⟨1, ![B]⟩, b⟩] h (ix1 e)
      = if hlt : e.val < A then a (ix1 ⟨e.val, hlt⟩) else b (ix1 ⟨e.val - A, by omega⟩) := by
  by_cases hlt : e.val < A
  · rw [dif_pos hlt]
    refine concatenate_pair_apply_left 0 a b h (ix1 e) rfl (ix1 ⟨e.val, hlt⟩) ?_
    intro b1
    match b1 with
    | ⟨0, _⟩ => rfl
  · rw [dif_neg hlt]
    refine concatenate_pair_apply_right 0 a b h (ix1 e) rfl rfl (ix1 ⟨e.val - A, by omega⟩) ?_ ?_
    · intro b1 hb
      match b1 with
      | ⟨0, _⟩ => exact absurd rfl hb
    · show e.val - A + A = e.val
      omega

end Concat

/-! ## The column of start indices, the iota, and the normalisation of a signed index -/

section Words
variable {α : Type}

/-- A flat array `v : [E]` broadcast to a column `[E, 1]` along axis 0 reads `v[e]` at `(e, 0)`. -/
theorem broadcastInDim_col_apply {E : Nat} (h : (⟨1, ![E]⟩ : Shape).BroadcastsInDim ⟨2, ![E, 1]⟩ ![0])
    (v : (⟨1, ![E]⟩ : Shape).Idx → α) (e : Fin E) :
    broadcastInDim ⟨2, ![E, 1]⟩ ![0] h v (ix2 e 0) = v (ix1 e) := by
  unfold broadcastInDim
  congr 1
  funext a
  refine Fin.ext ?_
  match a with
  | ⟨0, _⟩ =>
    show (if h1 : E = 1 then (⟨0, by omega⟩ : Fin E) else ⟨e.val, e.isLt⟩).val = e.val
    split
    · have := e.isLt; show 0 = e.val; omega
    · rfl

/-- The iota along the one axis of a flat array reads the position `k`, as a 32-bit word. -/
theorem iotaInDim_flat_apply {N : Nat} (k : Fin N) : iotaInDim ⟨1, ![N]⟩ 32 0 (ix1 k) = BitVec.ofNat 32 k.val := rfl

/-- A natural number below `2³¹`, written as a 32-bit word and read back signed, is itself. -/
theorem toInt_ofNat_small (k : Nat) (hk : k < 2 ^ 31) : (BitVec.ofNat 32 k).toInt = (k : ℤ) := by
  rw [BitVec.toInt_ofNat']
  unfold Int.bmod
  simp only []
  split <;> omega

/-- THE NORMALISATION OF A SIGNED INDEX. "If `s` is negative take `s + n`, else `s`", computed on 32-bit words
    with `n` below `2³¹`, is the same computation on the integers: the sum cannot wrap, since a negative `s` is at
    least `−2³¹`, so `s + n` lies in `[−2³¹, 2³¹)`. -/
theorem nrm_toInt (s : BitVec 32) (n : Nat) (hn : n < 2 ^ 31) :
    (Scalar.select (IntOp.cmpi .slt s 0#32) (IntOp.addi s (BitVec.ofNat 32 n)) s).toInt
      = if s.toInt < 0 then s.toInt + (n : ℤ) else s.toInt := by
  have hlo : -2 ^ (32 - 1) ≤ s.toInt := BitVec.le_toInt s
  have hhi : s.toInt < 2 ^ (32 - 1) := BitVec.toInt_lt
  unfold Scalar.select IntOp.cmpi IntOp.addi
  simp only [BitVec.slt_eq_decide, BitVec.toInt_zero]
  by_cases h : s.toInt < 0
  · rw [if_pos (by simp [h]), if_pos h, BitVec.toInt_add, toInt_ofNat_small n hn]
    unfold Int.bmod
    simp only []
    split <;> omega
  · rw [if_neg (by simp [h]), if_neg h]

end Words

/-! ## A sum over `A + B` terms -/

/-- A finite sum over `C = A + B` terms is the sum of its first `A` terms plus the sum of its last `B` terms. -/
theorem sum_fin_add {M : Type*} [AddCommMonoid M] {A B C : Nat} (hC : C = A + B) (f : Fin C → M) :
    ∑ e : Fin C, f e = ∑ e : Fin A, f ⟨e.val, by omega⟩ + ∑ k : Fin B, f ⟨A + k.val, by omega⟩ := by
  subst hC
  rw [Fin.sum_univ_add]
  rfl

/-- The same splitting for extended-real terms. -/
theorem sum_fin_add_ereal {A B C : Nat} (hC : C = A + B) (f : Fin C → EReal) :
    ∑ e : Fin C, f e = ∑ e : Fin A, f ⟨e.val, by omega⟩ + ∑ k : Fin B, f ⟨A + k.val, by omega⟩ :=
  sum_fin_add hC f

end Cert.Lib.ScatterRows

end
-- ==== Proof.LayerMath.lean ====
/-
  The mathematics that joins the two programs' layers.

  One program scales every gathered row by the product of the factors of the edge's two end nodes and sums the rows
  at the edges' targets; the other scales by the source's factor only, sums, and multiplies the sum by the target
  node's own factor. Every edge that is summed at node `i` has target `i`, so the second factor is the same number
  in every term of the sum, and — all the numbers being real — it can be taken out of the sum. On the extended
  reals this last step needs the terms to be real (a product does not distribute over a sum of opposite
  infinities), which is why the finiteness of the inputs is used.

  Also here: the broadcasts and casts of small shapes read at an index, and the two layers' cores (a scatter-add of
  gathered rows) read at an index for any dimension records with the data of a row scatter and a row gather.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«105999_j16286515986672_1_alg».proof.Proof.Spec
import proofs.«105999_j16286515986672_1_alg».proof.Proof.LibScatterRows

noncomputable section

open scoped BigOperators

namespace Cert.LayerMath

open Idealize.ShloMosaic Idealize.ShloMosaic.ValueIdx Cert.Lib.ScatterRows

/-! ## Sums of real numbers inside the extended reals -/

/-- The inclusion of the reals commutes with finite sums. -/
theorem coe_sum {ι : Type} (s : Finset ι) (g : ι → ℝ) : ((∑ i ∈ s, g i : ℝ) : EReal) = ∑ i ∈ s, (g i : EReal) := by
  classical
  refine Finset.induction_on s (by simp) ?_
  intro a s ha ih
  rw [Finset.sum_insert ha, Finset.sum_insert ha, EReal.coe_add, ih]

/-- A sum that keeps only the terms with a property, all of them real, is the real sum of the same terms. -/
theorem sum_ite_real {E : Type} [Fintype E] (P : E → Prop) [DecidablePred P] (t : E → ℝ) :
    (∑ e, if P e then ((t e : ℝ) : EReal) else 0) = ((∑ e, (if P e then t e else 0) : ℝ) : EReal) := by
  rw [coe_sum]
  refine Finset.sum_congr rfl fun e _ => ?_
  by_cases hp : P e
  · rw [if_pos hp, if_pos hp]
  · rw [if_neg hp, if_neg hp, EReal.coe_zero]

/-- THE LAW. Real terms `x e · s e`, kept where `P e` holds, summed and then multiplied by a real `c`, are the sum of
    the terms `x e · (s e · d e)` kept where `P e` holds, provided `d e = c` wherever `P e` holds. -/
theorem factor_out {E : Type} [Fintype E] (P : E → Prop) [DecidablePred P] (x s d : E → EReal) (c : EReal)
    (hx : ∀ e, ∃ r : ℝ, x e = (r : EReal)) (hs : ∀ e, ∃ r : ℝ, s e = (r : EReal)) (hc : ∃ r : ℝ, c = (r : EReal))
    (hd : ∀ e, P e → d e = c) :
    (∑ e, if P e then x e * s e else 0) * c = ∑ e, if P e then x e * (s e * d e) else 0 := by
  choose xr hxr using hx
  choose sr hsr using hs
  obtain ⟨cr, rfl⟩ := hc
  have hL : (∑ e, if P e then x e * s e else 0) = ((∑ e, (if P e then xr e * sr e else 0) : ℝ) : EReal) := by
    rw [← sum_ite_real P (fun e => xr e * sr e)]
    refine Finset.sum_congr rfl fun e _ => ?_
    rw [hxr e, hsr e, EReal.coe_mul]
  have hR : (∑ e, if P e then x e * (s e * d e) else 0)
      = ((∑ e, (if P e then xr e * (sr e * cr) else 0) : ℝ) : EReal) := by
    rw [← sum_ite_real P (fun e => xr e * (sr e * cr))]
    refine Finset.sum_congr rfl fun e _ => ?_
    by_cases hp : P e
    · rw [if_pos hp, if_pos hp, hd e hp, hxr e, hsr e, EReal.coe_mul, EReal.coe_mul]
    · rw [if_neg hp, if_neg hp]
  rw [hL, hR, ← EReal.coe_mul]
  congr 1
  rw [Finset.sum_mul]
  refine Finset.sum_congr rfl fun e _ => ?_
  by_cases hp : P e
  · rw [if_pos hp, if_pos hp]; ring
  · rw [if_neg hp, if_neg hp, zero_mul]

/-- A sum of real terms kept where a property holds is a real number. -/
theorem real_sum_ite {E : Type} [Fintype E] (P : E → Prop) [DecidablePred P] (t : E → EReal)
    (ht : ∀ e, ∃ r : ℝ, t e = (r : EReal)) : ∃ r : ℝ, (∑ e, if P e then t e else 0) = (r : EReal) := by
  choose tr htr using ht
  refine ⟨∑ e, (if P e then tr e else 0), ?_⟩
  rw [← sum_ite_real P tr]
  exact Finset.sum_congr rfl fun e _ => by rw [htr e]

/-- A finite sum of real terms is a real number. -/
theorem real_sum {E : Type} [Fintype E] (t : E → EReal) (ht : ∀ e, ∃ r : ℝ, t e = (r : EReal)) :
    ∃ r : ℝ, (∑ e, t e) = (r : EReal) := by
  choose tr htr using ht
  exact ⟨∑ e, tr e, by rw [coe_sum]; exact Finset.sum_congr rfl fun e _ => htr e⟩

/-- What a layer leaves at one entry — a real sum times a real, plus a real, clamped at zero — is a real number. -/
theorem real_clamp (S c β : EReal) (hS : ∃ r : ℝ, S = (r : EReal)) (hc : ∃ r : ℝ, c = (r : EReal))
    (hβ : ∃ r : ℝ, β = (r : EReal)) : ∃ r : ℝ, max ((0 + S) * c + β) 0 = (r : EReal) := by
  obtain ⟨a, rfl⟩ := hS
  obtain ⟨b, rfl⟩ := hc
  obtain ⟨g, rfl⟩ := hβ
  refine ⟨max (a * b + g) 0, ?_⟩
  rw [zero_add, ← EReal.coe_mul, ← EReal.coe_add, ← EReal.coe_zero]
  exact (EReal.coe_strictMono.monotone.map_max).symm

/-! ## Broadcasts and casts of small shapes read at an index -/

section Layout
variable {α : Type}

/-- A column `[n, 1]` broadcast along the rows to `[n, d]` reads, at `(i, f)`, the column's entry `i`. -/
theorem bcast_col_apply {n d : Nat} (p : (⟨2, ![n, 1]⟩ : Shape).BroadcastsInDim ⟨2, ![n, d]⟩ ![0, 1])
    (v : (⟨2, ![n, 1]⟩ : Shape).Idx → α) (i : Fin n) (f : Fin d) :
    broadcastInDim ⟨2, ![n, d]⟩ ![0, 1] p v (ix2 i f) = v (ix2 i 0) :=
  broadcastInDim_apply _ p v _ _ (by
    intro a
    match a with
    | ⟨0, _⟩ =>
      show i.val = if n = 1 then 0 else i.val
      split
      · have := i.isLt; omega
      · rfl
    | ⟨1, _⟩ => rfl)

/-- A row `[1, d]` broadcast down the columns to `[n, d]` reads, at `(i, f)`, the row's entry `f`. -/
theorem bcast_row_apply {n d : Nat} (p : (⟨2, ![1, d]⟩ : Shape).BroadcastsInDim ⟨2, ![n, d]⟩ ![0, 1])
    (v : (⟨2, ![1, d]⟩ : Shape).Idx → α) (i : Fin n) (f : Fin d) :
    broadcastInDim ⟨2, ![n, d]⟩ ![0, 1] p v (ix2 i f) = v (ix2 0 f) :=
  broadcastInDim_apply _ p v _ _ (by
    intro a
    match a with
    | ⟨0, _⟩ => rfl
    | ⟨1, _⟩ =>
      show f.val = if d = 1 then 0 else f.val
      split
      · have := f.isLt; omega
      · rfl)

/-- A flat array `[d]` laid as a row `[1, d]` (a broadcast along a new leading axis) reads, at `(0, f)`, its entry `f`. -/
theorem bcast_flat_row_apply {d : Nat} (p : (⟨1, ![d]⟩ : Shape).BroadcastsInDim ⟨2, ![1, d]⟩ ![1])
    (v : (⟨1, ![d]⟩ : Shape).Idx → α) (f : Fin d) :
    broadcastInDim ⟨2, ![1, d]⟩ ![1] p v (ix2 0 f) = v (ix1 f) :=
  broadcastInDim_apply _ p v _ _ (by
    intro a
    match a with
    | ⟨0, _⟩ =>
      show f.val = if d = 1 then 0 else f.val
      split
      · have := f.isLt; omega
      · rfl)

/-- A flat array `[n]` cast to a column `[n, 1]` reads, at `(i, 0)`, its entry `i`. -/
theorem cast_flat_col_apply {n : Nat} (h : (⟨1, ![n]⟩ : Shape).ShapeCasts ⟨2, ![n, 1]⟩)
    (v : (⟨1, ![n]⟩ : Shape).Idx → α) (i : Fin n) :
    shapeCast ⟨2, ![n, 1]⟩ v h (ix2 i 0) = v (ix1 i) :=
  shapeCast_apply v h _ _ (by
    rw [Shape.rowMajor_val_two, Shape.rowMajor_val_one]
    show i.val = i.val * 1 + 0
    omega)

end Layout

/-! ## The two layers' cores read at an index -/

section Reads
variable {N E D : Nat}

/-- ONE PROGRAM'S CORE at `(i, f)`: the rows of `xw · dB` (entry by entry) gathered at the edges' sources, summed at
    the edges' targets, then the row scaled by `dcol`, the bias `brow` added, and the result clamped at zero. -/
theorem scaled_sum_read (hN : 0 < N)
    (sc : ScatterDims ⟨2, ![N, D]⟩ ⟨2, ![E, 1]⟩ ⟨2, ![E, D]⟩)
    (s1 : sc.updateWindowDims = [1]) (s2 : sc.insertedWindowDims = [0]) (s3 : sc.scatterDimsToOperandDims = [0])
    (s4 : sc.indexVectorDim = 1)
    (g : GatherDims ⟨2, ![N, D]⟩ ⟨2, ![E, 1]⟩ ⟨2, ![E, D]⟩)
    (g1 : g.offsetDims = [1]) (g2 : g.collapsedSliceDims = [0]) (g3 : g.operandBatchingDims = [])
    (g4 : g.startIndicesBatchingDims = []) (g5 : g.startIndexMap = [0]) (g6 : g.indexVectorDim = 1)
    (g7 : g.sliceSizes = ![1, D])
    (Z xw dB : FVec Ideal ⟨2, ![N, D]⟩ .f32) (dcol : FVec Ideal ⟨2, ![N, 1]⟩ .f32) (brow : FVec Ideal ⟨2, ![1, D]⟩ .f32)
    (srcW dstC : IVec ⟨2, ![E, 1]⟩ 32) (i : Fin N) (f : Fin D) (hZ : Z (ix2 i f) = 0) :
    Spec.sbr (Host.scatterAdd (F := Ideal) sc Z dstC (Host.gather g (mulf (F := Ideal) xw dB) srcW)) dcol brow (ix2 i f)
      = max ((0 + ∑ e : Fin E, if (dstC (ix2 e 0)).toInt = (i.val : ℤ)
            then xw (ix2 (clampRow N hN (srcW (ix2 e 0)).toInt) f) * dB (ix2 (clampRow N hN (srcW (ix2 e 0)).toInt) f)
            else 0) * dcol (ix2 i 0) + brow (ix2 0 f)) 0 := by
  have hg : ∀ e : Fin E, Host.gather g (mulf (F := Ideal) xw dB) srcW (ix2 e f)
      = xw (ix2 (clampRow N hN (srcW (ix2 e 0)).toInt) f) * dB (ix2 (clampRow N hN (srcW (ix2 e 0)).toInt) f) := fun e => by
    rw [gather_rows_apply hN g g1 g2 g3 g4 g5 g6 g7]; rfl
  show max (Host.scatterAdd (F := Ideal) sc Z dstC (Host.gather g (mulf (F := Ideal) xw dB) srcW) (ix2 i f)
      * dcol (ix2 i 0) + brow (ix2 0 f)) 0 = _
  rw [host_scatterAdd_rows_apply sc s1 s2 s3 s4, hZ]
  simp only [hg]

/-- THE OTHER PROGRAM'S CORE at `(i, f)`: the rows of `xw` gathered at the edges' sources, each scaled by the product
    of the factors of the edge's two end nodes, summed at the edges' targets, the bias `B` added, clamped at zero. -/
theorem weighted_sum_read (hN : 0 < N)
    (sc : ScatterDims ⟨2, ![N, D]⟩ ⟨2, ![E, 1]⟩ ⟨2, ![E, D]⟩)
    (s1 : sc.updateWindowDims = [1]) (s2 : sc.insertedWindowDims = [0]) (s3 : sc.scatterDimsToOperandDims = [0])
    (s4 : sc.indexVectorDim = 1)
    (g : GatherDims ⟨2, ![N, D]⟩ ⟨2, ![E, 1]⟩ ⟨2, ![E, D]⟩)
    (g1 : g.offsetDims = [1]) (g2 : g.collapsedSliceDims = [0]) (g3 : g.operandBatchingDims = [])
    (g4 : g.startIndicesBatchingDims = []) (g5 : g.startIndexMap = [0]) (g6 : g.indexVectorDim = 1)
    (g7 : g.sliceSizes = ![1, D])
    (q : GatherDims ⟨1, ![N]⟩ ⟨2, ![E, 1]⟩ ⟨1, ![E]⟩)
    (q1 : q.offsetDims = []) (q2 : q.collapsedSliceDims = [0]) (q3 : q.operandBatchingDims = [])
    (q4 : q.startIndicesBatchingDims = []) (q5 : q.startIndexMap = [0]) (q6 : q.indexVectorDim = 1)
    (q7 : q.sliceSizes = ![1])
    (pE : (⟨2, ![E, 1]⟩ : Shape).BroadcastsInDim ⟨2, ![E, D]⟩ ![0, 1])
    (pcol : (⟨1, ![E]⟩ : Shape).BroadcastsInDim ⟨2, ![E, 1]⟩ ![0])
    (Z Z0 xw B : FVec Ideal ⟨2, ![N, D]⟩ .f32) (dinv : FVec Ideal ⟨1, ![N]⟩ .f32) (srcW dstW dstC : IVec ⟨2, ![E, 1]⟩ 32)
    (i : Fin N) (f : Fin D) (hZ : Z (ix2 i f) = 0) (hZ0 : Z0 (ix2 i f) = 0) :
    maximumf (F := Ideal) (addf (F := Ideal)
        (Host.scatterAdd (F := Ideal) sc Z dstC (mulf (F := Ideal) (Host.gather g xw srcW)
          (broadcastInDim ⟨2, ![E, D]⟩ ![0, 1] pE (broadcastInDim ⟨2, ![E, 1]⟩ ![0] pcol
            (mulf (F := Ideal) (Host.gather q dinv srcW) (Host.gather q dinv dstW)))))) B) Z0 (ix2 i f)
      = max ((0 + ∑ e : Fin E, if (dstC (ix2 e 0)).toInt = (i.val : ℤ)
            then xw (ix2 (clampRow N hN (srcW (ix2 e 0)).toInt) f)
              * (dinv (ix1 (clampRow N hN (srcW (ix2 e 0)).toInt)) * dinv (ix1 (clampRow N hN (dstW (ix2 e 0)).toInt)))
            else 0) + B (ix2 i f)) 0 := by
  have hu : ∀ e : Fin E, (mulf (F := Ideal) (Host.gather g xw srcW)
        (broadcastInDim ⟨2, ![E, D]⟩ ![0, 1] pE (broadcastInDim ⟨2, ![E, 1]⟩ ![0] pcol
          (mulf (F := Ideal) (Host.gather q dinv srcW) (Host.gather q dinv dstW))))) (ix2 e f)
      = xw (ix2 (clampRow N hN (srcW (ix2 e 0)).toInt) f)
          * (dinv (ix1 (clampRow N hN (srcW (ix2 e 0)).toInt)) * dinv (ix1 (clampRow N hN (dstW (ix2 e 0)).toInt))) := fun e => by
    show Host.gather g xw srcW (ix2 e f) * broadcastInDim ⟨2, ![E, D]⟩ ![0, 1] pE (broadcastInDim ⟨2, ![E, 1]⟩ ![0] pcol
          (mulf (F := Ideal) (Host.gather q dinv srcW) (Host.gather q dinv dstW))) (ix2 e f) = _
    rw [gather_rows_apply hN g g1 g2 g3 g4 g5 g6 g7, bcast_col_apply, broadcastInDim_col_apply]
    show _ * (Host.gather q dinv srcW (ix1 e) * Host.gather q dinv dstW (ix1 e)) = _
    rw [gather_flat_apply hN q q1 q2 q3 q4 q5 q6 q7, gather_flat_apply hN q q1 q2 q3 q4 q5 q6 q7]
  show max (Host.scatterAdd (F := Ideal) sc Z dstC _ (ix2 i f) + B (ix2 i f)) (Z0 (ix2 i f)) = _
  rw [host_scatterAdd_rows_apply sc s1 s2 s3 s4, hZ, hZ0]
  simp only [hu]

end Reads

/-! ## One layer, for any extents and any dimension records -/

section Layer
variable {N E K D : Nat}

/-- A product of two real numbers is a real number. -/
theorem real_mul (a b : EReal) (ha : ∃ r : ℝ, a = (r : EReal)) (hb : ∃ r : ℝ, b = (r : EReal)) :
    ∃ r : ℝ, a * b = (r : EReal) := by
  obtain ⟨x, rfl⟩ := ha
  obtain ⟨y, rfl⟩ := hb
  exact ⟨x * y, (EReal.coe_mul x y).symm⟩

/-- ONE LAYER. At entry `(i, f)` the layer that scales by the source's factor, sums, and scales the sum by node
    `i`'s factor equals the layer that scales every summed row by both end nodes' factors — for real inputs and
    real factors `dv`, when every edge summed at `i` has wrapped and clamped target `i`. The operands enter through
    what they are at an index (`hxwK` … `hB`), so that the statement applies to whatever layout operations a program
    uses to build them. -/
theorem layer_eq (hN : 0 < N)
    (scK : ScatterDims ⟨2, ![N, D]⟩ ⟨2, ![E, 1]⟩ ⟨2, ![E, D]⟩)
    (k1 : scK.updateWindowDims = [1]) (k2 : scK.insertedWindowDims = [0]) (k3 : scK.scatterDimsToOperandDims = [0])
    (k4 : scK.indexVectorDim = 1)
    (gK : GatherDims ⟨2, ![N, D]⟩ ⟨2, ![E, 1]⟩ ⟨2, ![E, D]⟩)
    (a1 : gK.offsetDims = [1]) (a2 : gK.collapsedSliceDims = [0]) (a3 : gK.operandBatchingDims = [])
    (a4 : gK.startIndicesBatchingDims = []) (a5 : gK.startIndexMap = [0]) (a6 : gK.indexVectorDim = 1)
    (a7 : gK.sliceSizes = ![1, D])
    (scR : ScatterDims ⟨2, ![N, D]⟩ ⟨2, ![E, 1]⟩ ⟨2, ![E, D]⟩)
    (r1 : scR.updateWindowDims = [1]) (r2 : scR.insertedWindowDims = [0]) (r3 : scR.scatterDimsToOperandDims = [0])
    (r4 : scR.indexVectorDim = 1)
    (gR : GatherDims ⟨2, ![N, D]⟩ ⟨2, ![E, 1]⟩ ⟨2, ![E, D]⟩)
    (b1 : gR.offsetDims = [1]) (b2 : gR.collapsedSliceDims = [0]) (b3 : gR.operandBatchingDims = [])
    (b4 : gR.startIndicesBatchingDims = []) (b5 : gR.startIndexMap = [0]) (b6 : gR.indexVectorDim = 1)
    (b7 : gR.sliceSizes = ![1, D])
    (q : GatherDims ⟨1, ![N]⟩ ⟨2, ![E, 1]⟩ ⟨1, ![E]⟩)
    (q1 : q.offsetDims = []) (q2 : q.collapsedSliceDims = [0]) (q3 : q.operandBatchingDims = [])
    (q4 : q.startIndicesBatchingDims = []) (q5 : q.startIndexMap = [0]) (q6 : q.indexVectorDim = 1)
    (q7 : q.sliceSizes = ![1])
    (pE : (⟨2, ![E, 1]⟩ : Shape).BroadcastsInDim ⟨2, ![E, D]⟩ ![0, 1])
    (pcol : (⟨1, ![E]⟩ : Shape).BroadcastsInDim ⟨2, ![E, 1]⟩ ![0])
    (ZK xwK dB : FVec Ideal ⟨2, ![N, D]⟩ .f32) (dcol : FVec Ideal ⟨2, ![N, 1]⟩ .f32) (brow : FVec Ideal ⟨2, ![1, D]⟩ .f32)
    (ZR Z0 xwR B : FVec Ideal ⟨2, ![N, D]⟩ .f32) (dv : FVec Ideal ⟨1, ![N]⟩ .f32)
    (srcW dstW dstC : IVec ⟨2, ![E, 1]⟩ 32)
    (h : FVec Ideal ⟨2, ![N, K]⟩ .f32) (w : FVec Ideal ⟨2, ![K, D]⟩ .f32) (b : FVec Ideal ⟨1, ![D]⟩ .f32)
    (i : Fin N) (f : Fin D)
    (hZK : ZK (ix2 i f) = 0) (hZR : ZR (ix2 i f) = 0) (hZ0 : Z0 (ix2 i f) = 0)
    (hxwK : ∀ r : Fin N, xwK (ix2 r f) = ∑ c : Fin K, h (ix2 r c) * w (ix2 c f))
    (hxwR : ∀ r : Fin N, xwR (ix2 r f) = ∑ c : Fin K, h (ix2 r c) * w (ix2 c f))
    (hdB : ∀ r : Fin N, dB (ix2 r f) = dv (ix1 r)) (hdcol : dcol (ix2 i 0) = dv (ix1 i))
    (hbrow : brow (ix2 0 f) = b (ix1 f)) (hB : B (ix2 i f) = b (ix1 f))
    (hh : ∀ j, ∃ r : ℝ, h j = (r : EReal)) (hw : ∀ j, ∃ r : ℝ, w j = (r : EReal))
    (hdv : ∀ r : Fin N, ∃ x : ℝ, dv (ix1 r) = (x : EReal))
    (hwrap : ∀ e : Fin E, (dstC (ix2 e 0)).toInt = (i.val : ℤ) → clampRow N hN (dstW (ix2 e 0)).toInt = i) :
    Spec.sbr (Host.scatterAdd (F := Ideal) scK ZK dstC (Host.gather gK (mulf (F := Ideal) xwK dB) srcW)) dcol brow (ix2 i f)
      = maximumf (F := Ideal) (addf (F := Ideal)
          (Host.scatterAdd (F := Ideal) scR ZR dstC (mulf (F := Ideal) (Host.gather gR xwR srcW)
            (broadcastInDim ⟨2, ![E, D]⟩ ![0, 1] pE (broadcastInDim ⟨2, ![E, 1]⟩ ![0] pcol
              (mulf (F := Ideal) (Host.gather q dv srcW) (Host.gather q dv dstW)))))) B) Z0 (ix2 i f) := by
  rw [scaled_sum_read hN scK k1 k2 k3 k4 gK a1 a2 a3 a4 a5 a6 a7 ZK xwK dB dcol brow srcW dstC i f hZK,
    weighted_sum_read hN scR r1 r2 r3 r4 gR b1 b2 b3 b4 b5 b6 b7 q q1 q2 q3 q4 q5 q6 q7 pE pcol ZR Z0 xwR B dv srcW dstW dstC
      i f hZR hZ0]
  simp only [hxwK, hxwR, hdB, hdcol, hbrow, hB]
  rw [zero_add, zero_add]
  exact congrArg (fun z => max (z + b (ix1 f)) 0)
    (factor_out (fun e : Fin E => (dstC (ix2 e 0)).toInt = (i.val : ℤ))
      (fun e => ∑ c : Fin K, h (ix2 (clampRow N hN (srcW (ix2 e 0)).toInt) c) * w (ix2 c f))
      (fun e => dv (ix1 (clampRow N hN (srcW (ix2 e 0)).toInt)))
      (fun e => dv (ix1 (clampRow N hN (dstW (ix2 e 0)).toInt)))
      (dv (ix1 i))
      (fun e => real_sum _ (fun c => real_mul _ _ (hh _) (hw _)))
      (fun e => hdv _) (hdv i)
      (fun e hp => by rw [hwrap e hp]))

/-- What a layer leaves is real at every entry: for real inputs, real factors and a real bias. -/
theorem layer_real (hN : 0 < N)
    (scK : ScatterDims ⟨2, ![N, D]⟩ ⟨2, ![E, 1]⟩ ⟨2, ![E, D]⟩)
    (k1 : scK.updateWindowDims = [1]) (k2 : scK.insertedWindowDims = [0]) (k3 : scK.scatterDimsToOperandDims = [0])
    (k4 : scK.indexVectorDim = 1)
    (gK : GatherDims ⟨2, ![N, D]⟩ ⟨2, ![E, 1]⟩ ⟨2, ![E, D]⟩)
    (a1 : gK.offsetDims = [1]) (a2 : gK.collapsedSliceDims = [0]) (a3 : gK.operandBatchingDims = [])
    (a4 : gK.startIndicesBatchingDims = []) (a5 : gK.startIndexMap = [0]) (a6 : gK.indexVectorDim = 1)
    (a7 : gK.sliceSizes = ![1, D])
    (ZK xwK dB : FVec Ideal ⟨2, ![N, D]⟩ .f32) (dcol : FVec Ideal ⟨2, ![N, 1]⟩ .f32) (brow : FVec Ideal ⟨2, ![1, D]⟩ .f32)
    (dv : FVec Ideal ⟨1, ![N]⟩ .f32) (srcW dstC : IVec ⟨2, ![E, 1]⟩ 32)
    (h : FVec Ideal ⟨2, ![N, K]⟩ .f32) (w : FVec Ideal ⟨2, ![K, D]⟩ .f32) (b : FVec Ideal ⟨1, ![D]⟩ .f32)
    (i : Fin N) (f : Fin D) (hZK : ZK (ix2 i f) = 0)
    (hxwK : ∀ r : Fin N, xwK (ix2 r f) = ∑ c : Fin K, h (ix2 r c) * w (ix2 c f))
    (hdB : ∀ r : Fin N, dB (ix2 r f) = dv (ix1 r)) (hdcol : dcol (ix2 i 0) = dv (ix1 i))
    (hbrow : brow (ix2 0 f) = b (ix1 f))
    (hh : ∀ j, ∃ r : ℝ, h j = (r : EReal)) (hw : ∀ j, ∃ r : ℝ, w j = (r : EReal))
    (hdv : ∀ r : Fin N, ∃ x : ℝ, dv (ix1 r) = (x : EReal)) (hb : ∀ j, ∃ r : ℝ, b j = (r : EReal)) :
    ∃ r : ℝ, Spec.sbr (Host.scatterAdd (F := Ideal) scK ZK dstC (Host.gather gK (mulf (F := Ideal) xwK dB) srcW)) dcol brow
      (ix2 i f) = (r : EReal) := by
  rw [scaled_sum_read hN scK k1 k2 k3 k4 gK a1 a2 a3 a4 a5 a6 a7 ZK xwK dB dcol brow srcW dstC i f hZK]
  simp only [hxwK, hdB, hdcol, hbrow]
  exact real_clamp _ _ _
    (real_sum_ite _ _ (fun e => real_mul _ _ (real_sum _ (fun c => real_mul _ _ (hh _) (hw _))) (hdv _))) (hdv i) (hb _)

end Layer

end Cert.LayerMath

end
-- ==== Proof.BridgeFacts.lean ====
/-
  The two programs compute one function of the arguments.

  First the parts they share word for word: the two ends of every edge, the wrapped and the plain index columns, the
  nodes' degrees and scaling factors. Then two facts about them: an edge that is summed at node `i` (its target,
  read as a signed integer, is `i`) has wrapped-and-clamped target `i` as well; and every scaling factor is a real
  number (a degree is a finite count; its inverse square root is taken only where it is positive).
-/
import proofs.«105999_j16286515986672_1_alg».proof.Proof.KerTerm
import proofs.«105999_j16286515986672_1_alg».proof.Proof.RefTerm
import proofs.«105999_j16286515986672_1_alg».proof.Proof.LayerMath
import proofs.«105999_j16286515986672_1_alg».proof.Proof.LibTileMatmul

noncomputable section

open scoped BigOperators

namespace Cert.Bridge

open Idealize.ShloMosaic Idealize.ShloMosaic.ValueIdx Cert.Lib.ScatterRows Cert.LayerMath

/-! ## What the two programs share -/

theorem src_eq (a1 : IVec ⟨2, ![2, 3200000]⟩ 32) : Cert.KerTerm.src a1 = Cert.RefTerm.src a1 := rfl
theorem dst_eq (a1 : IVec ⟨2, ![2, 3200000]⟩ 32) : Cert.KerTerm.dst a1 = Cert.RefTerm.dst a1 := rfl
theorem wrap_eq (s : IVec ⟨1, ![3300000]⟩ 32) : Cert.KerTerm.wrap s = Cert.RefTerm.wrap s := rfl
theorem col_eq (s : IVec ⟨1, ![3300000]⟩ 32) : Cert.KerTerm.col s = Cert.RefTerm.col s := rfl
theorem dinv_eq (d : IVec ⟨1, ![3300000]⟩ 32) : Cert.KerTerm.dinv d = Cert.RefTerm.dinv d := rfl

/-! ## A summed edge's wrapped target -/

theorem col_apply (d : IVec ⟨1, ![3300000]⟩ 32) (e : Fin 3300000) : Cert.RefTerm.col d (ix2 e 0) = d (ix1 e) := by
  unfold Cert.RefTerm.col
  exact broadcastInDim_col_apply _ d e

theorem wrap_apply (d : IVec ⟨1, ![3300000]⟩ 32) (e : Fin 3300000) :
    Cert.RefTerm.wrap d (ix2 e 0)
      = Scalar.select (IntOp.cmpi .slt (d (ix1 e)) 0#32) (IntOp.addi (d (ix1 e)) (BitVec.ofNat 32 100000)) (d (ix1 e)) := by
  unfold Cert.RefTerm.wrap
  rw [broadcastInDim_col_apply]
  rfl

/-- An edge whose target, read signed, is node `i` has wrapped and clamped target `i`. -/
theorem wrap_of_col (d : IVec ⟨1, ![3300000]⟩ 32) (e : Fin 3300000) (i : Fin 100000)
    (h : (Cert.RefTerm.col d (ix2 e 0)).toInt = (i.val : ℤ)) :
    clampRow 100000 (by decide) (Cert.RefTerm.wrap d (ix2 e 0)).toInt = i := by
  rw [col_apply] at h
  rw [wrap_apply, nrm_toInt _ 100000 (by norm_num), h, if_neg (by omega)]
  apply Fin.ext
  show min ((i.val : ℤ).toNat) (100000 - 1) = i.val
  have := i.isLt
  rw [Int.toNat_natCast]
  omega

/-! ## The scaling factors are real numbers -/

/-- A sum of two real numbers is a real number. -/
theorem real_add (a b : EReal) (ha : ∃ r : ℝ, a = (r : EReal)) (hb : ∃ r : ℝ, b = (r : EReal)) :
    ∃ r : ℝ, a + b = (r : EReal) := by
  obtain ⟨x, rfl⟩ := ha
  obtain ⟨y, rfl⟩ := hb
  exact ⟨x + y, (EReal.coe_add x y).symm⟩

/-- The pattern of the float one denotes a real number (its exponent field is neither all ones nor zero). -/
theorem one_real : ∃ r : ℝ, Ideal.ofBits .f32 0x3F800000#32 = (r : EReal) := by
  show ∃ r : ℝ, Ideal.ieee 8 23 (0x3F800000#32 : BitVec 32) = (r : EReal)
  unfold Ideal.ieee
  dsimp only
  rw [if_neg (by decide), if_neg (by decide)]
  exact ⟨_, rfl⟩

/-- Where a real number is positive its inverse square root is a real number; elsewhere zero is taken. -/
theorem where_rsqrt_real {S : Shape} (x z : FVec Ideal S .f32) (j : S.Idx) (hx : ∃ r : ℝ, x j = (r : EReal)) (hz : z j = 0) :
    ∃ r : ℝ, select (cmpf (F := Ideal) .ogt x z) (Host.rsqrt (F := Ideal) x) z j = (r : EReal) := by
  obtain ⟨r, hr⟩ := hx
  show ∃ r' : ℝ, Scalar.select (Ideal.cmp .ogt (x j) (z j)) (Ideal.rsqrt (x j)) (z j) = (r' : EReal)
  rw [hr, hz]
  by_cases hpos : 0 < r
  · rw [Ideal.rsqrt_coe, if_neg (not_lt.mpr hpos.le), if_neg hpos.ne']
    unfold Scalar.select
    split
    · exact ⟨_, rfl⟩
    · exact ⟨0, rfl⟩
  · have hc : Ideal.cmp .ogt (r : EReal) 0 = 0#1 := by
      show BitVec.ofBool (decide ((0 : EReal) < (r : EReal))) = 0#1
      rw [decide_eq_false (fun h => hpos (EReal.coe_pos.mp h))]
      rfl
    rw [hc]
    exact ⟨0, rfl⟩

theorem deg_real (d : IVec ⟨1, ![3300000]⟩ 32) (i : Fin 100000) : ∃ r : ℝ, Cert.RefTerm.deg d (ix1 i) = (r : EReal) := by
  unfold Cert.RefTerm.deg
  rw [host_scatterAdd_flat_apply _ rfl rfl rfl rfl]
  refine real_add _ _ ⟨0, Ideal.ofBits_zero_f32⟩ ?_
  refine real_sum_ite (fun e : Fin 3300000 => (Cert.RefTerm.col d (ix2 e 0)).toInt = (i.val : ℤ)) _ (fun _ => one_real)

/-- Every node's scaling factor is a real number. -/
theorem dinv_real (d : IVec ⟨1, ![3300000]⟩ 32) (i : Fin 100000) : ∃ r : ℝ, Cert.RefTerm.dinv d (ix1 i) = (r : EReal) := by
  unfold Cert.RefTerm.dinv
  exact where_rsqrt_real _ _ (ix1 i) (deg_real d i) Ideal.ofBits_zero_f32

/-! ## Small reads the layers use -/

/-- The factors laid as a column read, at `(r, 0)`, node `r`'s factor. -/
theorem dinv2_apply (d : IVec ⟨1, ![3300000]⟩ 32) (r : Fin 100000) :
    Cert.KerTerm.dinv2 d (ix2 r 0) = Cert.RefTerm.dinv d (ix1 r) := by
  unfold Cert.KerTerm.dinv2
  rw [cast_flat_col_apply, dinv_eq]

/-- The product of two arrays read at an entry. -/
theorem mat_apply {M k n : Nat} (X : (⟨2, ![M, k]⟩ : Shape).Idx → EReal) (B : (⟨2, ![k, n]⟩ : Shape).Idx → EReal)
    (r : Fin M) (f : Fin n) : Cert.Spec.mat X B (ix2 r f) = ∑ c : Fin k, X (ix2 r c) * B (ix2 c f) := rfl

theorem dot64_apply (h : FVec Ideal ⟨2, ![100000, 128]⟩ .f32) (w : FVec Ideal ⟨2, ![128, 64]⟩ .f32) (r : Fin 100000) (f : Fin 64) :
    Host.dotGeneral (F := Ideal) Cert.ReferenceIdeal.dot_S100000x128_S128x64_S100000x64_1_0_0_1_n_n none h w (ix2 r f)
      = ∑ c : Fin 128, h (ix2 r c) * w (ix2 c f) :=
  Idealize.ShloMosaic.TileMatmul.dotGeneral_apply Cert.ReferenceIdeal.dot_S100000x128_S128x64_S100000x64_1_0_0_1_n_n.wf none h w r f

theorem dot32_apply (h : FVec Ideal ⟨2, ![100000, 64]⟩ .f32) (w : FVec Ideal ⟨2, ![64, 32]⟩ .f32) (r : Fin 100000) (f : Fin 32) :
    Host.dotGeneral (F := Ideal) Cert.ReferenceIdeal.dot_S100000x64_S64x32_S100000x32_1_0_0_1_n_n none h w (ix2 r f)
      = ∑ c : Fin 64, h (ix2 r c) * w (ix2 c f) :=
  Idealize.ShloMosaic.TileMatmul.dotGeneral_apply Cert.ReferenceIdeal.dot_S100000x64_S64x32_S100000x32_1_0_0_1_n_n.wf none h w r f

theorem dot16_apply (h : FVec Ideal ⟨2, ![100000, 32]⟩ .f32) (w : FVec Ideal ⟨2, ![32, 16]⟩ .f32) (r : Fin 100000) (f : Fin 16) :
    Host.dotGeneral (F := Ideal) Cert.ReferenceIdeal.dot_S100000x32_S32x16_S100000x16_1_0_0_1_n_n none h w (ix2 r f)
      = ∑ c : Fin 32, h (ix2 r c) * w (ix2 c f) :=
  Idealize.ShloMosaic.TileMatmul.dotGeneral_apply Cert.ReferenceIdeal.dot_S100000x32_S32x16_S100000x16_1_0_0_1_n_n.wf none h w r f

theorem dot1_apply (h : FVec Ideal ⟨2, ![100000, 16]⟩ .f32) (w : FVec Ideal ⟨2, ![16, 1]⟩ .f32) (r : Fin 100000) (f : Fin 1) :
    Host.dotGeneral (F := Ideal) Cert.ReferenceIdeal.dot_S100000x16_S16x1_S100000x1_1_0_0_1_n_n none h w (ix2 r f)
      = ∑ c : Fin 16, h (ix2 r c) * w (ix2 c f) :=
  Idealize.ShloMosaic.TileMatmul.dotGeneral_apply Cert.ReferenceIdeal.dot_S100000x16_S16x1_S100000x1_1_0_0_1_n_n.wf none h w r f

theorem kbias64_apply (b : FVec Ideal ⟨1, ![64]⟩ .f32) (f : Fin 64) :
    (shapeCast Cert.KernelIdeal.S1x64 b Cert.KernelIdeal.Facts₀.shapeCasts_S64_S1x64 : FVec Ideal Cert.KernelIdeal.S1x64 .f32) (ix2 0 f) = b (ix1 f) :=
  shapeCast_a_1a_apply b _ 0 f

theorem rbias64_apply (b : FVec Ideal ⟨1, ![64]⟩ .f32) (i : Fin 100000) (f : Fin 64) :
    (broadcastInDim Cert.ReferenceIdeal.S100000x64 ![0, 1] Cert.ReferenceIdeal.Facts₀.bcast_S1x64_S100000x64_0_1
      (broadcastInDim Cert.ReferenceIdeal.S1x64 ![1] Cert.ReferenceIdeal.Facts₀.bcast_S64_S1x64_1 b) : FVec Ideal Cert.ReferenceIdeal.S100000x64 .f32) (ix2 i f)
      = b (ix1 f) := by
  rw [bcast_row_apply, bcast_flat_row_apply]

theorem kdinvB64_apply (d : IVec ⟨1, ![3300000]⟩ 32) (r : Fin 100000) (f : Fin 64) :
    (broadcastInDim Cert.KernelIdeal.S100000x64 ![0, 1] Cert.KernelIdeal.Facts₀.bcast_S100000x1_S100000x64_0_1 (Cert.KerTerm.dinv2 d)
      : FVec Ideal Cert.KernelIdeal.S100000x64 .f32) (ix2 r f) = Cert.RefTerm.dinv d (ix1 r) := by
  rw [bcast_col_apply, dinv2_apply]

theorem kbias32_apply (b : FVec Ideal ⟨1, ![32]⟩ .f32) (f : Fin 32) :
    (shapeCast Cert.KernelIdeal.S1x32 b Cert.KernelIdeal.Facts₀.shapeCasts_S32_S1x32 : FVec Ideal Cert.KernelIdeal.S1x32 .f32) (ix2 0 f) = b (ix1 f) :=
  shapeCast_a_1a_apply b _ 0 f

theorem rbias32_apply (b : FVec Ideal ⟨1, ![32]⟩ .f32) (i : Fin 100000) (f : Fin 32) :
    (broadcastInDim Cert.ReferenceIdeal.S100000x32 ![0, 1] Cert.ReferenceIdeal.Facts₀.bcast_S1x32_S100000x32_0_1
      (broadcastInDim Cert.ReferenceIdeal.S1x32 ![1] Cert.ReferenceIdeal.Facts₀.bcast_S32_S1x32_1 b) : FVec Ideal Cert.ReferenceIdeal.S100000x32 .f32) (ix2 i f)
      = b (ix1 f) := by
  rw [bcast_row_apply, bcast_flat_row_apply]

theorem kdinvB32_apply (d : IVec ⟨1, ![3300000]⟩ 32) (r : Fin 100000) (f : Fin 32) :
    (broadcastInDim Cert.KernelIdeal.S100000x32 ![0, 1] Cert.KernelIdeal.Facts₀.bcast_S100000x1_S100000x32_0_1 (Cert.KerTerm.dinv2 d)
      : FVec Ideal Cert.KernelIdeal.S100000x32 .f32) (ix2 r f) = Cert.RefTerm.dinv d (ix1 r) := by
  rw [bcast_col_apply, dinv2_apply]

theorem kbias16_apply (b : FVec Ideal ⟨1, ![16]⟩ .f32) (f : Fin 16) :
    (shapeCast Cert.KernelIdeal.S1x16 b Cert.KernelIdeal.Facts₀.shapeCasts_S16_S1x16 : FVec Ideal Cert.KernelIdeal.S1x16 .f32) (ix2 0 f) = b (ix1 f) :=
  shapeCast_a_1a_apply b _ 0 f

theorem rbias16_apply (b : FVec Ideal ⟨1, ![16]⟩ .f32) (i : Fin 100000) (f : Fin 16) :
    (broadcastInDim Cert.ReferenceIdeal.S100000x16 ![0, 1] Cert.ReferenceIdeal.Facts₀.bcast_S1x16_S100000x16_0_1
      (broadcastInDim Cert.ReferenceIdeal.S1x16 ![1] Cert.ReferenceIdeal.Facts₀.bcast_S16_S1x16_1 b) : FVec Ideal Cert.ReferenceIdeal.S100000x16 .f32) (ix2 i f)
      = b (ix1 f) := by
  rw [bcast_row_apply, bcast_flat_row_apply]

theorem kdinvB16_apply (d : IVec ⟨1, ![3300000]⟩ 32) (r : Fin 100000) (f : Fin 16) :
    (broadcastInDim Cert.KernelIdeal.S100000x16 ![0, 1] Cert.KernelIdeal.Facts₀.bcast_S100000x1_S100000x16_0_1 (Cert.KerTerm.dinv2 d)
      : FVec Ideal Cert.KernelIdeal.S100000x16 .f32) (ix2 r f) = Cert.RefTerm.dinv d (ix1 r) := by
  rw [bcast_col_apply, dinv2_apply]

/-- Every zero array of the programs is zero at every index. -/
theorem zero_bits : Ideal.ofBits .f32 0x00000000#32 = (0 : EReal) := Ideal.ofBits_zero_f32

end Cert.Bridge

end
-- ==== Proof.BridgeLayers.lean ====
/-
  The three layers and the head: on real inputs the two programs compute one function.

  Each layer is the generic layer law at this program's extents and records, the operands entering through what
  they are at an index; each layer leaves real numbers, so the next layer's inputs are real again; the head (a
  product with the output weights plus a bias) is the same sum on both sides with no law needed.
-/
import proofs.«105999_j16286515986672_1_alg».proof.Proof.BridgeFacts

noncomputable section

open scoped BigOperators

namespace Cert.Bridge

open Idealize.ShloMosaic Idealize.ShloMosaic.ValueIdx Cert.Lib.ScatterRows Cert.LayerMath

/-- Layer 1: on real inputs the two programs leave the same array. -/
theorem layer1_eq (h : FVec Ideal ⟨2, ![100000, 128]⟩ .f32) (w : FVec Ideal ⟨2, ![128, 64]⟩ .f32) (b : FVec Ideal ⟨1, ![64]⟩ .f32)
    (s d : IVec ⟨1, ![3300000]⟩ 32) (hh : ∀ j, ∃ r : ℝ, h j = (r : EReal)) (hw : ∀ j, ∃ r : ℝ, w j = (r : EReal)) :
    Cert.KerTerm.layer1 h w b s d = Cert.RefTerm.layer1 h w b s d := by
  funext j
  obtain ⟨i, f, rfl⟩ : ∃ (i : Fin 100000) (f : Fin 64), j = ix2 i f := ⟨j 0, j 1, eq_ix2 j⟩
  unfold Cert.KerTerm.layer1 Cert.RefTerm.layer1
  exact layer_eq (N := 100000) (E := 3300000) (K := 128) (D := 64) (by decide)
    _ rfl rfl rfl rfl _ rfl rfl rfl rfl rfl rfl rfl _ rfl rfl rfl rfl _ rfl rfl rfl rfl rfl rfl rfl _ rfl rfl rfl rfl rfl rfl rfl _ _
    _ _ _ _ _ _ _ _ _ (Cert.RefTerm.dinv d) (Cert.RefTerm.wrap s) (Cert.RefTerm.wrap d) (Cert.RefTerm.col d) h w b i f
    zero_bits zero_bits zero_bits
    (fun r => mat_apply _ _ r f) (fun r => dot64_apply h w r f) (fun r => kdinvB64_apply d r f) (dinv2_apply d i)
    (kbias64_apply b f) (rbias64_apply b i f) hh hw (dinv_real d) (fun e hp => wrap_of_col d e i hp)

/-- Layer 1 leaves real numbers: for real inputs, weights and bias. -/
theorem layer1_real (h : FVec Ideal ⟨2, ![100000, 128]⟩ .f32) (w : FVec Ideal ⟨2, ![128, 64]⟩ .f32) (b : FVec Ideal ⟨1, ![64]⟩ .f32)
    (s d : IVec ⟨1, ![3300000]⟩ 32) (hh : ∀ j, ∃ r : ℝ, h j = (r : EReal)) (hw : ∀ j, ∃ r : ℝ, w j = (r : EReal))
    (hb : ∀ j, ∃ r : ℝ, b j = (r : EReal)) : ∀ j, ∃ r : ℝ, Cert.KerTerm.layer1 h w b s d j = (r : EReal) := by
  intro j
  obtain ⟨i, f, rfl⟩ : ∃ (i : Fin 100000) (f : Fin 64), j = ix2 i f := ⟨j 0, j 1, eq_ix2 j⟩
  unfold Cert.KerTerm.layer1
  exact layer_real (N := 100000) (E := 3300000) (K := 128) (D := 64) (by decide)
    _ rfl rfl rfl rfl _ rfl rfl rfl rfl rfl rfl rfl _ _ _ _ _ (Cert.RefTerm.dinv d) _ _ h w b i f zero_bits
    (fun r => mat_apply _ _ r f) (fun r => kdinvB64_apply d r f) (dinv2_apply d i) (kbias64_apply b f) hh hw (dinv_real d) hb

/-- Layer 2: on real inputs the two programs leave the same array. -/
theorem layer2_eq (h : FVec Ideal ⟨2, ![100000, 64]⟩ .f32) (w : FVec Ideal ⟨2, ![64, 32]⟩ .f32) (b : FVec Ideal ⟨1, ![32]⟩ .f32)
    (s d : IVec ⟨1, ![3300000]⟩ 32) (hh : ∀ j, ∃ r : ℝ, h j = (r : EReal)) (hw : ∀ j, ∃ r : ℝ, w j = (r : EReal)) :
    Cert.KerTerm.layer2 h w b s d = Cert.RefTerm.layer2 h w b s d := by
  funext j
  obtain ⟨i, f, rfl⟩ : ∃ (i : Fin 100000) (f : Fin 32), j = ix2 i f := ⟨j 0, j 1, eq_ix2 j⟩
  unfold Cert.KerTerm.layer2 Cert.RefTerm.layer2
  exact layer_eq (N := 100000) (E := 3300000) (K := 64) (D := 32) (by decide)
    _ rfl rfl rfl rfl _ rfl rfl rfl rfl rfl rfl rfl _ rfl rfl rfl rfl _ rfl rfl rfl rfl rfl rfl rfl _ rfl rfl rfl rfl rfl rfl rfl _ _
    _ _ _ _ _ _ _ _ _ (Cert.RefTerm.dinv d) (Cert.RefTerm.wrap s) (Cert.RefTerm.wrap d) (Cert.RefTerm.col d) h w b i f
    zero_bits zero_bits zero_bits
    (fun r => mat_apply _ _ r f) (fun r => dot32_apply h w r f) (fun r => kdinvB32_apply d r f) (dinv2_apply d i)
    (kbias32_apply b f) (rbias32_apply b i f) hh hw (dinv_real d) (fun e hp => wrap_of_col d e i hp)

/-- Layer 2 leaves real numbers: for real inputs, weights and bias. -/
theorem layer2_real (h : FVec Ideal ⟨2, ![100000, 64]⟩ .f32) (w : FVec Ideal ⟨2, ![64, 32]⟩ .f32) (b : FVec Ideal ⟨1, ![32]⟩ .f32)
    (s d : IVec ⟨1, ![3300000]⟩ 32) (hh : ∀ j, ∃ r : ℝ, h j = (r : EReal)) (hw : ∀ j, ∃ r : ℝ, w j = (r : EReal))
    (hb : ∀ j, ∃ r : ℝ, b j = (r : EReal)) : ∀ j, ∃ r : ℝ, Cert.KerTerm.layer2 h w b s d j = (r : EReal) := by
  intro j
  obtain ⟨i, f, rfl⟩ : ∃ (i : Fin 100000) (f : Fin 32), j = ix2 i f := ⟨j 0, j 1, eq_ix2 j⟩
  unfold Cert.KerTerm.layer2
  exact layer_real (N := 100000) (E := 3300000) (K := 64) (D := 32) (by decide)
    _ rfl rfl rfl rfl _ rfl rfl rfl rfl rfl rfl rfl _ _ _ _ _ (Cert.RefTerm.dinv d) _ _ h w b i f zero_bits
    (fun r => mat_apply _ _ r f) (fun r => kdinvB32_apply d r f) (dinv2_apply d i) (kbias32_apply b f) hh hw (dinv_real d) hb

/-- Layer 3: on real inputs the two programs leave the same array. -/
theorem layer3_eq (h : FVec Ideal ⟨2, ![100000, 32]⟩ .f32) (w : FVec Ideal ⟨2, ![32, 16]⟩ .f32) (b : FVec Ideal ⟨1, ![16]⟩ .f32)
    (s d : IVec ⟨1, ![3300000]⟩ 32) (hh : ∀ j, ∃ r : ℝ, h j = (r : EReal)) (hw : ∀ j, ∃ r : ℝ, w j = (r : EReal)) :
    Cert.KerTerm.layer3 h w b s d = Cert.RefTerm.layer3 h w b s d := by
  funext j
  obtain ⟨i, f, rfl⟩ : ∃ (i : Fin 100000) (f : Fin 16), j = ix2 i f := ⟨j 0, j 1, eq_ix2 j⟩
  unfold Cert.KerTerm.layer3 Cert.RefTerm.layer3
  exact layer_eq (N := 100000) (E := 3300000) (K := 32) (D := 16) (by decide)
    _ rfl rfl rfl rfl _ rfl rfl rfl rfl rfl rfl rfl _ rfl rfl rfl rfl _ rfl rfl rfl rfl rfl rfl rfl _ rfl rfl rfl rfl rfl rfl rfl _ _
    _ _ _ _ _ _ _ _ _ (Cert.RefTerm.dinv d) (Cert.RefTerm.wrap s) (Cert.RefTerm.wrap d) (Cert.RefTerm.col d) h w b i f
    zero_bits zero_bits zero_bits
    (fun r => mat_apply _ _ r f) (fun r => dot16_apply h w r f) (fun r => kdinvB16_apply d r f) (dinv2_apply d i)
    (kbias16_apply b f) (rbias16_apply b i f) hh hw (dinv_real d) (fun e hp => wrap_of_col d e i hp)

/-- Layer 3 leaves real numbers: for real inputs, weights and bias. -/
theorem layer3_real (h : FVec Ideal ⟨2, ![100000, 32]⟩ .f32) (w : FVec Ideal ⟨2, ![32, 16]⟩ .f32) (b : FVec Ideal ⟨1, ![16]⟩ .f32)
    (s d : IVec ⟨1, ![3300000]⟩ 32) (hh : ∀ j, ∃ r : ℝ, h j = (r : EReal)) (hw : ∀ j, ∃ r : ℝ, w j = (r : EReal))
    (hb : ∀ j, ∃ r : ℝ, b j = (r : EReal)) : ∀ j, ∃ r : ℝ, Cert.KerTerm.layer3 h w b s d j = (r : EReal) := by
  intro j
  obtain ⟨i, f, rfl⟩ : ∃ (i : Fin 100000) (f : Fin 16), j = ix2 i f := ⟨j 0, j 1, eq_ix2 j⟩
  unfold Cert.KerTerm.layer3
  exact layer_real (N := 100000) (E := 3300000) (K := 32) (D := 16) (by decide)
    _ rfl rfl rfl rfl _ rfl rfl rfl rfl rfl rfl rfl _ _ _ _ _ (Cert.RefTerm.dinv d) _ _ h w b i f zero_bits
    (fun r => mat_apply _ _ r f) (fun r => kdinvB16_apply d r f) (dinv2_apply d i) (kbias16_apply b f) hh hw (dinv_real d) hb

/-- The head: a product plus a bias is, entry by entry, the same sum in both programs. -/
theorem head_eq (H : FVec Ideal ⟨2, ![100000, 16]⟩ .f32) (wo : FVec Ideal ⟨2, ![16, 1]⟩ .f32) (bo : FVec Ideal ⟨1, ![1]⟩ .f32) :
    (Cert.Spec.matb (M := 100000) (k := 16) (n := 1) H wo
        (shapeCast Cert.KernelIdeal.S1x1 bo Cert.KernelIdeal.Facts₀.shapeCasts_S1_S1x1) : FVec Ideal ⟨2, ![100000, 1]⟩ .f32)
      = addf (F := Ideal)
          (Host.dotGeneral (F := Ideal) Cert.ReferenceIdeal.dot_S100000x16_S16x1_S100000x1_1_0_0_1_n_n none H wo)
          (broadcastInDim Cert.ReferenceIdeal.S100000x1 ![0, 1] Cert.ReferenceIdeal.Facts₀.bcast_S1x1_S100000x1_0_1
            (broadcastInDim Cert.ReferenceIdeal.S1x1 ![1] Cert.ReferenceIdeal.Facts₀.bcast_S1_S1x1_1 bo)) := by
  funext j
  obtain ⟨i, f, rfl⟩ : ∃ (i : Fin 100000) (f : Fin 1), j = ix2 i f := ⟨j 0, j 1, eq_ix2 j⟩
  show (∑ c : Fin 16, H (ix2 i c) * wo (ix2 c f))
        + (shapeCast Cert.KernelIdeal.S1x1 bo Cert.KernelIdeal.Facts₀.shapeCasts_S1_S1x1 : FVec Ideal Cert.KernelIdeal.S1x1 .f32) (ix2 0 f)
      = Host.dotGeneral (F := Ideal) Cert.ReferenceIdeal.dot_S100000x16_S16x1_S100000x1_1_0_0_1_n_n none H wo (ix2 i f)
        + (broadcastInDim Cert.ReferenceIdeal.S100000x1 ![0, 1] Cert.ReferenceIdeal.Facts₀.bcast_S1x1_S100000x1_0_1
            (broadcastInDim Cert.ReferenceIdeal.S1x1 ![1] Cert.ReferenceIdeal.Facts₀.bcast_S1_S1x1_1 bo)
            : FVec Ideal Cert.ReferenceIdeal.S100000x1 .f32) (ix2 i f)
  rw [dot1_apply, shapeCast_a_1a_apply, bcast_row_apply, bcast_flat_row_apply]

/-- THE BRIDGE. On real float inputs the two programs' results are one array. -/
theorem out_eq (x : FVec Ideal ⟨2, ![100000, 128]⟩ .f32) (a1 : IVec ⟨2, ![2, 3200000]⟩ 32)
    (w1 : FVec Ideal ⟨2, ![128, 64]⟩ .f32) (b1 : FVec Ideal ⟨1, ![64]⟩ .f32)
    (w2 : FVec Ideal ⟨2, ![64, 32]⟩ .f32) (b2 : FVec Ideal ⟨1, ![32]⟩ .f32)
    (w3 : FVec Ideal ⟨2, ![32, 16]⟩ .f32) (b3 : FVec Ideal ⟨1, ![16]⟩ .f32)
    (wo : FVec Ideal ⟨2, ![16, 1]⟩ .f32) (bo : FVec Ideal ⟨1, ![1]⟩ .f32)
    (hx : ∀ j, ∃ r : ℝ, x j = (r : EReal)) (hw1 : ∀ j, ∃ r : ℝ, w1 j = (r : EReal)) (hb1 : ∀ j, ∃ r : ℝ, b1 j = (r : EReal))
    (hw2 : ∀ j, ∃ r : ℝ, w2 j = (r : EReal)) (hb2 : ∀ j, ∃ r : ℝ, b2 j = (r : EReal))
    (hw3 : ∀ j, ∃ r : ℝ, w3 j = (r : EReal)) :
    Cert.KerTerm.out x a1 w1 b1 w2 b2 w3 b3 wo bo = Cert.RefTerm.out x a1 w1 b1 w2 b2 w3 b3 wo bo := by
  unfold Cert.KerTerm.out Cert.RefTerm.out
  rw [src_eq a1, dst_eq a1]
  have r1 := layer1_real x w1 b1 (Cert.RefTerm.src a1) (Cert.RefTerm.dst a1) hx hw1 hb1
  have r2 := layer2_real _ w2 b2 (Cert.RefTerm.src a1) (Cert.RefTerm.dst a1) r1 hw2 hb2
  rw [← layer1_eq x w1 b1 (Cert.RefTerm.src a1) (Cert.RefTerm.dst a1) hx hw1,
    ← layer2_eq _ w2 b2 (Cert.RefTerm.src a1) (Cert.RefTerm.dst a1) r1 hw2,
    ← layer3_eq _ w3 b3 (Cert.RefTerm.src a1) (Cert.RefTerm.dst a1) r2 hw3]
  exact head_eq _ wo bo

end Cert.Bridge

end
-- ==== Proof.lean ====
/-
  The certificate of a three-layer graph convolution with a linear head: a Pallas program of seven row-tiled regions
  (three matrix products, three row-scale-bias-clamp epilogues, a product with bias) around host gathers and
  scatter-adds, against a reference written with host operations only.

  The two programs differ in one place per layer. The reference scales every gathered row by the product of the
  scaling factors of the edge's two end nodes before summing the rows at the edges' targets; the Pallas program
  scales by the source's factor only, sums, and scales the sum by the target node's own factor. An edge summed at
  node i has target i, so the second factor is constant over the sum and, all numbers being real, factors out. The
  finiteness of the inputs is what makes them real; every layer keeps them real.

  The frames of the two Pallas programs are the generated ones; the reference's frame is its run with the result
  dropped; nothing was rewritten by the ideal pass, so there is nothing to preserve.
-/
import proofs.«105999_j16286515986672_1_alg».proof.Defs
import proofs.«105999_j16286515986672_1_alg».proof.Proof.Gen.Kernel
import proofs.«105999_j16286515986672_1_alg».proof.Proof.Gen.Kernel.Frame
import proofs.«105999_j16286515986672_1_alg».proof.Proof.Gen.KernelIdeal
import proofs.«105999_j16286515986672_1_alg».proof.Proof.Gen.KernelIdeal.Frame
import proofs.«105999_j16286515986672_1_alg».proof.Proof.Gen.ReferenceIdeal
import proofs.«105999_j16286515986672_1_alg».proof.Proof.Gen.Pre_finite_inputs
import proofs.«105999_j16286515986672_1_alg».proof.Proof.KerRun
import proofs.«105999_j16286515986672_1_alg».proof.Proof.RefRun
import proofs.«105999_j16286515986672_1_alg».proof.Proof.Finite
import proofs.«105999_j16286515986672_1_alg».proof.Proof.BridgeLayers
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run m ρ)

/-- Both programs end with the same result: each run names its result as a term of the argument arrays, the
    arguments agree, the precondition makes every float argument real, and on real arguments the two terms are one
    function. -/
theorem algebraic : Cert.algebraic_KernelIdeal_ReferenceIdeal := by
  intro m ρ m' ρ' hpre hagree
  refine ⟨fun c => Cert.KerTerm.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    Cert.KernelIdeal.KerRun.run m ρ, ?_⟩
  refine (θ_run Cert.ReferenceIdeal.defs _ _).mono (fun r h c => ⟨(h c).1.trans ?_, (h c).2⟩)
    (Cert.ReferenceIdeal.RefRun.run m' ρ')
  obtain ⟨e0, e1, e2, e3, e4, e5, e6, e7, e8, e9⟩ := hagree c
  rw [e0, e1, e2, e3, e4, e5, e6, e7, e8, e9]
  obtain ⟨hx, hw1, hb1, hw2, hb2, hw3, _, _, _⟩ := Cert.Finite.reals_of_finite _ _ _ _ _ _ _ _ _ _ (hpre c)
  exact (Cert.Bridge.out_eq _ _ _ _ _ _ _ _ _ _ hx hw1 hb1 hw2 hb2 hw3).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
